-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v318)) (v1 : (c : Dev Cert.KernelIdeal.nD) → Buf (Elt Ideal) ((c.tc : Thread Cert.KernelIdeal.nD Cert.KernelIdeal.τ).loc Cert.KernelIdeal.main_v335)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v318) = v0 c
          ∧ r.2.mem ((c.tc : Thread Cert.KernelIdeal.nD Cert.KernelIdeal.τ).loc Cert.KernelIdeal.main_v335) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v308) = v0 c
          ∧ r.2.mem ((c.tc : Thread Cert.ReferenceIdeal.nD Cert.ReferenceIdeal.τ).loc Cert.ReferenceIdeal.main_v325) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x64x8 : Shape := ⟨3, ![1024, 64, 8]⟩
abbrev S512x64 : Shape := ⟨2, ![512, 64]⟩
abbrev S512 : Shape := ⟨1, ![512]⟩
abbrev S512x512 : Shape := ⟨2, ![512, 512]⟩
abbrev S8x5256x512 : Shape := ⟨3, ![8, 5256, 512]⟩
abbrev S8x5256 : Shape := ⟨2, ![8, 5256]⟩
abbrev S4x8 : Shape := ⟨2, ![4, 8]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x64x8 : S_.BroadcastsInDim S1024x64x8 (![] : Fin 0 → Fin S1024x64x8.rank)
  reducesTo_S1024x64x8_S_d0_1_2 : S1024x64x8.ReducesTo [0, 1, 2] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S8x5256x512 : S_.BroadcastsInDim S8x5256x512 (![] : Fin 0 → Fin S8x5256x512.rank)
  reducesTo_S8x5256x512_S_d0_1_2 : S8x5256x512.ReducesTo [0, 1, 2] S_
  bcast_S_S8x5256 : S_.BroadcastsInDim S8x5256 (![] : Fin 0 → Fin S8x5256.rank)
  reducesTo_S8x5256_S_d0_1 : S8x5256.ReducesTo [0, 1] S_

variable [Facts]

def fn_part2 {F : FTy → Type} [FloatOps F] (main_arg7 : FVec F S8x5256 .f32) (main_v33 : IVec S_ 1) : IVec S_ 1 :=
  let main_v34 : FVec F S8x5256 .f32 := Host.absf main_arg7
  let main_cst_12 : FVec F S_ .f32 := constant S_ .f32 0x7F800000#32
  let main_v35 : FVec F S8x5256 .f32 := broadcastInDim S8x5256 ![] bcast_S_S8x5256 main_cst_12
  let main_v36 : IVec S8x5256 1 := cmpf .olt main_v34 main_v35
  let main_c_13 : IVec S_ 1 := constantI S_ 1 1#1
  let main_v37 : IVec S_ 1 := (fun x v => Host.reduce IntOp.andi x v reducesTo_S8x5256_S_d0_1 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S8x5256x512 .f32) (main_arg7 : FVec F S8x5256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S8x5256x512 .f32 := Host.absf main_arg6
  let main_cst_10 : FVec F S_ .f32 := constant S_ .f32 0x7F800000#32
  let main_v30 : FVec F S8x5256x512 .f32 := broadcastInDim S8x5256x512 ![] bcast_S_S8x5256x512 main_cst_10
  let main_v31 : IVec S8x5256x512 1 := cmpf .olt main_v29 main_v30
  let main_c_11 : IVec S_ 1 := constantI S_ 1 1#1
  let main_v32 : IVec S_ 1 := (fun x v => Host.reduce IntOp.andi x v reducesTo_S8x5256x512_S_d0_1_2 h_S_) main_v31 main_c_11
  let main_v33 : IVec S_ 1 := andi main_v28 main_v32
  fn_part2 (F := F) main_arg7 main_v33

def fn {F : FTy → Type} [FloatOps F] (main_arg0 : FVec F S1024x64 .f32) (main_arg1 : FVec F S1024x64x8 .f32) (main_arg2 : FVec F S512x64 .f32) (main_arg3 : FVec F S512 .f32) (main_arg4 : FVec F S512x512 .f32) (main_arg5 : FVec F S512 .f32) (main_arg6 : FVec F S8x5256x512 .f32) (main_arg7 : FVec F S8x5256 .f32) (main_arg8 : IVec S4x8 32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x64x8 .f32 := Host.absf main_arg1
  let main_cst_0 : FVec F S_ .f32 := constant S_ .f32 0x7F800000#32
  let main_v5 : FVec F S1024x64x8 .f32 := broadcastInDim S1024x64x8 ![] bcast_S_S1024x64x8 main_cst_0
  let main_v6 : IVec S1024x64x8 1 := cmpf .olt main_v4 main_v5
  let main_c_1 : IVec S_ 1 := constantI S_ 1 1#1
  let main_v7 : IVec S_ 1 := (fun x v => Host.reduce IntOp.andi x v reducesTo_S1024x64x8_S_d0_1_2 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S1024x64 : Shape := ⟨2, ![1024, 64]⟩
abbrev S1024x64x8 : Shape := ⟨3, ![1024, 64, 8]⟩
abbrev S512x64 : Shape := ⟨2, ![512, 64]⟩
abbrev S512 : Shape := ⟨1, ![512]⟩
abbrev S512x512 : Shape := ⟨2, ![512, 512]⟩
abbrev S8x5256x512 : Shape := ⟨3, ![8, 5256, 512]⟩
abbrev S8x5256 : Shape := ⟨2, ![8, 5256]⟩
abbrev S4x8 : Shape := ⟨2, ![4, 8]⟩
abbrev S1024x512 : Shape := ⟨2, ![1024, 512]⟩
abbrev S1x512 : Shape := ⟨2, ![1, 512]⟩
abbrev S_ : Shape := ⟨0, ![]⟩
abbrev S8x512x5256 : Shape := ⟨3, ![8, 512, 5256]⟩
abbrev S8x512x5376 : Shape := ⟨3, ![8, 512, 5376]⟩
abbrev S8x5376 : Shape := ⟨2, ![8, 5376]⟩
abbrev S8x1x5376 : Shape := ⟨3, ![8, 1, 5376]⟩
abbrev S8x1024x5376 : Shape := ⟨3, ![8, 1024, 5376]⟩
abbrev S256x512 : Shape := ⟨2, ![256, 512]⟩
abbrev S1x512x5376 : Shape := ⟨3, ![1, 512, 5376]⟩
abbrev S1x1x5376 : Shape := ⟨3, ![1, 1, 5376]⟩
abbrev S1x256x5376 : Shape := ⟨3, ![1, 256, 5376]⟩
abbrev S512x5376 : Shape := ⟨2, ![512, 5376]⟩
abbrev S256x5376 : Shape := ⟨2, ![256, 5376]⟩
abbrev S1x5376 : Shape := ⟨2, ![1, 5376]⟩
abbrev S1x8 : Shape := ⟨2, ![1, 8]⟩
abbrev S8 : Shape := ⟨1, ![8]⟩
abbrev S1x1x8 : Shape := ⟨3, ![1, 1, 8]⟩
abbrev S1x1024x5376 : Shape := ⟨3, ![1, 1024, 5376]⟩
abbrev S1024x5376 : Shape := ⟨2, ![1024, 5376]⟩
abbrev S1024x4096 : Shape := ⟨2, ![1024, 4096]⟩
abbrev S1024x64x64 : Shape := ⟨3, ![1024, 64, 64]⟩
abbrev S1024x8x64 : Shape := ⟨3, ![1024, 8, 64]⟩
abbrev S1024x8 : Shape := ⟨2, ![1024, 8]⟩
abbrev S1024x1x64 : Shape := ⟨3, ![1024, 1, 64]⟩
abbrev S1024x1x8 : Shape := ⟨3, ![1024, 1, 8]⟩

abbrev nBuf : Space → Nat
  | .hbm => 370
  | .vmem => 8
  | .smem => 0
  | _ => 0

abbrev hbmTy0_0 (i : Nat) : BufTy := match i % 128 with
  | 0 => ⟨S1024x64, .f32⟩
  | 1 => ⟨S1024x64x8, .f32⟩
  | 2 => ⟨S512x64, .f32⟩
  | 3 => ⟨S512, .f32⟩
  | 4 => ⟨S512x512, .f32⟩
  | 5 => ⟨S512, .f32⟩
  | 6 => ⟨S8x5256x512, .f32⟩
  | 7 => ⟨S8x5256, .f32⟩
  | 8 => ⟨S4x8, .i32⟩
  | 9 => ⟨S1024x512, .f32⟩
  | 10 => ⟨S1x512, .f32⟩
  | 11 => ⟨S1024x512, .f32⟩
  | 12 => ⟨S1024x512, .f32⟩
  | 13 => ⟨S_, .f32⟩
  | 14 => ⟨S1024x512, .f32⟩
  | 15 => ⟨S1024x512, .f32⟩
  | 16 => ⟨S1024x512, .f32⟩
  | 17 => ⟨S1x512, .f32⟩
  | 18 => ⟨S1024x512, .f32⟩
  | 19 => ⟨S1024x512, .f32⟩
  | 20 => ⟨S_, .f32⟩
  | 21 => ⟨S1024x512, .f32⟩
  | 22 => ⟨S1024x512, .f32⟩
  | 23 => ⟨S8x5256x512, .bf16⟩
  | 24 => ⟨S8x512x5256, .bf16⟩
  | 25 => ⟨S_, .i32⟩
  | 26 => ⟨S_, .bf16⟩
  | 27 => ⟨S8x512x5376, .bf16⟩
  | 28 => ⟨S_, .i32⟩
  | 29 => ⟨S_, .f32⟩
  | 30 => ⟨S8x5376, .f32⟩
  | 31 => ⟨S8x1x5376, .f32⟩
  | 32 => ⟨S1024x512, .bf16⟩
  | 33 => ⟨S8x1024x5376, .bf16⟩
  | 34 => ⟨S_, .f32⟩
  | 35 => ⟨S1024x64, .f32⟩
  | 36 => ⟨S1x8, .i32⟩
  | 37 => ⟨S8, .i32⟩
  | 38 => ⟨S8, .f32⟩
  | 39 => ⟨S1x1x8, .f32⟩
  | 40 => ⟨S1024x64x8, .f32⟩
  | 41 => ⟨S1024x64x8, .f32⟩
  | 42 => ⟨S1x1024x5376, .bf16⟩
  | 43 => ⟨S1024x5376, .bf16⟩
  | 44 => ⟨S1024x5376, .f32⟩
  | 45 => ⟨S1024x512, .f32⟩
  | 46 => ⟨S1024x64x8, .f32⟩
  | 47 => ⟨S1024x64, .f32⟩
  | 48 => ⟨S1024x4096, .f32⟩
  | 49 => ⟨S1024x64x64, .f32⟩
  | 50 => ⟨S1024x64, .f32⟩
  | 51 => ⟨S1024x512, .f32⟩
  | 52 => ⟨S1024x8x64, .f32⟩
  | 53 => ⟨S1024x8, .f32⟩
  | 54 => ⟨S1024x64x64, .f32⟩
  | 55 => ⟨S1024x1x64, .f32⟩
  | 56 => ⟨S1024x64x64, .f32⟩
  | 57 => ⟨S1024x64x64, .f32⟩
  | 58 => ⟨S1024x64x64, .f32⟩
  | 59 => ⟨S1024x64x64, .f32⟩
  | 60 => ⟨S1024x1x64, .f32⟩
  | 61 => ⟨S1024x64x64, .f32⟩
  | 62 => ⟨S1024x64x64, .f32⟩
  | 63 => ⟨S1024x64x64, .f32⟩
  | 64 => ⟨S1024x64x8, .f32⟩
  | 65 => ⟨S1024x1x8, .f32⟩
  | 66 => ⟨S1024x64x8, .f32⟩
  | 67 => ⟨S1024x64x8, .f32⟩
  | 68 => ⟨S1x1024x5376, .bf16⟩
  | 69 => ⟨S1024x5376, .bf16⟩
  | 70 => ⟨S1024x5376, .f32⟩
  | 71 => ⟨S1024x512, .f32⟩
  | 72 => ⟨S1024x64x8, .f32⟩
  | 73 => ⟨S1024x64, .f32⟩
  | 74 => ⟨S1024x4096, .f32⟩
  | 75 => ⟨S1024x64x64, .f32⟩
  | 76 => ⟨S1024x64, .f32⟩
  | 77 => ⟨S1024x512, .f32⟩
  | 78 => ⟨S1024x8x64, .f32⟩
  | 79 => ⟨S1024x8, .f32⟩
  | 80 => ⟨S1024x64x64, .f32⟩
  | 81 => ⟨S1024x1x64, .f32⟩
  | 82 => ⟨S1024x64x64, .f32⟩
  | 83 => ⟨S1024x64x64, .f32⟩
  | 84 => ⟨S1024x64x64, .f32⟩
  | 85 => ⟨S1024x64x64, .f32⟩
  | 86 => ⟨S1024x1x64, .f32⟩
  | 87 => ⟨S1024x64x64, .f32⟩
  | 88 => ⟨S1024x64x64, .f32⟩
  | 89 => ⟨S1024x64x64, .f32⟩
  | 90 => ⟨S1024x64x8, .f32⟩
  | 91 => ⟨S1024x1x8, .f32⟩
  | 92 => ⟨S1024x64x8, .f32⟩
  | 93 => ⟨S1024x64x8, .f32⟩
  | 94 => ⟨S1x1x8, .f32⟩
  | 95 => ⟨S1024x64x8, .f32⟩
  | 96 => ⟨S1024x64x8, .f32⟩
  | 97 => ⟨S_, .f32⟩
  | 98 => ⟨S8, .f32⟩
  | 99 => ⟨S8, .f32⟩
  | 100 => ⟨S1024x64x8, .f32⟩
  | 101 => ⟨S1024x64x8, .f32⟩
  | 102 => ⟨S1024x64x8, .f32⟩
  | 103 => ⟨S1x1x8, .f32⟩
  | 104 => ⟨S1024x64x8, .f32⟩
  | 105 => ⟨S1024x64x8, .f32⟩
  | 106 => ⟨S1024x64x8, .f32⟩
  | 107 => ⟨S_, .f32⟩
  | 108 => ⟨S8, .f32⟩
  | 109 => ⟨S8, .f32⟩
  | 110 => ⟨S1x1x8, .f32⟩
  | 111 => ⟨S1024x64x8, .f32⟩
  | 112 => ⟨S1024x64x8, .f32⟩
  | 113 => ⟨S_, .f32⟩
  | 114 => ⟨S1024x64, .f32⟩
  | 115 => ⟨S1024x64, .f32⟩
  | 116 => ⟨S1x8, .i32⟩
  | 117 => ⟨S8, .i32⟩
  | 118 => ⟨S8, .f32⟩
  | 119 => ⟨S1x1x8, .f32⟩
  | 120 => ⟨S1024x64x8, .f32⟩
  | 121 => ⟨S1024x64x8, .f32⟩
  | 122 => ⟨S1x1024x5376, .bf16⟩
  | 123 => ⟨S1024x5376, .bf16⟩
  | 124 => ⟨S1024x5376, .f32⟩
  | 125 => ⟨S1024x512, .f32⟩
  | 126 => ⟨S1024x64x8, .f32⟩
  | 127 => ⟨S1024x64, .f32⟩
  | _ => ⟨S1024x64, .f32⟩

abbrev hbmTy0_1 (i : Nat) : BufTy := match i % 128 with
  | 0 => ⟨S1024x4096, .f32⟩
  | 1 => ⟨S1024x64x64, .f32⟩
  | 2 => ⟨S1024x64, .f32⟩
  | 3 => ⟨S1024x512, .f32⟩
  | 4 => ⟨S1024x8x64, .f32⟩
  | 5 => ⟨S1024x8, .f32⟩
  | 6 => ⟨S1024x64x64, .f32⟩
  | 7 => ⟨S1024x1x64, .f32⟩
  | 8 => ⟨S1024x64x64, .f32⟩
  | 9 => ⟨S1024x64x64, .f32⟩
  | 10 => ⟨S1024x64x64, .f32⟩
  | 11 => ⟨S1024x64x64, .f32⟩
  | 12 => ⟨S1024x1x64, .f32⟩
  | 13 => ⟨S1024x64x64, .f32⟩
  | 14 => ⟨S1024x64x64, .f32⟩
  | 15 => ⟨S1024x64x64, .f32⟩
  | 16 => ⟨S1024x64x8, .f32⟩
  | 17 => ⟨S1024x1x8, .f32⟩
  | 18 => ⟨S1024x64x8, .f32⟩
  | 19 => ⟨S1024x64x8, .f32⟩
  | 20 => ⟨S1x1024x5376, .bf16⟩
  | 21 => ⟨S1024x5376, .bf16⟩
  | 22 => ⟨S1024x5376, .f32⟩
  | 23 => ⟨S1024x512, .f32⟩
  | 24 => ⟨S1024x64x8, .f32⟩
  | 25 => ⟨S1024x64, .f32⟩
  | 26 => ⟨S1024x4096, .f32⟩
  | 27 => ⟨S1024x64x64, .f32⟩
  | 28 => ⟨S1024x64, .f32⟩
  | 29 => ⟨S1024x512, .f32⟩
  | 30 => ⟨S1024x8x64, .f32⟩
  | 31 => ⟨S1024x8, .f32⟩
  | 32 => ⟨S1024x64x64, .f32⟩
  | 33 => ⟨S1024x1x64, .f32⟩
  | 34 => ⟨S1024x64x64, .f32⟩
  | 35 => ⟨S1024x64x64, .f32⟩
  | 36 => ⟨S1024x64x64, .f32⟩
  | 37 => ⟨S1024x64x64, .f32⟩
  | 38 => ⟨S1024x1x64, .f32⟩
  | 39 => ⟨S1024x64x64, .f32⟩
  | 40 => ⟨S1024x64x64, .f32⟩
  | 41 => ⟨S1024x64x64, .f32⟩
  | 42 => ⟨S1024x64x8, .f32⟩
  | 43 => ⟨S1024x1x8, .f32⟩
  | 44 => ⟨S1024x64x8, .f32⟩
  | 45 => ⟨S1024x64x8, .f32⟩
  | 46 => ⟨S1x1x8, .f32⟩
  | 47 => ⟨S1024x64x8, .f32⟩
  | 48 => ⟨S1024x64x8, .f32⟩
  | 49 => ⟨S_, .f32⟩
  | 50 => ⟨S8, .f32⟩
  | 51 => ⟨S8, .f32⟩
  | 52 => ⟨S1024x64x8, .f32⟩
  | 53 => ⟨S1024x64x8, .f32⟩
  | 54 => ⟨S1024x64x8, .f32⟩
  | 55 => ⟨S1x1x8, .f32⟩
  | 56 => ⟨S1024x64x8, .f32⟩
  | 57 => ⟨S1024x64x8, .f32⟩
  | 58 => ⟨S1024x64x8, .f32⟩
  | 59 => ⟨S_, .f32⟩
  | 60 => ⟨S8, .f32⟩
  | 61 => ⟨S8, .f32⟩
  | 62 => ⟨S1x1x8, .f32⟩
  | 63 => ⟨S1024x64x8, .f32⟩
  | 64 => ⟨S1024x64x8, .f32⟩
  | 65 => ⟨S_, .f32⟩
  | 66 => ⟨S1024x64, .f32⟩
  | 67 => ⟨S1024x64, .f32⟩
  | 68 => ⟨S1x8, .i32⟩
  | 69 => ⟨S8, .i32⟩
  | 70 => ⟨S8, .f32⟩
  | 71 => ⟨S1x1x8, .f32⟩
  | 72 => ⟨S1024x64x8, .f32⟩
  | 73 => ⟨S1024x64x8, .f32⟩
  | 74 => ⟨S1x1024x5376, .bf16⟩
  | 75 => ⟨S1024x5376, .bf16⟩
  | 76 => ⟨S1024x5376, .f32⟩
  | 77 => ⟨S1024x512, .f32⟩
  | 78 => ⟨S1024x64x8, .f32⟩
  | 79 => ⟨S1024x64, .f32⟩
  | 80 => ⟨S1024x4096, .f32⟩
  | 81 => ⟨S1024x64x64, .f32⟩
  | 82 => ⟨S1024x64, .f32⟩
  | 83 => ⟨S1024x512, .f32⟩
  | 84 => ⟨S1024x8x64, .f32⟩
  | 85 => ⟨S1024x8, .f32⟩
  | 86 => ⟨S1024x64x64, .f32⟩
  | 87 => ⟨S1024x1x64, .f32⟩
  | 88 => ⟨S1024x64x64, .f32⟩
  | 89 => ⟨S1024x64x64, .f32⟩
  | 90 => ⟨S1024x64x64, .f32⟩
  | 91 => ⟨S1024x64x64, .f32⟩
  | 92 => ⟨S1024x1x64, .f32⟩
  | 93 => ⟨S1024x64x64, .f32⟩
  | 94 => ⟨S1024x64x64, .f32⟩
  | 95 => ⟨S1024x64x64, .f32⟩
  | 96 => ⟨S1024x64x8, .f32⟩
  | 97 => ⟨S1024x1x8, .f32⟩
  | 98 => ⟨S1024x64x8, .f32⟩
  | 99 => ⟨S1024x64x8, .f32⟩
  | 100 => ⟨S1x1024x5376, .bf16⟩
  | 101 => ⟨S1024x5376, .bf16⟩
  | 102 => ⟨S1024x5376, .f32⟩
  | 103 => ⟨S1024x512, .f32⟩
  | 104 => ⟨S1024x64x8, .f32⟩
  | 105 => ⟨S1024x64, .f32⟩
  | 106 => ⟨S1024x4096, .f32⟩
  | 107 => ⟨S1024x64x64, .f32⟩
  | 108 => ⟨S1024x64, .f32⟩
  | 109 => ⟨S1024x512, .f32⟩
  | 110 => ⟨S1024x8x64, .f32⟩
  | 111 => ⟨S1024x8, .f32⟩
  | 112 => ⟨S1024x64x64, .f32⟩
  | 113 => ⟨S1024x1x64, .f32⟩
  | 114 => ⟨S1024x64x64, .f32⟩
  | 115 => ⟨S1024x64x64, .f32⟩
  | 116 => ⟨S1024x64x64, .f32⟩
  | 117 => ⟨S1024x64x64, .f32⟩
  | 118 => ⟨S1024x1x64, .f32⟩
  | 119 => ⟨S1024x64x64, .f32⟩
  | 120 => ⟨S1024x64x64, .f32⟩
  | 121 => ⟨S1024x64x64, .f32⟩
  | 122 => ⟨S1024x64x8, .f32⟩
  | 123 => ⟨S1024x1x8, .f32⟩
  | 124 => ⟨S1024x64x8, .f32⟩
  | 125 => ⟨S1024x64x8, .f32⟩
  | 126 => ⟨S1x1x8, .f32⟩
  | 127 => ⟨S1024x64x8, .f32⟩
  | _ => ⟨S1024x64, .f32⟩

abbrev hbmTy0_2 (i : Nat) : BufTy := match i % 128 with
  | 0 => ⟨S1024x64x8, .f32⟩
  | 1 => ⟨S_, .f32⟩
  | 2 => ⟨S8, .f32⟩
  | 3 => ⟨S8, .f32⟩
  | 4 => ⟨S1024x64x8, .f32⟩
  | 5 => ⟨S1024x64x8, .f32⟩
  | 6 => ⟨S1024x64x8, .f32⟩
  | 7 => ⟨S1x1x8, .f32⟩
  | 8 => ⟨S1024x64x8, .f32⟩
  | 9 => ⟨S1024x64x8, .f32⟩
  | 10 => ⟨S1024x64x8, .f32⟩
  | 11 => ⟨S_, .f32⟩
  | 12 => ⟨S8, .f32⟩
  | 13 => ⟨S8, .f32⟩
  | 14 => ⟨S1x1x8, .f32⟩
  | 15 => ⟨S1024x64x8, .f32⟩
  | 16 => ⟨S1024x64x8, .f32⟩
  | 17 => ⟨S_, .f32⟩
  | 18 => ⟨S1024x64, .f32⟩
  | 19 => ⟨S1024x64, .f32⟩
  | 20 => ⟨S1x8, .i32⟩
  | 21 => ⟨S8, .i32⟩
  | 22 => ⟨S8, .f32⟩
  | 23 => ⟨S1x1x8, .f32⟩
  | 24 => ⟨S1024x64x8, .f32⟩
  | 25 => ⟨S1024x64x8, .f32⟩
  | 26 => ⟨S1x1024x5376, .bf16⟩
  | 27 => ⟨S1024x5376, .bf16⟩
  | 28 => ⟨S1024x5376, .f32⟩
  | 29 => ⟨S1024x512, .f32⟩
  | 30 => ⟨S1024x64x8, .f32⟩
  | 31 => ⟨S1024x64, .f32⟩
  | 32 => ⟨S1024x4096, .f32⟩
  | 33 => ⟨S1024x64x64, .f32⟩
  | 34 => ⟨S1024x64, .f32⟩
  | 35 => ⟨S1024x512, .f32⟩
  | 36 => ⟨S1024x8x64, .f32⟩
  | 37 => ⟨S1024x8, .f32⟩
  | 38 => ⟨S1024x64x64, .f32⟩
  | 39 => ⟨S1024x1x64, .f32⟩
  | 40 => ⟨S1024x64x64, .f32⟩
  | 41 => ⟨S1024x64x64, .f32⟩
  | 42 => ⟨S1024x64x64, .f32⟩
  | 43 => ⟨S1024x64x64, .f32⟩
  | 44 => ⟨S1024x1x64, .f32⟩
  | 45 => ⟨S1024x64x64, .f32⟩
  | 46 => ⟨S1024x64x64, .f32⟩
  | 47 => ⟨S1024x64x64, .f32⟩
  | 48 => ⟨S1024x64x8, .f32⟩
  | 49 => ⟨S1024x1x8, .f32⟩
  | 50 => ⟨S1024x64x8, .f32⟩
  | 51 => ⟨S1024x64x8, .f32⟩
  | 52 => ⟨S1x1024x5376, .bf16⟩
  | 53 => ⟨S1024x5376, .bf16⟩
  | 54 => ⟨S1024x5376, .f32⟩
  | 55 => ⟨S1024x512, .f32⟩
  | 56 => ⟨S1024x64x8, .f32⟩
  | 57 => ⟨S1024x64, .f32⟩
  | 58 => ⟨S1024x4096, .f32⟩
  | 59 => ⟨S1024x64x64, .f32⟩
  | 60 => ⟨S1024x64, .f32⟩
  | 61 => ⟨S1024x512, .f32⟩
  | 62 => ⟨S1024x8x64, .f32⟩
  | 63 => ⟨S1024x8, .f32⟩
  | 64 => ⟨S1024x64x64, .f32⟩
  | 65 => ⟨S1024x1x64, .f32⟩
  | 66 => ⟨S1024x64x64, .f32⟩
  | 67 => ⟨S1024x64x64, .f32⟩
  | 68 => ⟨S1024x64x64, .f32⟩
  | 69 => ⟨S1024x64x64, .f32⟩
  | 70 => ⟨S1024x1x64, .f32⟩
  | 71 => ⟨S1024x64x64, .f32⟩
  | 72 => ⟨S1024x64x64, .f32⟩
  | 73 => ⟨S1024x64x64, .f32⟩
  | 74 => ⟨S1024x64x8, .f32⟩
  | 75 => ⟨S1024x1x8, .f32⟩
  | 76 => ⟨S1024x64x8, .f32⟩
  | 77 => ⟨S1024x64x8, .f32⟩
  | 78 => ⟨S1x1x8, .f32⟩
  | 79 => ⟨S1024x64x8, .f32⟩
  | 80 => ⟨S1024x64x8, .f32⟩
  | 81 => ⟨S_, .f32⟩
  | 82 => ⟨S8, .f32⟩
  | 83 => ⟨S8, .f32⟩
  | 84 => ⟨S1024x64x8, .f32⟩
  | 85 => ⟨S1024x64x8, .f32⟩
  | 86 => ⟨S1024x64x8, .f32⟩
  | 87 => ⟨S1x1x8, .f32⟩
  | 88 => ⟨S1024x64x8, .f32⟩
  | 89 => ⟨S1024x64x8, .f32⟩
  | 90 => ⟨S1024x64x8, .f32⟩
  | 91 => ⟨S_, .f32⟩
  | 92 => ⟨S8, .f32⟩
  | 93 => ⟨S8, .f32⟩
  | 94 => ⟨S1x1x8, .f32⟩
  | 95 => ⟨S1024x64x8, .f32⟩
  | 96 => ⟨S1024x64x8, .f32⟩
  | 97 => ⟨S_, .f32⟩
  | 98 => ⟨S1024x64, .f32⟩
  | 99 => ⟨S1024x64, .f32⟩
  | 100 => ⟨S1024x64x8, .f32⟩
  | 101 => ⟨S_, .f32⟩
  | 102 => ⟨S1024x64, .f32⟩
  | 103 => ⟨S_, .f32⟩
  | 104 => ⟨S1024x64, .f32⟩
  | 105 => ⟨S1024x64, .f32⟩
  | 106 => ⟨S_, .f32⟩
  | 107 => ⟨S_, .f32⟩
  | 108 => ⟨S_, .f32⟩
  | 109 => ⟨S_, .f32⟩
  | 110 => ⟨S_, .f32⟩
  | 111 => ⟨S1024x64, .f32⟩
  | 112 => ⟨S1024x64, .f32⟩
  | 113 => ⟨S1024x64, .f32⟩
  | _ => ⟨S1024x64, .f32⟩

abbrev hbmTy (i : Nat) : BufTy := match i / 128 with
  | 0 => hbmTy0_0 i
  | 1 => hbmTy0_1 i
  | 2 => hbmTy0_2 i
  | _ => ⟨S1024x64, .f32⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S1x512x5376, .bf16⟩
  | .local _ .vmem, ⟨3, _⟩ => ⟨S1x512x5376, .bf16⟩
  | .local _ .vmem, ⟨4, _⟩ => ⟨S1x1x5376, .f32⟩
  | .local _ .vmem, ⟨5, _⟩ => ⟨S1x1x5376, .f32⟩
  | .local _ .vmem, ⟨6, _⟩ => ⟨S1x256x5376, .bf16⟩
  | .local _ .vmem, ⟨7, _⟩ => ⟨S1x256x5376, .bf16⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call2_v0 : Ref sig .tc := ⟨.hbm, 26, rfl⟩
abbrev main_v12 : Ref sig .tc := ⟨.hbm, 27, rfl⟩
abbrev main_c_0 : Ref sig .tc := ⟨.hbm, 28, rfl⟩
abbrev main_call3_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_1 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_2 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_3 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_cst_4 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_cst_5 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_cst_6 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_cst_7 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_cst_8 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_cst_9 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_v295 : Ref sig .tc := ⟨.hbm, 322, rfl⟩
abbrev main_v296 : Ref sig .tc := ⟨.hbm, 323, rfl⟩
abbrev main_v297 : Ref sig .tc := ⟨.hbm, 324, rfl⟩
abbrev main_v298 : Ref sig .tc := ⟨.hbm, 325, rfl⟩
abbrev main_v299 : Ref sig .tc := ⟨.hbm, 326, rfl⟩
abbrev main_v300 : Ref sig .tc := ⟨.hbm, 327, rfl⟩
abbrev main_v301 : Ref sig .tc := ⟨.hbm, 328, rfl⟩
abbrev main_v302 : Ref sig .tc := ⟨.hbm, 329, rfl⟩
abbrev main_v303 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_v307 : Ref sig .tc := ⟨.hbm, 334, rfl⟩
abbrev main_v308 : Ref sig .tc := ⟨.hbm, 335, rfl⟩
abbrev main_v309 : Ref sig .tc := ⟨.hbm, 336, rfl⟩
abbrev main_cst_10 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_cst_11 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_cst_12 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_cst_13 : Ref sig .tc := ⟨.hbm, 357, rfl⟩
abbrev main_v327 : Ref sig .tc := ⟨.hbm, 358, rfl⟩
abbrev main_cst_14 : Ref sig .tc := ⟨.hbm, 359, rfl⟩
abbrev main_v328 : Ref sig .tc := ⟨.hbm, 360, rfl⟩
abbrev main_v329 : Ref sig .tc := ⟨.hbm, 361, rfl⟩
abbrev main_cst_15 : Ref sig .tc := ⟨.hbm, 362, rfl⟩
abbrev main_v330 : Ref sig .tc := ⟨.hbm, 363, rfl⟩
abbrev main_cst_16 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x5376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bitsLt_bf16_f32 : FTy.bits .bf16 < FTy.bits .f32
  transposes_S8x5256x512_S8x512x5256_0_2_1 : S8x5256x512.Transposes [0, 2, 1] S8x512x5256
  pads_S8x512x5256_S8x512x5376_000_000_01200 : S8x512x5256.Pads (![0, 0, 0] : Fin 3 → Nat) ![0, 0, 120] ![0, 0, 0] S8x512x5376
  h_S_ : 0 < S_.numel
  pads_S8x5256_S8x5376_000_01200 : S8x5256.Pads (![0, 0] : Fin 2 → Nat) ![0, 120] ![0, 0] S8x5376
  shapeCasts_S8x5376_S8x1x5376 : S8x5376.ShapeCasts S8x1x5376
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512x5376_S1x512x5376_0_0_0 : ∀ a, (![0, 0, 0] : Fin 3 → Nat) a + S1x512x5376.size a ≤ S1x512x5376.size a
  h_S1x512x5376 : 0 < S1x512x5376.numel
  shapeCasts_S1x512x5376_S512x5376 : S1x512x5376.ShapeCasts S512x5376
  inb_S1x1x5376_S1x1x5376_0_0_0 : ∀ a, (![0, 0, 0] : Fin 3 → Nat) a + S1x1x5376.size a ≤ S1x1x5376.size a
  h_S1x1x5376 : 0 < S1x1x5376.numel
  shapeCasts_S1x1x5376_S1x5376 : S1x1x5376.ShapeCasts S1x5376
  broadcasts_S1x5376_S256x5376 : S1x5376.Broadcasts S256x5376
  inb_S1x256x5376_S1x256x5376_0_0_0 : ∀ a, (![0, 0, 0] : Fin 3 → Nat) a + S1x256x5376.size a ≤ S1x256x5376.size a
  h_S1x256x5376 : 0 < S1x256x5376.numel
  shapeCasts_S1x256x5376_S256x5376 : S1x256x5376.ShapeCasts S256x5376
  shapeCasts_S256x5376_S1x256x5376 : S256x5376.ShapeCasts S1x256x5376
  packedbf16_S1x256x5376_S1x256x5376_0_0_0 : (Rect.unit (s := S1x256x5376) ![0, 0, 0] S1x256x5376.size inb_S1x256x5376_S1x256x5376_0_0_0).PackedRows (EltTy.packing .bf16)
  bcast_S_S1024x64 : S_.BroadcastsInDim S1024x64 (![] : Fin 0 → Fin S1024x64.rank)
  slices_S4x8_S1x8_0_0 : S4x8.Slices ![0, 0] S1x8
  shapeCasts_S1x8_S8 : S1x8.ShapeCasts S8
  bcast_S8_S1x1x8_2 : S8.BroadcastsInDim S1x1x8 (![2] : Fin 1 → Fin S1x1x8.rank)
  bcast_S1x1x8_S1024x64x8_0_1_2 : S1x1x8.BroadcastsInDim S1024x64x8 (![0, 1, 2] : Fin 3 → Fin S1024x64x8.rank)
  slices_S8x1024x5376_S1x1024x5376_0_0_0 : S8x1024x5376.Slices ![0, 0, 0] S1x1024x5376
  shapeCasts_S1x1024x5376_S1024x5376 : S1x1024x5376.ShapeCasts S1024x5376
  slices_S1024x5376_S1024x512_0_0 : S1024x5376.Slices ![0, 0] S1024x512
  shapeCasts_S1024x512_S1024x64x8 : S1024x512.ShapeCasts S1024x64x8
  slices_S1024x5376_S1024x64_0_512 : S1024x5376.Slices ![0, 512] S1024x64
  slices_S1024x5376_S1024x4096_0_576 : S1024x5376.Slices ![0, 576] S1024x4096
  shapeCasts_S1024x4096_S1024x64x64 : S1024x4096.ShapeCasts S1024x64x64
  slices_S1024x5376_S1024x64_0_4672 : S1024x5376.Slices ![0, 4672] S1024x64
  slices_S1024x5376_S1024x512_0_4736 : S1024x5376.Slices ![0, 4736] S1024x512
  shapeCasts_S1024x512_S1024x8x64 : S1024x512.ShapeCasts S1024x8x64
  slices_S1024x5376_S1024x8_0_5248 : S1024x5376.Slices ![0, 5248] S1024x8
  bcast_S1024x64_S1024x1x64_0_2 : S1024x64.BroadcastsInDim S1024x1x64 (![0, 2] : Fin 2 → Fin S1024x1x64.rank)
  bcast_S1024x1x64_S1024x64x64_0_1_2 : S1024x1x64.BroadcastsInDim S1024x64x64 (![0, 1, 2] : Fin 3 → Fin S1024x64x64.rank)
  bcast_S1024x8_S1024x1x8_0_2 : S1024x8.BroadcastsInDim S1024x1x8 (![0, 2] : Fin 2 → Fin S1024x1x8.rank)
  bcast_S1024x1x8_S1024x64x8_0_1_2 : S1024x1x8.BroadcastsInDim S1024x64x8 (![0, 1, 2] : Fin 3 → Fin S1024x64x8.rank)
  slices_S8x1024x5376_S1x1024x5376_1_0_0 : S8x1024x5376.Slices ![1, 0, 0] S1x1024x5376
  bcast_S_S8 : S_.BroadcastsInDim S8 (![] : Fin 0 → Fin S8.rank)
  reducesTo_S1024x64x8_S1024x64_d2 : S1024x64x8.ReducesTo [2] S1024x64
  slices_S4x8_S1x8_1_0 : S4x8.Slices ![1, 0] S1x8
  slices_S8x1024x5376_S1x1024x5376_2_0_0 : S8x1024x5376.Slices ![2, 0, 0] S1x1024x5376
  slices_S8x1024x5376_S1x1024x5376_3_0_0 : S8x1024x5376.Slices ![3, 0, 0] S1x1024x5376
  slices_S4x8_S1x8_2_0 : S4x8.Slices ![2, 0] S1x8
  slices_S8x1024x5376_S1x1024x5376_4_0_0 : S8x1024x5376.Slices ![4, 0, 0] S1x1024x5376
  slices_S8x1024x5376_S1x1024x5376_5_0_0 : S8x1024x5376.Slices ![5, 0, 0] S1x1024x5376
  slices_S4x8_S1x8_3_0 : S4x8.Slices ![3, 0] S1x8
  slices_S8x1024x5376_S1x1024x5376_6_0_0 : S8x1024x5376.Slices ![6, 0, 0] S1x1024x5376
  slices_S8x1024x5376_S1x1024x5376_7_0_0 : S8x1024x5376.Slices ![7, 0, 0] S1x1024x5376
  dot_S1024x64_S512x64_S1024x512_1_1_0_0_n_n_wf : DotDims.WF S1024x64 S512x64 S1024x512 [1] [1] [0] [0] [] []
  dot_S1024x512_S512x512_S1024x512_1_1_0_0_n_n_wf : DotDims.WF S1024x512 S512x512 S1024x512 [1] [1] [0] [0] [] []
  dot_S256x512_S512x5376_S256x5376_1_0_0_1_n_n_wf : DotDims.WF S256x512 S512x5376 S256x5376 [1] [0] [0] [1] [] []
  dot_S1024x64x8_S1024x64x8_S1024x64x64_2_2_1_1_0_0_wf : DotDims.WF S1024x64x8 S1024x64x8 S1024x64x64 [2] [2] [1] [1] [0] [0]
  dot_S1024x64x64_S1024x64x64_S1024x64x64_2_2_1_1_0_0_wf : DotDims.WF S1024x64x64 S1024x64x64 S1024x64x64 [2] [2] [1] [1] [0] [0]
  dot_S1024x64x64_S1024x8x64_S1024x64x8_2_2_1_1_0_0_wf : DotDims.WF S1024x64x64 S1024x8x64 S1024x64x8 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .bf16 = 32 ∨ (Rect.block (s := S1024x512) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x5376.size a ≤ S8x512x5376.size a
  hwx0_1 : ∀ i : grid0.Coords, EltTy.bits .bf16 = 32 ∨ (Rect.block (s := S8x512x5376) S1x512x5376.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5376.size a ≤ S8x1x5376.size a
  hwx0_2 : ∀ i : grid0.Coords, EltTy.bits .f32 = 32 ∨ (Rect.block (s := S8x1x5376) S1x1x5376.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x5376.size a ≤ S8x1024x5376.size a
  hwx0_3 : ∀ i : grid0.Coords, EltTy.bits .bf16 = 32 ∨ (Rect.block (s := S8x1024x5376) S1x256x5376.size (cc0_transform_3 i) (hinb0_3 i)).WholeWords (EltTy.packing .bf16)

variable [Facts₀]

def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S256x512_S512x5376_S256x5376_1_0_0_1_n_n : DotDims S256x512 S512x5376 S256x5376 where
  lhsContracting := [1]
  rhsContracting := [0]
  lhsNonContracting := [0]
  rhsNonContracting := [1]
  lhsBatch := []
  rhsBatch := []
  wf := dot_S256x512_S512x5376_S256x5376_1_0_0_1_n_n_wf
def dot_S1024x64x8_S1024x64x8_S1024x64x64_2_2_1_1_0_0 : DotDims S1024x64x8 S1024x64x8 S1024x64x64 where
  lhsContracting := [2]
  rhsContracting := [2]
  lhsNonContracting := [1]
  rhsNonContracting := [1]
  lhsBatch := [0]
  rhsBatch := [0]
  wf := dot_S1024x64x8_S1024x64x8_S1024x64x64_2_2_1_1_0_0_wf
def dot_S1024x64x64_S1024x64x64_S1024x64x64_2_2_1_1_0_0 : DotDims S1024x64x64 S1024x64x64 S1024x64x64 where
  lhsContracting := [2]
  rhsContracting := [2]
  lhsNonContracting := [1]
  rhsNonContracting := [1]
  lhsBatch := [0]
  rhsBatch := [0]
  wf := dot_S1024x64x64_S1024x64x64_S1024x64x64_2_2_1_1_0_0_wf
def dot_S1024x64x64_S1024x8x64_S1024x64x8_2_2_1_1_0_0 : DotDims S1024x64x64 S1024x8x64 S1024x64x8 where
  lhsContracting := [2]
  rhsContracting := [2]
  lhsNonContracting := [1]
  rhsNonContracting := [1]
  lhsBatch := [0]
  rhsBatch := [0]
  wf := dot_S1024x64x64_S1024x8x64_S1024x64x8_2_2_1_1_0_0_wf

abbrev win0_0 : Pipeline.Window sig grid0 :=
  Pipeline.Window.ofSpec (Memref.whole main_v15) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x512x5376.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x5376.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256x5376.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x64 : Shape := ⟨2, ![1024, 64]⟩
abbrev S1024x64x8 : Shape := ⟨3, ![1024, 64, 8]⟩
abbrev S512x64 : Shape := ⟨2, ![512, 64]⟩
abbrev S512 : Shape := ⟨1, ![512]⟩
abbrev S512x512 : Shape := ⟨2, ![512, 512]⟩
abbrev S8x5256x512 : Shape := ⟨3, ![8, 5256, 512]⟩
abbrev S8x5256 : Shape := ⟨2, ![8, 5256]⟩
abbrev S4x8 : Shape := ⟨2, ![4, 8]⟩
abbrev S1024x512 : Shape := ⟨2, ![1024, 512]⟩
abbrev S1x512 : Shape := ⟨2, ![1, 512]⟩
abbrev S_ : Shape := ⟨0, ![]⟩
abbrev S8x5256x1024 : Shape := ⟨3, ![8, 5256, 1024]⟩
abbrev S8x1024x5256 : Shape := ⟨3, ![8, 1024, 5256]⟩
abbrev S8x1x5256 : Shape := ⟨3, ![8, 1, 5256]⟩
abbrev S1x8 : Shape := ⟨2, ![1, 8]⟩
abbrev S8 : Shape := ⟨1, ![8]⟩
abbrev S1x1x8 : Shape := ⟨3, ![1, 1, 8]⟩
abbrev S1x1024x5256 : Shape := ⟨3, ![1, 1024, 5256]⟩
abbrev S1024x5256 : Shape := ⟨2, ![1024, 5256]⟩
abbrev S1024x4096 : Shape := ⟨2, ![1024, 4096]⟩
abbrev S1024x64x64 : Shape := ⟨3, ![1024, 64, 64]⟩
abbrev S1024x8x64 : Shape := ⟨3, ![1024, 8, 64]⟩
abbrev S1024x8 : Shape := ⟨2, ![1024, 8]⟩
abbrev S1024x1x64 : Shape := ⟨3, ![1024, 1, 64]⟩
abbrev S1024x1x8 : Shape := ⟨3, ![1024, 1, 8]⟩

abbrev nBuf : Space → Nat
  | .hbm => 356
  | .vmem => 0
  | .smem => 0
  | _ => 0

abbrev hbmTy0_0 (i : Nat) : BufTy := match i % 128 with
  | 0 => ⟨S1024x64, .f32⟩
  | 1 => ⟨S1024x64x8, .f32⟩
  | 2 => ⟨S512x64, .f32⟩
  | 3 => ⟨S512, .f32⟩
  | 4 => ⟨S512x512, .f32⟩
  | 5 => ⟨S512, .f32⟩
  | 6 => ⟨S8x5256x512, .f32⟩
  | 7 => ⟨S8x5256, .f32⟩
  | 8 => ⟨S4x8, .i32⟩
  | 9 => ⟨S1024x512, .f32⟩
  | 10 => ⟨S1x512, .f32⟩
  | 11 => ⟨S1024x512, .f32⟩
  | 12 => ⟨S1024x512, .f32⟩
  | 13 => ⟨S_, .f32⟩
  | 14 => ⟨S1024x512, .f32⟩
  | 15 => ⟨S1024x512, .f32⟩
  | 16 => ⟨S1024x512, .f32⟩
  | 17 => ⟨S1x512, .f32⟩
  | 18 => ⟨S1024x512, .f32⟩
  | 19 => ⟨S1024x512, .f32⟩
  | 20 => ⟨S_, .f32⟩
  | 21 => ⟨S1024x512, .f32⟩
  | 22 => ⟨S1024x512, .f32⟩
  | 23 => ⟨S8x5256x1024, .f32⟩
  | 24 => ⟨S8x1024x5256, .f32⟩
  | 25 => ⟨S8x1x5256, .f32⟩
  | 26 => ⟨S8x1024x5256, .f32⟩
  | 27 => ⟨S8x1024x5256, .f32⟩
  | 28 => ⟨S_, .f32⟩
  | 29 => ⟨S1024x64, .f32⟩
  | 30 => ⟨S1x8, .i32⟩
  | 31 => ⟨S8, .i32⟩
  | 32 => ⟨S8, .f32⟩
  | 33 => ⟨S1x1x8, .f32⟩
  | 34 => ⟨S1024x64x8, .f32⟩
  | 35 => ⟨S1024x64x8, .f32⟩
  | 36 => ⟨S1x1024x5256, .f32⟩
  | 37 => ⟨S1024x5256, .f32⟩
  | 38 => ⟨S1024x512, .f32⟩
  | 39 => ⟨S1024x64x8, .f32⟩
  | 40 => ⟨S1024x64, .f32⟩
  | 41 => ⟨S1024x4096, .f32⟩
  | 42 => ⟨S1024x64x64, .f32⟩
  | 43 => ⟨S1024x64, .f32⟩
  | 44 => ⟨S1024x512, .f32⟩
  | 45 => ⟨S1024x8x64, .f32⟩
  | 46 => ⟨S1024x8, .f32⟩
  | 47 => ⟨S1024x64x64, .f32⟩
  | 48 => ⟨S1024x1x64, .f32⟩
  | 49 => ⟨S1024x64x64, .f32⟩
  | 50 => ⟨S1024x64x64, .f32⟩
  | 51 => ⟨S1024x64x64, .f32⟩
  | 52 => ⟨S1024x64x64, .f32⟩
  | 53 => ⟨S1024x1x64, .f32⟩
  | 54 => ⟨S1024x64x64, .f32⟩
  | 55 => ⟨S1024x64x64, .f32⟩
  | 56 => ⟨S1024x64x64, .f32⟩
  | 57 => ⟨S1024x64x8, .f32⟩
  | 58 => ⟨S1024x1x8, .f32⟩
  | 59 => ⟨S1024x64x8, .f32⟩
  | 60 => ⟨S1024x64x8, .f32⟩
  | 61 => ⟨S1x1024x5256, .f32⟩
  | 62 => ⟨S1024x5256, .f32⟩
  | 63 => ⟨S1024x512, .f32⟩
  | 64 => ⟨S1024x64x8, .f32⟩
  | 65 => ⟨S1024x64, .f32⟩
  | 66 => ⟨S1024x4096, .f32⟩
  | 67 => ⟨S1024x64x64, .f32⟩
  | 68 => ⟨S1024x64, .f32⟩
  | 69 => ⟨S1024x512, .f32⟩
  | 70 => ⟨S1024x8x64, .f32⟩
  | 71 => ⟨S1024x8, .f32⟩
  | 72 => ⟨S1024x64x64, .f32⟩
  | 73 => ⟨S1024x1x64, .f32⟩
  | 74 => ⟨S1024x64x64, .f32⟩
  | 75 => ⟨S1024x64x64, .f32⟩
  | 76 => ⟨S1024x64x64, .f32⟩
  | 77 => ⟨S1024x64x64, .f32⟩
  | 78 => ⟨S1024x1x64, .f32⟩
  | 79 => ⟨S1024x64x64, .f32⟩
  | 80 => ⟨S1024x64x64, .f32⟩
  | 81 => ⟨S1024x64x64, .f32⟩
  | 82 => ⟨S1024x64x8, .f32⟩
  | 83 => ⟨S1024x1x8, .f32⟩
  | 84 => ⟨S1024x64x8, .f32⟩
  | 85 => ⟨S1024x64x8, .f32⟩
  | 86 => ⟨S1x1x8, .f32⟩
  | 87 => ⟨S1024x64x8, .f32⟩
  | 88 => ⟨S1024x64x8, .f32⟩
  | 89 => ⟨S_, .f32⟩
  | 90 => ⟨S8, .f32⟩
  | 91 => ⟨S8, .f32⟩
  | 92 => ⟨S1024x64x8, .f32⟩
  | 93 => ⟨S1024x64x8, .f32⟩
  | 94 => ⟨S1024x64x8, .f32⟩
  | 95 => ⟨S1x1x8, .f32⟩
  | 96 => ⟨S1024x64x8, .f32⟩
  | 97 => ⟨S1024x64x8, .f32⟩
  | 98 => ⟨S1024x64x8, .f32⟩
  | 99 => ⟨S_, .f32⟩
  | 100 => ⟨S8, .f32⟩
  | 101 => ⟨S8, .f32⟩
  | 102 => ⟨S1x1x8, .f32⟩
  | 103 => ⟨S1024x64x8, .f32⟩
  | 104 => ⟨S1024x64x8, .f32⟩
  | 105 => ⟨S_, .f32⟩
  | 106 => ⟨S1024x64, .f32⟩
  | 107 => ⟨S1024x64, .f32⟩
  | 108 => ⟨S1x8, .i32⟩
  | 109 => ⟨S8, .i32⟩
  | 110 => ⟨S8, .f32⟩
  | 111 => ⟨S1x1x8, .f32⟩
  | 112 => ⟨S1024x64x8, .f32⟩
  | 113 => ⟨S1024x64x8, .f32⟩
  | 114 => ⟨S1x1024x5256, .f32⟩
  | 115 => ⟨S1024x5256, .f32⟩
  | 116 => ⟨S1024x512, .f32⟩
  | 117 => ⟨S1024x64x8, .f32⟩
  | 118 => ⟨S1024x64, .f32⟩
  | 119 => ⟨S1024x4096, .f32⟩
  | 120 => ⟨S1024x64x64, .f32⟩
  | 121 => ⟨S1024x64, .f32⟩
  | 122 => ⟨S1024x512, .f32⟩
  | 123 => ⟨S1024x8x64, .f32⟩
  | 124 => ⟨S1024x8, .f32⟩
  | 125 => ⟨S1024x64x64, .f32⟩
  | 126 => ⟨S1024x1x64, .f32⟩
  | 127 => ⟨S1024x64x64, .f32⟩
  | _ => ⟨S1024x64, .f32⟩

abbrev hbmTy0_1 (i : Nat) : BufTy := match i % 128 with
  | 0 => ⟨S1024x64x64, .f32⟩
  | 1 => ⟨S1024x64x64, .f32⟩
  | 2 => ⟨S1024x64x64, .f32⟩
  | 3 => ⟨S1024x1x64, .f32⟩
  | 4 => ⟨S1024x64x64, .f32⟩
  | 5 => ⟨S1024x64x64, .f32⟩
  | 6 => ⟨S1024x64x64, .f32⟩
  | 7 => ⟨S1024x64x8, .f32⟩
  | 8 => ⟨S1024x1x8, .f32⟩
  | 9 => ⟨S1024x64x8, .f32⟩
  | 10 => ⟨S1024x64x8, .f32⟩
  | 11 => ⟨S1x1024x5256, .f32⟩
  | 12 => ⟨S1024x5256, .f32⟩
  | 13 => ⟨S1024x512, .f32⟩
  | 14 => ⟨S1024x64x8, .f32⟩
  | 15 => ⟨S1024x64, .f32⟩
  | 16 => ⟨S1024x4096, .f32⟩
  | 17 => ⟨S1024x64x64, .f32⟩
  | 18 => ⟨S1024x64, .f32⟩
  | 19 => ⟨S1024x512, .f32⟩
  | 20 => ⟨S1024x8x64, .f32⟩
  | 21 => ⟨S1024x8, .f32⟩
  | 22 => ⟨S1024x64x64, .f32⟩
  | 23 => ⟨S1024x1x64, .f32⟩
  | 24 => ⟨S1024x64x64, .f32⟩
  | 25 => ⟨S1024x64x64, .f32⟩
  | 26 => ⟨S1024x64x64, .f32⟩
  | 27 => ⟨S1024x64x64, .f32⟩
  | 28 => ⟨S1024x1x64, .f32⟩
  | 29 => ⟨S1024x64x64, .f32⟩
  | 30 => ⟨S1024x64x64, .f32⟩
  | 31 => ⟨S1024x64x64, .f32⟩
  | 32 => ⟨S1024x64x8, .f32⟩
  | 33 => ⟨S1024x1x8, .f32⟩
  | 34 => ⟨S1024x64x8, .f32⟩
  | 35 => ⟨S1024x64x8, .f32⟩
  | 36 => ⟨S1x1x8, .f32⟩
  | 37 => ⟨S1024x64x8, .f32⟩
  | 38 => ⟨S1024x64x8, .f32⟩
  | 39 => ⟨S_, .f32⟩
  | 40 => ⟨S8, .f32⟩
  | 41 => ⟨S8, .f32⟩
  | 42 => ⟨S1024x64x8, .f32⟩
  | 43 => ⟨S1024x64x8, .f32⟩
  | 44 => ⟨S1024x64x8, .f32⟩
  | 45 => ⟨S1x1x8, .f32⟩
  | 46 => ⟨S1024x64x8, .f32⟩
  | 47 => ⟨S1024x64x8, .f32⟩
  | 48 => ⟨S1024x64x8, .f32⟩
  | 49 => ⟨S_, .f32⟩
  | 50 => ⟨S8, .f32⟩
  | 51 => ⟨S8, .f32⟩
  | 52 => ⟨S1x1x8, .f32⟩
  | 53 => ⟨S1024x64x8, .f32⟩
  | 54 => ⟨S1024x64x8, .f32⟩
  | 55 => ⟨S_, .f32⟩
  | 56 => ⟨S1024x64, .f32⟩
  | 57 => ⟨S1024x64, .f32⟩
  | 58 => ⟨S1x8, .i32⟩
  | 59 => ⟨S8, .i32⟩
  | 60 => ⟨S8, .f32⟩
  | 61 => ⟨S1x1x8, .f32⟩
  | 62 => ⟨S1024x64x8, .f32⟩
  | 63 => ⟨S1024x64x8, .f32⟩
  | 64 => ⟨S1x1024x5256, .f32⟩
  | 65 => ⟨S1024x5256, .f32⟩
  | 66 => ⟨S1024x512, .f32⟩
  | 67 => ⟨S1024x64x8, .f32⟩
  | 68 => ⟨S1024x64, .f32⟩
  | 69 => ⟨S1024x4096, .f32⟩
  | 70 => ⟨S1024x64x64, .f32⟩
  | 71 => ⟨S1024x64, .f32⟩
  | 72 => ⟨S1024x512, .f32⟩
  | 73 => ⟨S1024x8x64, .f32⟩
  | 74 => ⟨S1024x8, .f32⟩
  | 75 => ⟨S1024x64x64, .f32⟩
  | 76 => ⟨S1024x1x64, .f32⟩
  | 77 => ⟨S1024x64x64, .f32⟩
  | 78 => ⟨S1024x64x64, .f32⟩
  | 79 => ⟨S1024x64x64, .f32⟩
  | 80 => ⟨S1024x64x64, .f32⟩
  | 81 => ⟨S1024x1x64, .f32⟩
  | 82 => ⟨S1024x64x64, .f32⟩
  | 83 => ⟨S1024x64x64, .f32⟩
  | 84 => ⟨S1024x64x64, .f32⟩
  | 85 => ⟨S1024x64x8, .f32⟩
  | 86 => ⟨S1024x1x8, .f32⟩
  | 87 => ⟨S1024x64x8, .f32⟩
  | 88 => ⟨S1024x64x8, .f32⟩
  | 89 => ⟨S1x1024x5256, .f32⟩
  | 90 => ⟨S1024x5256, .f32⟩
  | 91 => ⟨S1024x512, .f32⟩
  | 92 => ⟨S1024x64x8, .f32⟩
  | 93 => ⟨S1024x64, .f32⟩
  | 94 => ⟨S1024x4096, .f32⟩
  | 95 => ⟨S1024x64x64, .f32⟩
  | 96 => ⟨S1024x64, .f32⟩
  | 97 => ⟨S1024x512, .f32⟩
  | 98 => ⟨S1024x8x64, .f32⟩
  | 99 => ⟨S1024x8, .f32⟩
  | 100 => ⟨S1024x64x64, .f32⟩
  | 101 => ⟨S1024x1x64, .f32⟩
  | 102 => ⟨S1024x64x64, .f32⟩
  | 103 => ⟨S1024x64x64, .f32⟩
  | 104 => ⟨S1024x64x64, .f32⟩
  | 105 => ⟨S1024x64x64, .f32⟩
  | 106 => ⟨S1024x1x64, .f32⟩
  | 107 => ⟨S1024x64x64, .f32⟩
  | 108 => ⟨S1024x64x64, .f32⟩
  | 109 => ⟨S1024x64x64, .f32⟩
  | 110 => ⟨S1024x64x8, .f32⟩
  | 111 => ⟨S1024x1x8, .f32⟩
  | 112 => ⟨S1024x64x8, .f32⟩
  | 113 => ⟨S1024x64x8, .f32⟩
  | 114 => ⟨S1x1x8, .f32⟩
  | 115 => ⟨S1024x64x8, .f32⟩
  | 116 => ⟨S1024x64x8, .f32⟩
  | 117 => ⟨S_, .f32⟩
  | 118 => ⟨S8, .f32⟩
  | 119 => ⟨S8, .f32⟩
  | 120 => ⟨S1024x64x8, .f32⟩
  | 121 => ⟨S1024x64x8, .f32⟩
  | 122 => ⟨S1024x64x8, .f32⟩
  | 123 => ⟨S1x1x8, .f32⟩
  | 124 => ⟨S1024x64x8, .f32⟩
  | 125 => ⟨S1024x64x8, .f32⟩
  | 126 => ⟨S1024x64x8, .f32⟩
  | 127 => ⟨S_, .f32⟩
  | _ => ⟨S1024x64, .f32⟩

abbrev hbmTy0_2 (i : Nat) : BufTy := match i % 128 with
  | 0 => ⟨S8, .f32⟩
  | 1 => ⟨S8, .f32⟩
  | 2 => ⟨S1x1x8, .f32⟩
  | 3 => ⟨S1024x64x8, .f32⟩
  | 4 => ⟨S1024x64x8, .f32⟩
  | 5 => ⟨S_, .f32⟩
  | 6 => ⟨S1024x64, .f32⟩
  | 7 => ⟨S1024x64, .f32⟩
  | 8 => ⟨S1x8, .i32⟩
  | 9 => ⟨S8, .i32⟩
  | 10 => ⟨S8, .f32⟩
  | 11 => ⟨S1x1x8, .f32⟩
  | 12 => ⟨S1024x64x8, .f32⟩
  | 13 => ⟨S1024x64x8, .f32⟩
  | 14 => ⟨S1x1024x5256, .f32⟩
  | 15 => ⟨S1024x5256, .f32⟩
  | 16 => ⟨S1024x512, .f32⟩
  | 17 => ⟨S1024x64x8, .f32⟩
  | 18 => ⟨S1024x64, .f32⟩
  | 19 => ⟨S1024x4096, .f32⟩
  | 20 => ⟨S1024x64x64, .f32⟩
  | 21 => ⟨S1024x64, .f32⟩
  | 22 => ⟨S1024x512, .f32⟩
  | 23 => ⟨S1024x8x64, .f32⟩
  | 24 => ⟨S1024x8, .f32⟩
  | 25 => ⟨S1024x64x64, .f32⟩
  | 26 => ⟨S1024x1x64, .f32⟩
  | 27 => ⟨S1024x64x64, .f32⟩
  | 28 => ⟨S1024x64x64, .f32⟩
  | 29 => ⟨S1024x64x64, .f32⟩
  | 30 => ⟨S1024x64x64, .f32⟩
  | 31 => ⟨S1024x1x64, .f32⟩
  | 32 => ⟨S1024x64x64, .f32⟩
  | 33 => ⟨S1024x64x64, .f32⟩
  | 34 => ⟨S1024x64x64, .f32⟩
  | 35 => ⟨S1024x64x8, .f32⟩
  | 36 => ⟨S1024x1x8, .f32⟩
  | 37 => ⟨S1024x64x8, .f32⟩
  | 38 => ⟨S1024x64x8, .f32⟩
  | 39 => ⟨S1x1024x5256, .f32⟩
  | 40 => ⟨S1024x5256, .f32⟩
  | 41 => ⟨S1024x512, .f32⟩
  | 42 => ⟨S1024x64x8, .f32⟩
  | 43 => ⟨S1024x64, .f32⟩
  | 44 => ⟨S1024x4096, .f32⟩
  | 45 => ⟨S1024x64x64, .f32⟩
  | 46 => ⟨S1024x64, .f32⟩
  | 47 => ⟨S1024x512, .f32⟩
  | 48 => ⟨S1024x8x64, .f32⟩
  | 49 => ⟨S1024x8, .f32⟩
  | 50 => ⟨S1024x64x64, .f32⟩
  | 51 => ⟨S1024x1x64, .f32⟩
  | 52 => ⟨S1024x64x64, .f32⟩
  | 53 => ⟨S1024x64x64, .f32⟩
  | 54 => ⟨S1024x64x64, .f32⟩
  | 55 => ⟨S1024x64x64, .f32⟩
  | 56 => ⟨S1024x1x64, .f32⟩
  | 57 => ⟨S1024x64x64, .f32⟩
  | 58 => ⟨S1024x64x64, .f32⟩
  | 59 => ⟨S1024x64x64, .f32⟩
  | 60 => ⟨S1024x64x8, .f32⟩
  | 61 => ⟨S1024x1x8, .f32⟩
  | 62 => ⟨S1024x64x8, .f32⟩
  | 63 => ⟨S1024x64x8, .f32⟩
  | 64 => ⟨S1x1x8, .f32⟩
  | 65 => ⟨S1024x64x8, .f32⟩
  | 66 => ⟨S1024x64x8, .f32⟩
  | 67 => ⟨S_, .f32⟩
  | 68 => ⟨S8, .f32⟩
  | 69 => ⟨S8, .f32⟩
  | 70 => ⟨S1024x64x8, .f32⟩
  | 71 => ⟨S1024x64x8, .f32⟩
  | 72 => ⟨S1024x64x8, .f32⟩
  | 73 => ⟨S1x1x8, .f32⟩
  | 74 => ⟨S1024x64x8, .f32⟩
  | 75 => ⟨S1024x64x8, .f32⟩
  | 76 => ⟨S1024x64x8, .f32⟩
  | 77 => ⟨S_, .f32⟩
  | 78 => ⟨S8, .f32⟩
  | 79 => ⟨S8, .f32⟩
  | 80 => ⟨S1x1x8, .f32⟩
  | 81 => ⟨S1024x64x8, .f32⟩
  | 82 => ⟨S1024x64x8, .f32⟩
  | 83 => ⟨S_, .f32⟩
  | 84 => ⟨S1024x64, .f32⟩
  | 85 => ⟨S1024x64, .f32⟩
  | 86 => ⟨S1024x64x8, .f32⟩
  | 87 => ⟨S_, .f32⟩
  | 88 => ⟨S1024x64, .f32⟩
  | 89 => ⟨S_, .f32⟩
  | 90 => ⟨S1024x64, .f32⟩
  | 91 => ⟨S1024x64, .f32⟩
  | 92 => ⟨S_, .f32⟩
  | 93 => ⟨S_, .f32⟩
  | 94 => ⟨S_, .f32⟩
  | 95 => ⟨S_, .f32⟩
  | 96 => ⟨S_, .f32⟩
  | 97 => ⟨S1024x64, .f32⟩
  | 98 => ⟨S1024x64, .f32⟩
  | 99 => ⟨S1024x64, .f32⟩
  | _ => ⟨S1024x64, .f32⟩

abbrev hbmTy (i : Nat) : BufTy := match i / 128 with
  | 0 => hbmTy0_0 i
  | 1 => hbmTy0_1 i
  | 2 => hbmTy0_2 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_0 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_1 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_2 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_cst_3 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_cst_4 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_cst_5 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_cst_6 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_cst_7 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_cst_8 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_v296 : Ref sig .tc := ⟨.hbm, 319, rfl⟩
abbrev main_v297 : Ref sig .tc := ⟨.hbm, 320, rfl⟩
abbrev main_v298 : Ref sig .tc := ⟨.hbm, 321, rfl⟩
abbrev main_v299 : Ref sig .tc := ⟨.hbm, 322, rfl⟩
abbrev main_cst_9 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_cst_10 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_v312 : Ref sig .tc := ⟨.hbm, 337, rfl⟩
abbrev main_v313 : Ref sig .tc := ⟨.hbm, 338, rfl⟩
abbrev main_cst_11 : Ref sig .tc := ⟨.hbm, 339, rfl⟩
abbrev main_v314 : Ref sig .tc := ⟨.hbm, 340, rfl⟩
abbrev main_v315 : Ref sig .tc := ⟨.hbm, 341, rfl⟩
abbrev main_v316 : Ref sig .tc := ⟨.hbm, 342, rfl⟩
abbrev main_cst_12 : Ref sig .tc := ⟨.hbm, 343, rfl⟩
abbrev main_v317 : Ref sig .tc := ⟨.hbm, 344, rfl⟩
abbrev main_cst_13 : Ref sig .tc := ⟨.hbm, 345, rfl⟩
abbrev main_v318 : Ref sig .tc := ⟨.hbm, 346, rfl⟩
abbrev main_v319 : Ref sig .tc := ⟨.hbm, 347, rfl⟩
abbrev main_cst_14 : Ref sig .tc := ⟨.hbm, 348, rfl⟩
abbrev main_v320 : Ref sig .tc := ⟨.hbm, 349, rfl⟩
abbrev main_cst_15 : Ref sig .tc := ⟨.hbm, 350, rfl⟩
abbrev main_v321 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  transposes_S8x5256x1024_S8x1024x5256_0_2_1 : S8x5256x1024.Transposes [0, 2, 1] S8x1024x5256
  bcast_S8x5256_S8x1x5256_0_2 : S8x5256.BroadcastsInDim S8x1x5256 (![0, 2] : Fin 2 → Fin S8x1x5256.rank)
  bcast_S8x1x5256_S8x1024x5256_0_1_2 : S8x1x5256.BroadcastsInDim S8x1024x5256 (![0, 1, 2] : Fin 3 → Fin S8x1024x5256.rank)
  bcast_S_S1024x64 : S_.BroadcastsInDim S1024x64 (![] : Fin 0 → Fin S1024x64.rank)
  slices_S4x8_S1x8_0_0 : S4x8.Slices ![0, 0] S1x8
  shapeCasts_S1x8_S8 : S1x8.ShapeCasts S8
  bcast_S8_S1x1x8_2 : S8.BroadcastsInDim S1x1x8 (![2] : Fin 1 → Fin S1x1x8.rank)
  bcast_S1x1x8_S1024x64x8_0_1_2 : S1x1x8.BroadcastsInDim S1024x64x8 (![0, 1, 2] : Fin 3 → Fin S1024x64x8.rank)
  slices_S8x1024x5256_S1x1024x5256_0_0_0 : S8x1024x5256.Slices ![0, 0, 0] S1x1024x5256
  shapeCasts_S1x1024x5256_S1024x5256 : S1x1024x5256.ShapeCasts S1024x5256
  slices_S1024x5256_S1024x512_0_0 : S1024x5256.Slices ![0, 0] S1024x512
  shapeCasts_S1024x512_S1024x64x8 : S1024x512.ShapeCasts S1024x64x8
  slices_S1024x5256_S1024x64_0_512 : S1024x5256.Slices ![0, 512] S1024x64
  slices_S1024x5256_S1024x4096_0_576 : S1024x5256.Slices ![0, 576] S1024x4096
  shapeCasts_S1024x4096_S1024x64x64 : S1024x4096.ShapeCasts S1024x64x64
  slices_S1024x5256_S1024x64_0_4672 : S1024x5256.Slices ![0, 4672] S1024x64
  slices_S1024x5256_S1024x512_0_4736 : S1024x5256.Slices ![0, 4736] S1024x512
  shapeCasts_S1024x512_S1024x8x64 : S1024x512.ShapeCasts S1024x8x64
  slices_S1024x5256_S1024x8_0_5248 : S1024x5256.Slices ![0, 5248] S1024x8
  bcast_S1024x64_S1024x1x64_0_2 : S1024x64.BroadcastsInDim S1024x1x64 (![0, 2] : Fin 2 → Fin S1024x1x64.rank)
  bcast_S1024x1x64_S1024x64x64_0_1_2 : S1024x1x64.BroadcastsInDim S1024x64x64 (![0, 1, 2] : Fin 3 → Fin S1024x64x64.rank)
  bcast_S1024x8_S1024x1x8_0_2 : S1024x8.BroadcastsInDim S1024x1x8 (![0, 2] : Fin 2 → Fin S1024x1x8.rank)
  bcast_S1024x1x8_S1024x64x8_0_1_2 : S1024x1x8.BroadcastsInDim S1024x64x8 (![0, 1, 2] : Fin 3 → Fin S1024x64x8.rank)
  slices_S8x1024x5256_S1x1024x5256_1_0_0 : S8x1024x5256.Slices ![1, 0, 0] S1x1024x5256
  bcast_S_S8 : S_.BroadcastsInDim S8 (![] : Fin 0 → Fin S8.rank)
  reducesTo_S1024x64x8_S1024x64_d2 : S1024x64x8.ReducesTo [2] S1024x64
  h_S_ : 0 < S_.numel
  slices_S4x8_S1x8_1_0 : S4x8.Slices ![1, 0] S1x8
  slices_S8x1024x5256_S1x1024x5256_2_0_0 : S8x1024x5256.Slices ![2, 0, 0] S1x1024x5256
  slices_S8x1024x5256_S1x1024x5256_3_0_0 : S8x1024x5256.Slices ![3, 0, 0] S1x1024x5256
  slices_S4x8_S1x8_2_0 : S4x8.Slices ![2, 0] S1x8
  slices_S8x1024x5256_S1x1024x5256_4_0_0 : S8x1024x5256.Slices ![4, 0, 0] S1x1024x5256
  slices_S8x1024x5256_S1x1024x5256_5_0_0 : S8x1024x5256.Slices ![5, 0, 0] S1x1024x5256
  slices_S4x8_S1x8_3_0 : S4x8.Slices ![3, 0] S1x8
  slices_S8x1024x5256_S1x1024x5256_6_0_0 : S8x1024x5256.Slices ![6, 0, 0] S1x1024x5256
  slices_S8x1024x5256_S1x1024x5256_7_0_0 : S8x1024x5256.Slices ![7, 0, 0] S1x1024x5256
  dot_S1024x64_S512x64_S1024x512_1_1_0_0_n_n_wf : DotDims.WF S1024x64 S512x64 S1024x512 [1] [1] [0] [0] [] []
  dot_S1024x512_S512x512_S1024x512_1_1_0_0_n_n_wf : DotDims.WF S1024x512 S512x512 S1024x512 [1] [1] [0] [0] [] []
  dot_S8x5256x512_S1024x512_S8x5256x1024_2_1_01_0_n_n_wf : DotDims.WF S8x5256x512 S1024x512 S8x5256x1024 [2] [1] [0, 1] [0] [] []
  dot_S1024x64x8_S1024x64x8_S1024x64x64_2_2_1_1_0_0_wf : DotDims.WF S1024x64x8 S1024x64x8 S1024x64x64 [2] [2] [1] [1] [0] [0]
  dot_S1024x64x64_S1024x64x64_S1024x64x64_2_2_1_1_0_0_wf : DotDims.WF S1024x64x64 S1024x64x64 S1024x64x64 [2] [2] [1] [1] [0] [0]
  dot_S1024x64x64_S1024x8x64_S1024x64x8_2_2_1_1_0_0_wf : DotDims.WF S1024x64x64 S1024x8x64 S1024x64x8 [2] [2] [1] [1] [0] [0]

variable [Facts₀]

def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S8x5256x512_S1024x512_S8x5256x1024_2_1_01_0_n_n : DotDims S8x5256x512 S1024x512 S8x5256x1024 where
  lhsContracting := [2]
  rhsContracting := [1]
  lhsNonContracting := [0, 1]
  rhsNonContracting := [0]
  lhsBatch := []
  rhsBatch := []
  wf := dot_S8x5256x512_S1024x512_S8x5256x1024_2_1_01_0_n_n_wf
def dot_S1024x64x8_S1024x64x8_S1024x64x64_2_2_1_1_0_0 : DotDims S1024x64x8 S1024x64x8 S1024x64x64 where
  lhsContracting := [2]
  rhsContracting := [2]
  lhsNonContracting := [1]
  rhsNonContracting := [1]
  lhsBatch := [0]
  rhsBatch := [0]
  wf := dot_S1024x64x8_S1024x64x8_S1024x64x64_2_2_1_1_0_0_wf
def dot_S1024x64x64_S1024x64x64_S1024x64x64_2_2_1_1_0_0 : DotDims S1024x64x64 S1024x64x64 S1024x64x64 where
  lhsContracting := [2]
  rhsContracting := [2]
  lhsNonContracting := [1]
  rhsNonContracting := [1]
  lhsBatch := [0]
  rhsBatch := [0]
  wf := dot_S1024x64x64_S1024x64x64_S1024x64x64_2_2_1_1_0_0_wf
def dot_S1024x64x64_S1024x8x64_S1024x64x8_2_2_1_1_0_0 : DotDims S1024x64x64 S1024x8x64 S1024x64x8 where
  lhsContracting := [2]
  rhsContracting := [2]
  lhsNonContracting := [1]
  rhsNonContracting := [1]
  lhsBatch := [0]
  rhsBatch := [0]
  wf := dot_S1024x64x64_S1024x8x64_S1024x64x8_2_2_1_1_0_0_wf

class Facts : Prop extends Facts₀ where

variable [Facts]
-- ==== Proof.KBase.lean ====
/-
  The contents `Kernel`'s region finds, and a window's block of them.

  @main runs nine stretches of host operations before its one region; the buffers the region finds are the launch
  memory after those stretches, a fold. A window's block at a grid point is its array, as found, read through the
  block's rectangle.
-/
import proofs.«155112_j24970939859619_2_alg».proof.Proof.Gen.Kernel.Launch
import proofs.«155112_j24970939859619_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The nine stretches of host operations before the region, in order. -/
abbrev headOps : List (List (HloOp τ sig (Elt F))) :=
  [hostOps0, hostOps0_1, hostOps0_2, hostOps0_3, hostOps0_4, hostOps0_5, hostOps0_6, hostOps0_7, hostOps0_8]

/-- Core `c`'s buffers when the region is entered: the launch memory after the nine stretches. -/
abbrev V0 (c : Dev nD) : Valuation τ sig (Elt F) := StableHlo.after (List.flatten (headOps (F := F))) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KHost.lean ====
/-
  The host side of `Kernel`'s frame. @main is nine stretches of host operations (the trunk network's two layers with
  their relu calls, the cast, transpose and zero padding of the projection weights, the padding and reshape of the
  projection bias, the cast of the trunk's output), one region, and 336 further host operations (the coupling
  layers and the log-density). Stated here:
  the buffer contents the region finds (the fold of the nine stretches over the launch memory); that no operation
  allocates; @main as "stretches, region, stretches"; that every operation after the region writes exactly one
  buffer, numbered 34 or higher, hence none of the nine arguments (0–8) and none of the region's four arrays
  (27, 31, 32, 33); that no operation before the region writes an argument either; each window's block at a grid
  point; and the frame's postcondition read off any run that ends in the launch library's post.
-/
import proofs.«155112_j24970939859619_2_alg».proof.Proof.KBase
import proofs.«155112_j24970939859619_2_alg».proof.Proof.Gen.Kernel.Launch
import proofs.«155112_j24970939859619_2_alg».proof.Proof.Gen.Kernel.Skeleton
import proofs.«155112_j24970939859619_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No operation allocates -/

theorem head_fresh : (headOps (F := F)).Forall fun ops => ops.Forall fun op => op.fresh = ∅ := by
  simp only [List.Forall]; repeat' constructor

theorem tail_fresh : (hostOps1 : List (HloOp τ sig (Elt F))).Forall fun op => op.fresh = ∅ := by
  simp only [List.Forall]; repeat' constructor

/-! ## @main around the region -/

set_option maxRecDepth 200000 in
set_option maxHeartbeats 40000000 in
/-- @main is the nine stretches, the region, and the 336 later operations: it reduces to the region continued by
    those operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (headOps (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    head_fresh main_chain

/-! ## What the later operations write -/

/-- Each of the 336 operations after the region writes exactly one buffer, and its number is 34 or more. -/
theorem tail_writes : (hostOps1 : List (HloOp τ sig (Elt F))).Forall fun op =>
    ∃ r : Ref sig .tc, op.writes = {Proc.devRef .tc r} ∧ decide (34 ≤ r.idx.val) = true := by
  simp only [List.Forall]; repeat' constructor

/-- So a buffer numbered below 34 is written by none of them. -/
theorem tail_keeps (b : Ref sig .tc) (hb : decide (b.idx.val < 34) = true) :
    ∀ op ∈ (hostOps1 : List (HloOp τ sig (Elt F))), Proc.devRef .tc b ∉ op.writes := by
  intro op hop
  obtain ⟨r, hw, hr⟩ := (List.forall_iff_forall_mem.mp (tail_writes (F := F))) op hop
  rw [hw, Finset.mem_singleton]
  refine StableHlo.devRef_ne_of_ne (fun e => ?_)
  subst e
  have h1 := of_decide_eq_true hb
  have h2 := of_decide_eq_true hr
  omega

/-- The later operations touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- And they write none of the region's four arrays (buffers 32, 27, 31 and 33). -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact tail_keeps (Pipeline.arrRef spec0 w) (by revert w; decide) op hop

/-! ## The arguments are written nowhere -/

/-- No operation before the region writes argument `b` when `b` is one of the nine: the region finds it as launched. -/
theorem head_keeps (c : Dev nD) (b : Ref sig .tc) (hb : decide (b.idx.val < 9) = true) : V m c b = m ((c : Thread nD τ).loc b) := by
  refine StableHlo.after_of_forall_not_mem (b := Proc.devRef .tc b) _ _ (List.forall_iff_forall_mem.mp ?_)
  have hb' := of_decide_eq_true hb
  simp only [headOps, hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb'; decide)

/-- After the later operations a buffer numbered below 34 that is none of the region's arrays holds what the
    region found in it. -/
theorem tail_low (dats : (p : Fin _) → (c : Dev nD) → Dat τ (Elt F) Unit ℕ (UR sig nD τ) ℕ (cfgs p) c) (c : Dev nD)
    (b : Ref sig .tc) (hb : decide (b.idx.val < 34) = true) (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
      simp only [List.flatten_cons, List.flatten_nil, List.append_nil]
      exact tail_keeps b hb),
    Pipeline.withArrays_of_ne _ c (V0 m c) _ b hne]

/-- An argument ends as launched. -/
theorem arg_kept (dats : (p : Fin _) → (c : Dev nD) → Dat τ (Elt F) Unit ℕ (UR sig nD τ) ℕ (cfgs p) c) (c : Dev nD)
    (b : Ref sig .tc) (hb : decide (b.idx.val < 9) = true) (hne : ∀ w, Pipeline.arrRef spec0 w ≠ b) :
    Pipeline.afterTail₀ cfgs dats 0 (V0 m) [hostOps1] c b = m ((c : Thread nD τ).loc b) :=
  (tail_low m dats c b (by have := of_decide_eq_true hb; exact decide_eq_true (by omega)) hne).trans (head_keeps m c b hb)

/-! ## The windows' blocks -/

/-- An input window's current staging buffer holds its block at every point, whether the pipeline fetched it there
    or kept it from the point before (then its block index did not move): for any proof data whose array is the
    region-entry contents and whose body leaves the block in place. Windows 0 (the trunk's output, a row block per
    point), 1 (the padded weights of one head) and 2 (the padded bias of one head). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame's post from a frame run -/

/-- From any run that ends with every buffer outside the region's arrays at what the later operations leave, the
    nine arguments end as launched: none is an array of the region, and no operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (arg_kept m dats c main_arg0 (by decide) (by decide)),
     ((h c).2 main_arg1 (Pipeline.mem_restRefs_of main_arg1 (by decide) (by decide))).trans (arg_kept m dats c main_arg1 (by decide) (by decide)),
     ((h c).2 main_arg2 (Pipeline.mem_restRefs_of main_arg2 (by decide) (by decide))).trans (arg_kept m dats c main_arg2 (by decide) (by decide)),
     ((h c).2 main_arg3 (Pipeline.mem_restRefs_of main_arg3 (by decide) (by decide))).trans (arg_kept m dats c main_arg3 (by decide) (by decide)),
     ((h c).2 main_arg4 (Pipeline.mem_restRefs_of main_arg4 (by decide) (by decide))).trans (arg_kept m dats c main_arg4 (by decide) (by decide)),
     ((h c).2 main_arg5 (Pipeline.mem_restRefs_of main_arg5 (by decide) (by decide))).trans (arg_kept m dats c main_arg5 (by decide) (by decide)),
     ((h c).2 main_arg6 (Pipeline.mem_restRefs_of main_arg6 (by decide) (by decide))).trans (arg_kept m dats c main_arg6 (by decide) (by decide)),
     ((h c).2 main_arg7 (Pipeline.mem_restRefs_of main_arg7 (by decide) (by decide))).trans (arg_kept m dats c main_arg7 (by decide) (by decide)),
     ((h c).2 main_arg8 (Pipeline.mem_restRefs_of main_arg8 (by decide) (by decide))).trans (arg_kept m dats c main_arg8 (by decide) (by decide))⟩) h

end Cert.Kernel.Hand

end
-- ==== Proof.KBody.lean ====
/-
  The body of `Kernel`'s one kernel at a grid point. The body loads the whole of its three input blocks — a block of
  256 rows of the trunk's output (256×512), one head's padded weight matrix (1×512×5376) and that head's padded bias
  (1×1×5376) —, multiplies the first by the second into a zero accumulator, adds the bias row to every row, and
  stores the 1×256×5376 result over the whole of its output block (it also loads the output block first; nothing
  reads that value). So after the body the output's staging buffer holds one function of the three input blocks,
  `blockOut`: the one store read back through a rectangle that is the whole block.
-/
import proofs.«155112_j24970939859619_2_alg».proof.Proof.Gen.Kernel.Launch
import proofs.«155112_j24970939859619_2_alg».proof.Proof.Gen.Kernel.Skeleton
import proofs.«155112_j24970939859619_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each the whole block -/

abbrev rowsRect : Rect S256x512 := Rect.unit (s := S256x512) ![0, 0] S256x512.size inb_S256x512_S256x512_0_0
abbrev weightRect : Rect S1x512x5376 := Rect.unit (s := S1x512x5376) ![0, 0, 0] S1x512x5376.size inb_S1x512x5376_S1x512x5376_0_0_0
abbrev biasRect : Rect S1x1x5376 := Rect.unit (s := S1x1x5376) ![0, 0, 0] S1x1x5376.size inb_S1x1x5376_S1x1x5376_0_0_0
abbrev outRect : Rect S1x256x5376 := Rect.unit (s := S1x256x5376) ![0, 0, 0] S1x256x5376.size inb_S1x256x5376_S1x256x5376_0_0_0

/-- What the output's staging buffer holds after the body, from the three input blocks: its one store. -/
def blockOut (x0 : Vec F S256x512 .bf16) (x1 : Vec F S1x512x5376 .bf16) (x2 : Vec F S1x1x5376 .f32) : Vec F S1x256x5376 .bf16 :=
  View.canon [⟨outRect, k0_pay1 (View.ld x0 rowsRect) (View.ld x1 weightRect) (View.ld x2 biasRect)⟩]

/-- The store's rectangle is the whole block, so it covers it. -/
theorem blockOut_cover (p0 : Vec F S1x256x5376 .bf16) (y : S1x256x5376.Idx) :
    ∃ pc ∈ ([⟨outRect, p0⟩] : List (View.Piece (Elt F) S1x256x5376 .bf16)), y ∈ pc.1.set :=
  View.cover_of_tiled [⟨outRect, p0⟩] S1x256x5376.size (by rfl) y

set_option maxHeartbeats 1000000 in
/-- The body on whole staging buffers — the inputs' at contents `x0`, `x1`, `x2`, the output's at anything — runs to
    its end without a fault, leaving the inputs' as they were and the output's at `blockOut x0 x1 x2`. -/
theorem sound_kernel (c : Dev nD) (E : Set ℕ) (i : grid0.Coords)
    (arg2 : Memref sig .tc .vmem S256x512 .bf16) (harg2 : arg2.IsWhole)
    (arg3 : Memref sig .tc .vmem S1x512x5376 .bf16) (harg3 : arg3.IsWhole)
    (arg4 : Memref sig .tc .vmem S1x1x5376 .f32) (harg4 : arg4.IsWhole)
    (arg5 : Memref sig .tc .vmem S1x256x5376 .bf16) (harg5 : arg5.IsWhole)
    (x0 : Vec F S256x512 .bf16) (x1 : Vec F S1x512x5376 .bf16) (x2 : Vec F S1x1x5376 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (blockOut x0 x1 x2)) -∗ K ⟨⟩))
      ⊢ wp frame (wpE (defs₀ (F := F)) Variants.none c none) E (cc0__head_proj_kernel i arg2 harg2 arg3 harg3 arg4 harg4 arg5 harg5) K := by
  simp only [cc0__head_proj_kernel_eq_skeleton]; unfold cc0__head_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockOut_cover _)

end Cert.Kernel.Hand

end
-- ==== Proof.KRun.lean ====
/-
  `Kernel`'s run. The proof data of its one pipeline: each array as the region finds it; after the body at a grid
  point each input window's buffer at its block, and the output window's at `blockOut` of the three input blocks
  there; the invariant that the body touches nothing else; nothing owed. The body obligation at a generic point
  is the body's triple at the point's blocks. The launch library then gives the run: every weakly fair execution of
  @main ends, without a fault, with each of the region's arrays at what the write-backs leave and every other
  unscoped buffer at what the 336 later operations compute from those arrays and the region-entry contents. The
  frame is that run read at the nine arguments.
-/
import proofs.«155112_j24970939859619_2_alg».proof.Proof.KHost
import proofs.«155112_j24970939859619_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

/-- The proof data's arrays are the region-entry contents (the definition projected, the fold never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 200000 in
set_option maxHeartbeats 40000000 in
set_option backward.isDefEq.respectTransparency.types false in
/-- Every weakly fair execution of @main terminates without a fault; at the end each array of the region holds what
    the write-backs leave and every other unscoped buffer what the later operations compute. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end and the nine arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Hand

end
-- ==== Proof.KIBase.lean ====
/-
  The contents `KernelIdeal`'s region finds, and a window's block of them.

  @main runs nine stretches of host operations before its one region; the buffers the region finds are the launch
  memory after those stretches, a fold. A window's block at a grid point is its array, as found, read through the
  block's rectangle.
-/
import proofs.«155112_j24970939859619_2_alg».proof.Proof.Gen.KernelIdeal.Launch
import proofs.«155112_j24970939859619_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The nine stretches of host operations before the region, in order. -/
abbrev headOps : List (List (HloOp τ sig (Elt F))) :=
  [hostOps0, hostOps0_1, hostOps0_2, hostOps0_3, hostOps0_4, hostOps0_5, hostOps0_6, hostOps0_7, hostOps0_8]

/-- Core `c`'s buffers when the region is entered: the launch memory after the nine stretches. -/
abbrev V0 (c : Dev nD) : Valuation τ sig (Elt F) := StableHlo.after (List.flatten (headOps (F := F))) (fun b => m (c, b))
/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KIHost.lean ====
/-
  The host side of `KernelIdeal`'s frame. @main is nine stretches of host operations (the trunk network's two layers with
  their relu calls, the cast, transpose and zero padding of the projection weights, the padding and reshape of the
  projection bias, the cast of the trunk's output), one region, and 336 further host operations (the coupling
  layers and the log-density). Stated here:
  the buffer contents the region finds (the fold of the nine stretches over the launch memory); that no operation
  allocates; @main as "stretches, region, stretches"; that every operation after the region writes exactly one
  buffer, numbered 34 or higher, hence none of the nine arguments (0–8) and none of the region's four arrays
  (27, 31, 32, 33); that no operation before the region writes an argument either; each window's block at a grid
  point; and the frame's postcondition read off any run that ends in the launch library's post.
-/
import proofs.«155112_j24970939859619_2_alg».proof.Proof.KIBase
import proofs.«155112_j24970939859619_2_alg».proof.Proof.Gen.KernelIdeal.Launch
import proofs.«155112_j24970939859619_2_alg».proof.Proof.Gen.KernelIdeal.Skeleton
import proofs.«155112_j24970939859619_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No operation allocates -/

theorem head_fresh : (headOps (F := F)).Forall fun ops => ops.Forall fun op => op.fresh = ∅ := by
  simp only [List.Forall]; repeat' constructor

theorem tail_fresh : (hostOps1 : List (HloOp τ sig (Elt F))).Forall fun op => op.fresh = ∅ := by
  simp only [List.Forall]; repeat' constructor

/-! ## @main around the region -/

set_option maxRecDepth 200000 in
set_option maxHeartbeats 40000000 in
/-- @main is the nine stretches, the region, and the 336 later operations: it reduces to the region continued by
    those operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (headOps (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    head_fresh main_chain

/-! ## What the later operations write -/

/-- Each of the 336 operations after the region writes exactly one buffer, and its number is 34 or more. -/
theorem tail_writes : (hostOps1 : List (HloOp τ sig (Elt F))).Forall fun op =>
    ∃ r : Ref sig .tc, op.writes = {Proc.devRef .tc r} ∧ decide (34 ≤ r.idx.val) = true := by
  simp only [List.Forall]; repeat' constructor

/-- So a buffer numbered below 34 is written by none of them. -/
theorem tail_keeps (b : Ref sig .tc) (hb : decide (b.idx.val < 34) = true) :
    ∀ op ∈ (hostOps1 : List (HloOp τ sig (Elt F))), Proc.devRef .tc b ∉ op.writes := by
  intro op hop
  obtain ⟨r, hw, hr⟩ := (List.forall_iff_forall_mem.mp (tail_writes (F := F))) op hop
  rw [hw, Finset.mem_singleton]
  refine StableHlo.devRef_ne_of_ne (fun e => ?_)
  subst e
  have h1 := of_decide_eq_true hb
  have h2 := of_decide_eq_true hr
  omega

/-- The later operations touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- And they write none of the region's four arrays (buffers 32, 27, 31 and 33). -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact tail_keeps (Pipeline.arrRef spec0 w) (by revert w; decide) op hop

/-! ## The arguments are written nowhere -/

/-- No operation before the region writes argument `b` when `b` is one of the nine: the region finds it as launched. -/
theorem head_keeps (c : Dev nD) (b : Ref sig .tc) (hb : decide (b.idx.val < 9) = true) : V m c b = m ((c : Thread nD τ).loc b) := by
  refine StableHlo.after_of_forall_not_mem (b := Proc.devRef .tc b) _ _ (List.forall_iff_forall_mem.mp ?_)
  have hb' := of_decide_eq_true hb
  simp only [headOps, hostOps0, hostOps0_1, hostOps0_2, hostOps0_3, hostOps0_4, hostOps0_5, hostOps0_6, hostOps0_7, hostOps0_8,
    List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb'; decide)

/-- After the later operations a buffer numbered below 34 that is none of the region's arrays holds what the
    region found in it. -/
theorem tail_low (dats : (p : Fin _) → (c : Dev nD) → Dat τ (Elt F) Unit ℕ (UR sig nD τ) ℕ (cfgs p) c) (c : Dev nD)
    (b : Ref sig .tc) (hb : decide (b.idx.val < 34) = true) (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
      simp only [List.flatten_cons, List.flatten_nil, List.append_nil]
      exact tail_keeps b hb),
    Pipeline.withArrays_of_ne _ c (V0 m c) _ b hne]

/-- An argument ends as launched. -/
theorem arg_kept (dats : (p : Fin _) → (c : Dev nD) → Dat τ (Elt F) Unit ℕ (UR sig nD τ) ℕ (cfgs p) c) (c : Dev nD)
    (b : Ref sig .tc) (hb : decide (b.idx.val < 9) = true) (hne : ∀ w, Pipeline.arrRef spec0 w ≠ b) :
    Pipeline.afterTail₀ cfgs dats 0 (V0 m) [hostOps1] c b = m ((c : Thread nD τ).loc b) :=
  (tail_low m dats c b (by have := of_decide_eq_true hb; exact decide_eq_true (by omega)) hne).trans (head_keeps m c b hb)

/-! ## The windows' blocks -/

/-- An input window's current staging buffer holds its block at every point, whether the pipeline fetched it there
    or kept it from the point before (then its block index did not move): for any proof data whose array is the
    region-entry contents and whose body leaves the block in place. Windows 0 (the trunk's output, a row block per
    point), 1 (the padded weights of one head) and 2 (the padded bias of one head). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame's post from a frame run -/

/-- From any run that ends with every buffer outside the region's arrays at what the later operations leave, the
    nine arguments end as launched: none is an array of the region, and no operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (arg_kept m dats c main_arg0 (by decide) (by decide)),
     ((h c).2 main_arg1 (Pipeline.mem_restRefs_of main_arg1 (by decide) (by decide))).trans (arg_kept m dats c main_arg1 (by decide) (by decide)),
     ((h c).2 main_arg2 (Pipeline.mem_restRefs_of main_arg2 (by decide) (by decide))).trans (arg_kept m dats c main_arg2 (by decide) (by decide)),
     ((h c).2 main_arg3 (Pipeline.mem_restRefs_of main_arg3 (by decide) (by decide))).trans (arg_kept m dats c main_arg3 (by decide) (by decide)),
     ((h c).2 main_arg4 (Pipeline.mem_restRefs_of main_arg4 (by decide) (by decide))).trans (arg_kept m dats c main_arg4 (by decide) (by decide)),
     ((h c).2 main_arg5 (Pipeline.mem_restRefs_of main_arg5 (by decide) (by decide))).trans (arg_kept m dats c main_arg5 (by decide) (by decide)),
     ((h c).2 main_arg6 (Pipeline.mem_restRefs_of main_arg6 (by decide) (by decide))).trans (arg_kept m dats c main_arg6 (by decide) (by decide)),
     ((h c).2 main_arg7 (Pipeline.mem_restRefs_of main_arg7 (by decide) (by decide))).trans (arg_kept m dats c main_arg7 (by decide) (by decide)),
     ((h c).2 main_arg8 (Pipeline.mem_restRefs_of main_arg8 (by decide) (by decide))).trans (arg_kept m dats c main_arg8 (by decide) (by decide))⟩) h

end Cert.KernelIdeal.Hand

end
-- ==== Proof.KIBody.lean ====
/-
  The body of `KernelIdeal`'s one kernel at a grid point. The body loads the whole of its three input blocks — a block of
  256 rows of the trunk's output (256×512), one head's padded weight matrix (1×512×5376) and that head's padded bias
  (1×1×5376) —, multiplies the first by the second into a zero accumulator, adds the bias row to every row, and
  stores the 1×256×5376 result over the whole of its output block (it also loads the output block first; nothing
  reads that value). So after the body the output's staging buffer holds one function of the three input blocks,
  `blockOut`: the one store read back through a rectangle that is the whole block.
-/
import proofs.«155112_j24970939859619_2_alg».proof.Proof.Gen.KernelIdeal.Launch
import proofs.«155112_j24970939859619_2_alg».proof.Proof.Gen.KernelIdeal.Skeleton
import proofs.«155112_j24970939859619_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each the whole block -/

abbrev rowsRect : Rect S256x512 := Rect.unit (s := S256x512) ![0, 0] S256x512.size inb_S256x512_S256x512_0_0
abbrev weightRect : Rect S1x512x5376 := Rect.unit (s := S1x512x5376) ![0, 0, 0] S1x512x5376.size inb_S1x512x5376_S1x512x5376_0_0_0
abbrev biasRect : Rect S1x1x5376 := Rect.unit (s := S1x1x5376) ![0, 0, 0] S1x1x5376.size inb_S1x1x5376_S1x1x5376_0_0_0
abbrev outRect : Rect S1x256x5376 := Rect.unit (s := S1x256x5376) ![0, 0, 0] S1x256x5376.size inb_S1x256x5376_S1x256x5376_0_0_0

/-- What the output's staging buffer holds after the body, from the three input blocks: its one store. -/
def blockOut (x0 : Vec F S256x512 .bf16) (x1 : Vec F S1x512x5376 .bf16) (x2 : Vec F S1x1x5376 .f32) : Vec F S1x256x5376 .bf16 :=
  View.canon [⟨outRect, k0_pay1 (View.ld x0 rowsRect) (View.ld x1 weightRect) (View.ld x2 biasRect)⟩]

/-- The store's rectangle is the whole block, so it covers it. -/
theorem blockOut_cover (p0 : Vec F S1x256x5376 .bf16) (y : S1x256x5376.Idx) :
    ∃ pc ∈ ([⟨outRect, p0⟩] : List (View.Piece (Elt F) S1x256x5376 .bf16)), y ∈ pc.1.set :=
  View.cover_of_tiled [⟨outRect, p0⟩] S1x256x5376.size (by rfl) y

set_option maxHeartbeats 1000000 in
/-- The body on whole staging buffers — the inputs' at contents `x0`, `x1`, `x2`, the output's at anything — runs to
    its end without a fault, leaving the inputs' as they were and the output's at `blockOut x0 x1 x2`. -/
theorem sound_kernel (c : Dev nD) (E : Set ℕ) (i : grid0.Coords)
    (arg2 : Memref sig .tc .vmem S256x512 .bf16) (harg2 : arg2.IsWhole)
    (arg3 : Memref sig .tc .vmem S1x512x5376 .bf16) (harg3 : arg3.IsWhole)
    (arg4 : Memref sig .tc .vmem S1x1x5376 .f32) (harg4 : arg4.IsWhole)
    (arg5 : Memref sig .tc .vmem S1x256x5376 .bf16) (harg5 : arg5.IsWhole)
    (x0 : Vec F S256x512 .bf16) (x1 : Vec F S1x512x5376 .bf16) (x2 : Vec F S1x1x5376 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (blockOut x0 x1 x2)) -∗ K ⟨⟩))
      ⊢ wp frame (wpE (defs₀ (F := F)) Variants.none c none) E (cc0__head_proj_kernel i arg2 harg2 arg3 harg3 arg4 harg4 arg5 harg5) K := by
  simp only [cc0__head_proj_kernel_eq_skeleton]; unfold cc0__head_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (blockOut_cover _)

end Cert.KernelIdeal.Hand

end
-- ==== Proof.KIRun.lean ====
/-
  `KernelIdeal`'s run. The proof data of its one pipeline: each array as the region finds it; after the body at a grid
  point each input window's buffer at its block, and the output window's at `blockOut` of the three input blocks
  there; the invariant that the body touches nothing else; nothing owed. The body obligation at a generic point
  is the body's triple at the point's blocks. The launch library then gives the run: every weakly fair execution of
  @main ends, without a fault, with each of the region's arrays at what the write-backs leave and every other
  unscoped buffer at what the 336 later operations compute from those arrays and the region-entry contents. The
  frame is that run read at the nine arguments.
-/
import proofs.«155112_j24970939859619_2_alg».proof.Proof.KIHost
import proofs.«155112_j24970939859619_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

/-- The proof data's arrays are the region-entry contents (the definition projected, the fold never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 200000 in
set_option maxHeartbeats 40000000 in
set_option backward.isDefEq.respectTransparency.types false in
/-- Every weakly fair execution of @main terminates without a fault; at the end each array of the region holds what
    the write-backs leave and every other unscoped buffer what the later operations compute. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to its end and the nine arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Hand

end
-- ==== Proof.LibDenseLayers.lean ====
/-
  Dense layers read as functions of whole matrices over the extended reals, for any extents.

  `prod x w` at `(r, e)` is the finite sum over the contracted coordinate `j` of `x (r, j) · w (j, e)`; `addRow h b` adds
  entry `e` of the one-row matrix `b` to column `e` of every row; `relu h` is the entrywise maximum with the zero word.
  Three compositions are named, each with its value at an entry: `relu (x · w + b)`, `relu (a + b) · w` and
  `relu (a + b) · w + c`. Sums and products of extended reals are commutative and associative, so a product computed
  tile by tile, in any order, is this same sum, and nothing here needs the entries to be finite. Two layout facts used
  when a kernel body is read at an entry close the file: a one-row matrix cast to its own shape and spread over `a`
  rows reads the row's entry, and the offset vector of a block stored whole is zero.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibDenseLayers

open Idealize.ShloMosaic Idealize.ShloMosaic.ValueIdx

/-- An `a × b` matrix of extended reals. -/
abbrev Mat (a b : ℕ) := FVec Ideal ⟨2, ![a, b]⟩ .f32

/-- The row coordinate of a matrix index, typed by the extent itself. -/
abbrev rowOf {a b : ℕ} (i : (⟨2, ![a, b]⟩ : Shape).Idx) : Fin a := ⟨(i 0).val, (i 0).isLt⟩
/-- The column coordinate of a matrix index, typed by the extent itself. -/
abbrev colOf {a b : ℕ} (i : (⟨2, ![a, b]⟩ : Shape).Idx) : Fin b := ⟨(i 1).val, (i 1).isLt⟩

/-- The matrix product: entry `(r, e)` is `∑ⱼ x (r, j) · w (j, e)`. -/
def prod {n k m : ℕ} (x : Mat n k) (w : Mat k m) : Mat n m :=
  fun i => ∑ j : Fin k, x (ix2 (rowOf i) j) * w (ix2 j (colOf i))

/-- A one-row matrix added to every row. -/
def addRow {n m : ℕ} (h : Mat n m) (b : Mat 1 m) : Mat n m :=
  fun i => h i + b (ix2 (0 : Fin 1) (colOf i))

/-- Rectification: the entrywise maximum with the zero word. -/
def relu {n m : ℕ} (h : Mat n m) : Mat n m :=
  fun i => max (h i) (Ideal.ofBits .f32 0x00000000#32)

theorem prod_apply {n k m : ℕ} (x : Mat n k) (w : Mat k m) (r : Fin n) (e : Fin m) :
    prod x w (ix2 r e) = ∑ j : Fin k, x (ix2 r j) * w (ix2 j e) := rfl

theorem addRow_apply {n m : ℕ} (h : Mat n m) (b : Mat 1 m) (r : Fin n) (e : Fin m) :
    addRow h b (ix2 r e) = h (ix2 r e) + b (ix2 (0 : Fin 1) e) := rfl

theorem relu_apply {n m : ℕ} (h : Mat n m) (r : Fin n) (e : Fin m) :
    relu h (ix2 r e) = max (h (ix2 r e)) (Ideal.ofBits .f32 0x00000000#32) := rfl

/-- The input layer: `relu (x · w + b)`. -/
def layerIn {n k m : ℕ} (x : Mat n k) (w : Mat k m) (b : Mat 1 m) : Mat n m := relu (addRow (prod x w) b)

/-- A hidden layer after an aggregation: `relu (a + b) · w`. -/
def layerHidden {n k m : ℕ} (a : Mat n k) (b : Mat 1 k) (w : Mat k m) : Mat n m := prod (relu (addRow a b)) w

/-- The output layer after the last aggregation: `relu (a + b) · w + c`. -/
def layerOut {n k m : ℕ} (a : Mat n k) (b : Mat 1 k) (w : Mat k m) (c : Mat 1 m) : Mat n m :=
  addRow (prod (relu (addRow a b)) w) c

theorem layerIn_apply {n k m : ℕ} (x : Mat n k) (w : Mat k m) (b : Mat 1 m) (r : Fin n) (e : Fin m) :
    layerIn x w b (ix2 r e)
      = max ((∑ j : Fin k, x (ix2 r j) * w (ix2 j e)) + b (ix2 (0 : Fin 1) e)) (Ideal.ofBits .f32 0x00000000#32) := rfl

theorem layerHidden_apply {n k m : ℕ} (a : Mat n k) (b : Mat 1 k) (w : Mat k m) (r : Fin n) (e : Fin m) :
    layerHidden a b w (ix2 r e)
      = ∑ j : Fin k, max (a (ix2 r j) + b (ix2 (0 : Fin 1) j)) (Ideal.ofBits .f32 0x00000000#32) * w (ix2 j e) := rfl

theorem layerOut_apply {n k m : ℕ} (a : Mat n k) (b : Mat 1 k) (w : Mat k m) (c : Mat 1 m) (r : Fin n) (e : Fin m) :
    layerOut a b w c (ix2 r e)
      = (∑ j : Fin k, max (a (ix2 r j) + b (ix2 (0 : Fin 1) j)) (Ideal.ofBits .f32 0x00000000#32) * w (ix2 j e))
        + c (ix2 (0 : Fin 1) e) := rfl

/-- A one-row matrix spread over `a` rows, after a cast to its own shape, reads the row's entry. -/
theorem spreadRow_apply {a b : ℕ} {φ : FTy} (v : FVec Ideal ⟨2, ![1, b]⟩ φ)
    (hc : (⟨2, ![1, b]⟩ : Shape).ShapeCasts ⟨2, ![1, b]⟩) (hb : (⟨2, ![1, b]⟩ : Shape).Broadcasts ⟨2, ![a, b]⟩)
    (p : Fin a) (e : Fin b) :
    broadcastTo ⟨2, ![a, b]⟩ (shapeCast ⟨2, ![1, b]⟩ v hc) hb (ix2 p e) = v (ix2 (0 : Fin 1) e) := by
  rw [broadcastTo_1b_ab_apply, shapeCast_self]

/-- The offset vector of a block stored whole. -/
theorem zero_offsets : (![0, 0] : Fin 2 → Nat) = fun _ => 0 := funext fun a => by fin_cases a <;> rfl

end Cert.LibDenseLayers

end
-- ==== Proof.LibKernelLayers.lean ====
/-
  A kernel body's dense-layer operations read as whole-matrix functions over the extended reals, for any extents.

  A product of two blocks accumulated into a zero block is the matrix product (a change of float format of an operand is
  the identity on the extended reals, so the operands may carry any format); a one-row block, cast to its own shape, spread
  down the rows and added, is the row added to every row; the entrywise maximum with a scalar zero spread over the block is
  the rectification.
-/
import proofs.«155112_j24970939859619_2_alg».proof.Proof.LibDenseLayers

noncomputable section

namespace Cert.LibKernelLayers

open Idealize.ShloMosaic Idealize.ShloMosaic.ValueIdx Cert.LibDenseLayers

/-- A block product `[M, K] · [K, N]` into a zero block, at `(p, e)`: `∑ₖ lhs (p, k) · rhs (k, e)`. The hypotheses say that
    the record contracts one axis of extent K, reads the left operand at (output row, contracted coordinate) and the right
    operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant ⟨2, ![M, N]⟩ .f32 0x00000000#32) (ix2 p e) = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

/-- So that product is the matrix product of the operands, whatever formats they carry. -/
theorem matmul_zero_eq_prod {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) :
    matmul D none lhs rhs (constant ⟨2, ![M, N]⟩ .f32 0x00000000#32) = prod (fun i => lhs i) (fun i => rhs i) := funext fun i => by
  obtain ⟨p, e, rfl⟩ : ∃ (p : Fin M) (e : Fin N), i = ix2 p e := ⟨i 0, i 1, eq_ix2 i⟩
  rw [matmul_zero_apply D hr hs hl0 hl1 hr0 hr1, prod_apply]

/-- A one-row block, cast to its own shape, spread down the rows and added, is the row added to every row. -/
theorem addf_spreadRow {a n : ℕ} (A : Mat a n) (v : Mat 1 n)
    (hc : (⟨2, ![1, n]⟩ : Shape).ShapeCasts ⟨2, ![1, n]⟩) (hb : (⟨2, ![1, n]⟩ : Shape).Broadcasts ⟨2, ![a, n]⟩) :
    addf A (broadcastTo ⟨2, ![a, n]⟩ (shapeCast ⟨2, ![1, n]⟩ v hc) hb) = addRow A v := funext fun i => by
  obtain ⟨p, e, rfl⟩ : ∃ (p : Fin a) (e : Fin n), i = ix2 p e := ⟨i 0, i 1, eq_ix2 i⟩
  rw [addf_apply, spreadRow_apply, addRow_apply]

/-- The entrywise maximum with a scalar zero spread over the block is the rectification. -/
theorem maximumf_zero_splat {a n : ℕ} (A : Mat a n) :
    maximumf A (broadcast ⟨2, ![a, n]⟩ (Scalar.ofBits (F := Ideal) .f32 0x00000000#32)) = relu A := rfl

end Cert.LibKernelLayers

end
-- ==== Proof.KIBlock.lean ====
/-
  The body's block, entry by entry, on the extended reals.

  The body's one store holds, at row `r` and column `n` of the 256 × 5376 block, the sum over the 512 contracted
  coordinates `j` of (row block)(r, j) · (weights)(j, n), plus the bias row's entry `n`: the product into a zero
  accumulator is that sum, the bias block cast to one row and spread down the rows adds its entry `n`, and the change
  of float format on the way out, like the casts between `[256, 5376]` and `[1, 256, 5376]`, moves nothing.
-/
import proofs.«155112_j24970939859619_2_alg».proof.Proof.KIBody
import proofs.«155112_j24970939859619_2_alg».proof.Proof.LibKernelLayers
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

/-- The body's product: 256 × 512 by 512 × 5376, one contracted axis. -/
abbrev bodyDot := dot_S256x512_S512x5376_S256x5376_1_0_0_1_n_n

theorem bodyDot_l0 (i : S256x5376.Idx) (q : bodyDot.contr.Idx) : (bodyDot.lhsIdx i q 0).val = (i 0).val := by
  unfold DotDims.lhsIdx
  rw [dif_neg (show ¬(0 : Fin S256x512.rank) ∈ bodyDot.lhsBatch by decide), dif_pos (show (0 : Fin S256x512.rank) ∈ bodyDot.lhsNonContracting by decide)]
  rfl
theorem bodyDot_l1 (i : S256x5376.Idx) (q : bodyDot.contr.Idx) : (bodyDot.lhsIdx i q 1).val = (q ⟨0, by decide⟩).val :=
  bodyDot.lhsIdx_val_of_single rfl i q
theorem bodyDot_r0 (i : S256x5376.Idx) (q : bodyDot.contr.Idx) : (bodyDot.rhsIdx i q 0).val = (q ⟨0, by decide⟩).val :=
  bodyDot.rhsIdx_val_of_single rfl i q
theorem bodyDot_r1 (i : S256x5376.Idx) (q : bodyDot.contr.Idx) : (bodyDot.rhsIdx i q 1).val = (i 1).val := by
  unfold DotDims.rhsIdx
  rw [dif_neg (show ¬(1 : Fin S512x5376.rank) ∈ bodyDot.rhsBatch by decide), dif_pos (show (1 : Fin S512x5376.rank) ∈ bodyDot.rhsNonContracting by decide)]
  rfl

theorem zero3 : (![0, 0, 0] : Fin 3 → Nat) = fun _ => 0 := funext fun a => by fin_cases a <;> rfl

/-- The stored value at `(0, r, n)`. -/
theorem pay_apply (x0 : FVec Ideal S256x512 .bf16) (x1 : FVec Ideal S1x512x5376 .bf16) (x2 : FVec Ideal S1x1x5376 .f32)
    (r : Fin 256) (n : Fin 5376) :
    k0_pay1 (F := Ideal) x0 x1 x2 (ix3 (0 : Fin 1) r n)
      = (∑ j : Fin 512, x0 (ix2 r j) * x1 (ix3 (0 : Fin 1) j n)) + x2 (ix3 (0 : Fin 1) (0 : Fin 1) n) := by
  unfold k0_pay1
  refine (shapeCast_ab_1ab_apply _ shapeCasts_S256x5376_S1x256x5376 (0 : Fin 1) r n).trans ?_
  refine (truncf_apply _ bitsLt_bf16_f32 (ix2 r n)).trans ?_
  refine (addf_apply _ _ (ix2 r n)).trans ?_
  refine congrArg₂ (· + ·) ?_ ?_
  · refine (Cert.LibKernelLayers.matmul_zero_apply bodyDot rfl rfl bodyDot_l0 bodyDot_l1 bodyDot_r0 bodyDot_r1 _ _ r n).trans ?_
    refine Finset.sum_congr rfl fun j _ => ?_
    refine congrArg₂ (· * ·) ?_ ?_
    · exact congrFun (shapeCast_self x0 shapeCasts_S256x512_S256x512) (ix2 r j)
    · exact shapeCast_1ab_ab_apply x1 shapeCasts_S1x512x5376_S512x5376 j n
  · refine (broadcastTo_1b_ab_apply _ broadcasts_S1x5376_S256x5376 r n).trans ?_
    exact shapeCast_1ab_ab_apply x2 shapeCasts_S1x1x5376_S1x5376 (0 : Fin 1) n

/-- What the output's staging buffer holds after the body, at `(0, r, n)`. -/
theorem blockOut_apply (x0 : FVec Ideal S256x512 .bf16) (x1 : FVec Ideal S1x512x5376 .bf16) (x2 : FVec Ideal S1x1x5376 .f32)
    (r : Fin 256) (n : Fin 5376) :
    blockOut (F := Ideal) x0 x1 x2 (ix3 (0 : Fin 1) r n)
      = (∑ j : Fin 512, x0 (ix2 r j) * x1 (ix3 (0 : Fin 1) j n)) + x2 (ix3 (0 : Fin 1) (0 : Fin 1) n) := by
  unfold blockOut
  rw [View.canon_unit_zero zero3]
  simp only [View.ld_unit_zero (S := S256x512) Cert.LibDenseLayers.zero_offsets, View.ld_unit_zero (S := S1x512x5376) zero3,
    View.ld_unit_zero (S := S1x1x5376) zero3]
  exact pay_apply x0 x1 x2 r n

end Cert.KernelIdeal.Hand

end
-- ==== Proof.KIProj.lean ====
/-
  The projection as one function of whole arrays, on the extended reals: entry `(k, r, n)` is the sum over the 512
  coordinates `j` of `h (r, j) · W (k, j, n)`, plus `b (k, 0, n)` — head `k`'s weights applied to row `r` of the trunk's
  output, plus head `k`'s bias.
-/
import proofs.«155112_j24970939859619_2_alg».proof.Proof.Gen.KernelIdeal
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.ValueIdx

/-- The projection of whole arrays. -/
def proj (h : S1024x512.Idx → EReal) (W : S8x512x5376.Idx → EReal) (b : S8x1x5376.Idx → EReal) : S8x1024x5376.Idx → EReal :=
  fun i => (∑ j : Fin 512, h (ix2 (⟨(i 1).val, (i 1).isLt⟩ : Fin 1024) j)
      * W (ix3 (⟨(i 0).val, (i 0).isLt⟩ : Fin 8) j (⟨(i 2).val, (i 2).isLt⟩ : Fin 5376)))
    + b (ix3 (⟨(i 0).val, (i 0).isLt⟩ : Fin 8) (0 : Fin 1) (⟨(i 2).val, (i 2).isLt⟩ : Fin 5376))

/-- At an entry written by coordinates. -/
theorem proj_apply (h : S1024x512.Idx → EReal) (W : S8x512x5376.Idx → EReal) (b : S8x1x5376.Idx → EReal)
    (k : Fin 8) (r : Fin 1024) (n : Fin 5376) :
    proj h W b (ix3 k r n) = (∑ j : Fin 512, h (ix2 r j) * W (ix3 k j n)) + b (ix3 k (0 : Fin 1) n) := rfl

end Cert.KernelIdeal.Hand

end
-- ==== Proof.KIValue.lean ====
/-
  The region's result array after the run, on the extended reals.

  `proj h W b` is the projection as one function of whole arrays: entry `(k, r, n)` is the sum over `j` of
  `h (r, j) · W (k, j, n)`, plus `b (k, 0, n)` — head `k`'s weights applied to row `r` of the trunk's output, plus head
  `k`'s bias. The grid has 8 × 4 points; point `(k, q)` reads rows `256 q … 256 q + 255` of `h`, member `k` of `W` and of `b`,
  and writes rows `256 q …` of member `k` of the result. So what a point writes back is its block of `proj`, the 32
  blocks tile the `[8, 1024, 5376]` array, and the array ends holding `proj` of the three arrays as the region found them.
-/
import proofs.«155112_j24970939859619_2_alg».proof.Proof.KIRun
import proofs.«155112_j24970939859619_2_alg».proof.Proof.KIBlock
import proofs.«155112_j24970939859619_2_alg».proof.Proof.KIProj
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 32 grid points: the row block of `h` moves with the result's row block,
    the members of `W` and `b` with the result's member, every other block index is zero. -/
theorem idx_facts : ∀ t : Fin cfg0.N,
    win0_0.index t (0 : Fin 2) = win0_3.index t (1 : Fin 3) ∧ win0_0.index t (1 : Fin 2) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 8 ∧ win0_3.index t (1 : Fin 3) < 4 :=
  (by decide +kernel : ∀ t : Fin grid0.N, _)

/-- Every (member, row block) is some point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- An input block's entry is the array's entry at the block's offset plus the coordinate inside the block. -/
theorem iblk0_apply (c : Dev nD) (t : Fin cfg0.N) (r : Fin 256) (j : Fin 512) (k : S1024x512.Idx)
    (hk0 : (k 0).val = win0_3.index t (1 : Fin 3) * 256 + r.val) (hk1 : (k 1).val = j.val) :
    (iblk m c 0 t : Vec Ideal S256x512 .bf16) (ix2 r j) = (V m c main_v15 : S1024x512.Idx → EReal) k := by
  obtain ⟨e0, e1, -⟩ := idx_facts t
  unfold iblk
  rw [View.read_apply]
  show V m c main_v15 _ = V m c main_v15 _
  congr 1
  funext a
  apply Fin.ext
  match a with
  | ⟨0, _⟩ => show win0_0.index t 0 * 256 + 1 * r.val = (k 0).val; rw [e0, hk0] <;> omega
  | ⟨1, _⟩ => show win0_0.index t 1 * 512 + 1 * j.val = (k 1).val; rw [e1, hk1] <;> omega

theorem iblk1_apply (c : Dev nD) (t : Fin cfg0.N) (j : Fin 512) (n : Fin 5376) (k : S8x512x5376.Idx)
    (hk0 : (k 0).val = win0_3.index t (0 : Fin 3)) (hk1 : (k 1).val = j.val) (hk2 : (k 2).val = n.val) :
    (iblk m c 1 t : Vec Ideal S1x512x5376 .bf16) (ix3 (0 : Fin 1) j n) = (V m c main_v12 : S8x512x5376.Idx → EReal) k := by
  obtain ⟨-, -, e0, e1, e2, -⟩ := idx_facts t
  unfold iblk
  rw [View.read_apply]
  show V m c main_v12 _ = V m c main_v12 _
  congr 1
  funext a
  apply Fin.ext
  match a with
  | ⟨0, _⟩ => show win0_1.index t 0 * 1 + 1 * 0 = (k 0).val; rw [e0, hk0] <;> omega
  | ⟨1, _⟩ => show win0_1.index t 1 * 512 + 1 * j.val = (k 1).val; rw [e1, hk1] <;> omega
  | ⟨2, _⟩ => show win0_1.index t 2 * 5376 + 1 * n.val = (k 2).val; rw [e2, hk2] <;> omega

theorem iblk2_apply (c : Dev nD) (t : Fin cfg0.N) (n : Fin 5376) (k : S8x1x5376.Idx)
    (hk0 : (k 0).val = win0_3.index t (0 : Fin 3)) (hk1 : (k 1).val = 0) (hk2 : (k 2).val = n.val) :
    (iblk m c 2 t : Vec Ideal S1x1x5376 .f32) (ix3 (0 : Fin 1) (0 : Fin 1) n) = (V m c main_v14 : S8x1x5376.Idx → EReal) k := by
  obtain ⟨-, -, -, -, -, e0, e1, e2, -⟩ := idx_facts t
  unfold iblk
  rw [View.read_apply]
  show V m c main_v14 _ = V m c main_v14 _
  congr 1
  funext a
  apply Fin.ext
  match a with
  | ⟨0, _⟩ => show win0_2.index t 0 * 1 + 1 * 0 = (k 0).val; rw [e0, hk0] <;> omega
  | ⟨1, _⟩ => show win0_2.index t 1 * 1 + 1 * 0 = (k 1).val; rw [e1, hk1] <;> omega
  | ⟨2, _⟩ => show win0_2.index t 2 * 5376 + 1 * n.val = (k 2).val; rw [e2, hk2] <;> omega

/-- What point `t` writes back is block `t` of `proj` of the three arrays as the region finds them. -/
theorem flushed_eq (c : Dev nD) (t : Fin cfg0.N) :
    (dats m 0 c).flushed 3 t = ((cfg0.win 3).blk t).view.read (Elt Ideal)
      (proj (V m c main_v15) (V m c main_v12) (V m c main_v14)) := by
  show (cfg0.win 3).cut (grid0.coords t) ((dats m 0 c).after 3 t) = _
  rw [after0_3]
  obtain ⟨-, -, -, -, -, -, -, -, e32, -⟩ := idx_facts t
  funext y
  obtain ⟨u, r, n, rfl⟩ : ∃ (u : Fin 1) (r : Fin 256) (n : Fin 5376), y = ix3 u r n := ⟨y 0, y 1, y 2, eq_ix3 y⟩
  obtain rfl : u = 0 := Subsingleton.elim _ _
  show blockOut (iblk m c 0 t) (iblk m c 1 t) (iblk m c 2 t) (ix3 (0 : Fin 1) r n) = proj _ _ _ (((cfg0.win 3).blk t).view.emb (ix3 (0 : Fin 1) r n))
  refine (blockOut_apply _ _ _ r n).trans ?_
  have h0 : ((((cfg0.win 3).blk t).view.emb (ix3 (0 : Fin 1) r n)) 0).val = win0_3.index t (0 : Fin 3) := by
    show win0_3.index t 0 * 1 + 1 * 0 = _; omega
  have h1 : ((((cfg0.win 3).blk t).view.emb (ix3 (0 : Fin 1) r n)) 1).val = win0_3.index t (1 : Fin 3) * 256 + r.val := by
    show win0_3.index t 1 * 256 + 1 * r.val = _; omega
  have h2 : ((((cfg0.win 3).blk t).view.emb (ix3 (0 : Fin 1) r n)) 2).val = n.val := by
    show win0_3.index t 2 * 5376 + 1 * n.val = _; rw [e32]; omega
  unfold proj
  refine congrArg₂ (· + ·) (Finset.sum_congr rfl fun j _ => congrArg₂ (· * ·) ?_ ?_) ?_
  · exact iblk0_apply m c t r j _ h1 rfl
  · exact iblk1_apply m c t j n _ h0 rfl h2
  · exact iblk2_apply m c t n _ h0 rfl h2

/-- An index of the array is in point `t`'s block iff each coordinate is in the block's range on its axis. -/
theorem mem_blk (t : Fin cfg0.N) (i : S8x1024x5376.Idx) :
    i ∈ ((cfg0.win 3).blk t).view.set ↔ ∀ a : Fin 3, win0_3.index t a * S1x256x5376.size a ≤ (i a).val
      ∧ (i a).val < win0_3.index t a * S1x256x5376.size a + S1x256x5376.size a := by
  show i ∈ ((View.whole main_v16).slice (win0_3.rect t)).set ↔ _
  rw [View.set_slice_whole, Rect.mem_set_unit]
  exact Iff.rfl

/-- The array after the run. -/
theorem final (c : Dev nD) : (dats m 0 c).arrAt 3 cfg0.N = proj (V m c main_v15) (V m c main_v12) (V m c main_v14) :=
  (dats m 0 c).arrAt_eq_of_cover 3 _ (fun t _ => flushed_eq m c t) fun i => by
    have hi0 : (i 0).val < 8 := (i 0).isLt
    have hi1 : (i 1).val < 1024 := (i 1).isLt
    have hi2 : (i 2).val < 5376 := (i 2).isLt
    obtain ⟨t, ht⟩ := idx_onto ⟨(i 0).val, hi0⟩ ⟨(i 1).val / 256, by omega⟩
    have q0 : win0_3.index t (0 : Fin 3) = (i 0).val := congrFun ht 0
    have q1 : win0_3.index t (1 : Fin 3) = (i 1).val / 256 := congrFun ht 1
    have q2 : win0_3.index t (2 : Fin 3) = 0 := congrFun ht 2
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 256 ≤ (i 1).val ∧ (i 1).val < win0_3.index t (1 : Fin 3) * 256 + 256; omega
    | ⟨2, _⟩ => show win0_3.index t (2 : Fin 3) * 5376 ≤ (i 2).val ∧ (i 2).val < win0_3.index t (2 : Fin 3) * 5376 + 5376; omega

end Cert.KernelIdeal.Hand

end
-- ==== Proof.LibFoldEval.lean ====
/-
  Reading a fold of host operations in one pass, concatenations included.

  The contents of a buffer after a straight line of host operations is a fold: each operation rewrites the buffer it writes
  and leaves every other buffer as it was.  One simplifier pass unfolds such a fold down to the operations' functions of the
  contents it starts from, visiting each shared intermediate once — provided it can reach the operands.  A concatenation keeps
  its operands inside a list of (shape, array) pairs, where a rewrite cannot go; writing the concatenation of two, three or four
  arrays as a function of the arrays themselves puts them back in reach.
-/
import Idealize.ShloMosaic.Lib.StableHlo.Run

namespace Cert.FoldEval

open Idealize.ShloMosaic Idealize.ShloMosaic.StableHlo

variable {α : Type}

/-- The concatenation of two arrays along an axis, as a function of the two arrays. -/
def cat2 (t : Shape) (a : Fin t.rank) (s1 s2 : Shape) (x1 : s1.Idx → α) (x2 : s2.Idx → α)
    (h : Shape.Concatenates [s1, s2] t a) : t.Idx → α :=
  concatenate t a [⟨s1, x1⟩, ⟨s2, x2⟩] h

/-- Of three. -/
def cat3 (t : Shape) (a : Fin t.rank) (s1 s2 s3 : Shape) (x1 : s1.Idx → α) (x2 : s2.Idx → α) (x3 : s3.Idx → α)
    (h : Shape.Concatenates [s1, s2, s3] t a) : t.Idx → α :=
  concatenate t a [⟨s1, x1⟩, ⟨s2, x2⟩, ⟨s3, x3⟩] h

/-- Of four. -/
def cat4 (t : Shape) (a : Fin t.rank) (s1 s2 s3 s4 : Shape) (x1 : s1.Idx → α) (x2 : s2.Idx → α) (x3 : s3.Idx → α)
    (x4 : s4.Idx → α) (h : Shape.Concatenates [s1, s2, s3, s4] t a) : t.Idx → α :=
  concatenate t a [⟨s1, x1⟩, ⟨s2, x2⟩, ⟨s3, x3⟩, ⟨s4, x4⟩] h

theorem cat2_eq (t : Shape) (a : Fin t.rank) (s1 s2 : Shape) (x1 : s1.Idx → α) (x2 : s2.Idx → α)
    (h : Shape.Concatenates [s1, s2] t a) :
    concatenate t a [⟨s1, x1⟩, ⟨s2, x2⟩] h = cat2 t a s1 s2 x1 x2 h := rfl

theorem cat3_eq (t : Shape) (a : Fin t.rank) (s1 s2 s3 : Shape) (x1 : s1.Idx → α) (x2 : s2.Idx → α) (x3 : s3.Idx → α)
    (h : Shape.Concatenates [s1, s2, s3] t a) :
    concatenate t a [⟨s1, x1⟩, ⟨s2, x2⟩, ⟨s3, x3⟩] h = cat3 t a s1 s2 s3 x1 x2 x3 h := rfl

theorem cat4_eq (t : Shape) (a : Fin t.rank) (s1 s2 s3 s4 : Shape) (x1 : s1.Idx → α) (x2 : s2.Idx → α) (x3 : s3.Idx → α)
    (x4 : s4.Idx → α) (h : Shape.Concatenates [s1, s2, s3, s4] t a) :
    concatenate t a [⟨s1, x1⟩, ⟨s2, x2⟩, ⟨s3, x3⟩, ⟨s4, x4⟩] h = cat4 t a s1 s2 s3 s4 x1 x2 x3 x4 h := rfl

/-- Rewrites every `after ops V b` in the goal, for a literal line `ops` over literal references, to the operations' functions
    of `V` at the buffers read, in one simplifier pass; concatenations come out as `cat2` / `cat3` / `cat4`. -/
macro "fold_eval" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      cat2_eq, cat3_eq, cat4_eq, Matrix.cons_val_zero, Matrix.cons_val_one, Matrix.cons_val_two, Matrix.head_cons]))

end Cert.FoldEval
-- ==== Proof.LibLayoutRead.lean ====
/-
  Layout operations of a block with a repeated middle axis, read at an index, over any extents.

  A kernel that evaluates a network at b points for each of a rows builds an `[a, b, c]` block from pieces that vary along
  one or two of the axes only, and flattens it to `[a · b, c]`: row r of the flat block is (r / b, r % b). The pieces enter
  by the layout operations read here, each at an index built from its coordinates:

  * a column `[a, 1]` spread over `[a, b]` reads (p, 0); a `[1, 1]` cell spread over `[a, 1]` reads (0, 0);
  * `[a, b]` viewed `[a, b, 1]`, and `[a, c]` viewed `[a, 1, c]`, read the same position;
  * `[a, b, 1]`, `[1, 1, c]`, `[a, 1, c]` spread over `[a, b, c]` read (p, s, 0), (0, 0, j), (p, 0, j);
    `[1, b, 1]` spread over `[a, b, 1]` reads (0, s, 0);
  * `[a, b, c]` viewed `[a · b, c]` reads (r / b, r % b, j) at (r, j), and `[a · b, 1]` viewed `[a, b, 1]` reads
    (p · b + s, 0) at (p, s, 0); a vector `[n]` viewed `[n, 1]` reads r at (r, 0);
  * a sum over the lanes of `[n, c]` is, at r, the sum over k of the entries (r, k); a sum over the middle axis of
    `[a, b, 1]` is, at (p, 0), the sum over s of the entries (p, s, 0).
-/
import Idealize.ShloMosaic.Lib.Pipeline.Value
import Idealize.ShloMosaic.Lib.ValueIdx
import Idealize.ShloMosaic.PureOps.Ideal.Laws

noncomputable section

namespace Cert.LibLayoutRead

open Idealize.ShloMosaic Idealize.ShloMosaic.ValueIdx

variable {α : Type}

/-- A column `[a, 1]` spread over `[a, b]` reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` cell spread over `[a, 1]` reads the cell. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- `[a, b]` viewed `[a, b, 1]` reads, at (p, s, 0), the entry (p, s). -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    omega)

/-- `[a, c]` viewed `[a, 1, c]` reads, at (p, 0, j), the entry (p, j). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (j : Fin c) :
    shapeCast ⟨3, ![a, 1, c]⟩ x h (ix3 p u j) = x (ix2 p j) :=
  shapeCast_apply x h _ _ (by
    have hu : u.val = 0 := by omega
    rw [Shape.rowMajor_val_two, Shape.rowMajor_val_three]
    show p.val * c + j.val = (p.val * 1 + u.val) * c + j.val
    rw [hu, Nat.mul_one, Nat.add_zero])

/-- `[1, c]` viewed `[1, 1, c]` reads, at (0, 0, j), the entry (0, j). -/
theorem shapeCast_1c_11c_apply {c : ℕ} (x : (⟨2, ![1, c]⟩ : Shape).Idx → α)
    (h : (⟨2, ![1, c]⟩ : Shape).ShapeCasts ⟨3, ![1, 1, c]⟩) (u v : Fin 1) (j : Fin c) :
    shapeCast ⟨3, ![1, 1, c]⟩ x h (ix3 u v j) = x (ix2 (0 : Fin 1) j) :=
  shapeCast_apply x h _ _ (by
    have hu : u.val = 0 := by omega
    have hv : v.val = 0 := by omega
    rw [Shape.rowMajor_val_two, Shape.rowMajor_val_three]
    show (0 : ℕ) * c + j.val = (u.val * 1 + v.val) * c + j.val
    rw [hu, hv])

/-- `[b, 1]` viewed `[1, b, 1]` reads, at (0, s, 0), the entry (s, 0). -/
theorem shapeCast_b1_1b1_apply {b : ℕ} (x : (⟨2, ![b, 1]⟩ : Shape).Idx → α)
    (h : (⟨2, ![b, 1]⟩ : Shape).ShapeCasts ⟨3, ![1, b, 1]⟩) (u : Fin 1) (s : Fin b) (v : Fin 1) :
    shapeCast ⟨3, ![1, b, 1]⟩ x h (ix3 u s v) = x (ix2 s (0 : Fin 1)) :=
  shapeCast_apply x h _ _ (by
    have hu : u.val = 0 := by omega
    have hv : v.val = 0 := by omega
    rw [Shape.rowMajor_val_two, Shape.rowMajor_val_three]
    show s.val * 1 + (0 : ℕ) = (u.val * b + s.val) * 1 + v.val
    rw [hu, hv]; omega)

/-- `[a, b, 1]` spread over `[a, b, c]` reads, at (p, s, j), the entry (p, s, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (j : Fin c) :
    broadcastTo ⟨3, ![a, b, c]⟩ v h (ix3 p s j) = v (ix3 p s (0 : Fin 1)) := by
  refine broadcastTo_apply v h (ix3 p s j) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- `[1, 1, c]` spread over `[a, b, c]` reads, at (p, s, j), the entry (0, 0, j). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (j : Fin c) :
    broadcastTo ⟨3, ![a, b, c]⟩ v h (ix3 p s j) = v (ix3 (0 : Fin 1) (0 : Fin 1) j) := by
  refine broadcastTo_apply v h (ix3 p s j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- `[a, 1, c]` spread over `[a, b, c]` reads, at (p, s, j), the entry (p, 0, j). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (j : Fin c) :
    broadcastTo ⟨3, ![a, b, c]⟩ v h (ix3 p s j) = v (ix3 p (0 : Fin 1) j) := by
  refine broadcastTo_apply v h (ix3 p s j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- `[1, b, 1]` spread over `[a, b, 1]` reads, at (p, s, 0), the entry (0, s, 0). -/
theorem broadcastTo_1b1_ab1_apply {a b : ℕ} (v : (⟨3, ![1, b, 1]⟩ : Shape).Idx → α)
    (h : (⟨3, ![1, b, 1]⟩ : Shape).Broadcasts ⟨3, ![a, b, 1]⟩) (p : Fin a) (s : Fin b) (u : Fin 1) :
    broadcastTo ⟨3, ![a, b, 1]⟩ v h (ix3 p s u) = v (ix3 (0 : Fin 1) s (0 : Fin 1)) := by
  refine broadcastTo_apply v h (ix3 p s u) (ix3 (0 : Fin 1) s (0 : Fin 1)) fun ax => ?_
  match ax with
  | ⟨0, _⟩ => rfl
  | ⟨1, _⟩ =>
    show s.val = if b = 1 then 0 else s.val
    split
    · have := s.isLt; omega
    · rfl
  | ⟨2, _⟩ => rfl

/-- `[a, b, c]` viewed `[n, c]` with n = a · b reads, at (r, j), the entry (r / b, r % b, j). -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (r : Fin n) (j : Fin c)
    (hr : r.val = p.val * b + s.val) :
    shapeCast ⟨2, ![n, c]⟩ x h (ix2 r j) = x (ix3 p s j) :=
  shapeCast_apply x h _ _ (by
    rw [Shape.rowMajor_val_two, Shape.rowMajor_val_three]
    show (p.val * b + s.val) * c + j.val = r.val * c + j.val
    rw [hr])

/-- `[n, 1]` with n = a · b viewed `[a, b, 1]` reads, at (p, s, 0), the entry (p · b + s, 0). -/
theorem shapeCast_n1_ab1_apply {a b n : ℕ} (x : (⟨2, ![n, 1]⟩ : Shape).Idx → α)
    (h : (⟨2, ![n, 1]⟩ : Shape).ShapeCasts ⟨3, ![a, b, 1]⟩) (p : Fin a) (s : Fin b) (u : Fin 1) (r : Fin n)
    (hr : r.val = p.val * b + s.val) :
    shapeCast ⟨3, ![a, b, 1]⟩ x h (ix3 p s u) = x (ix2 r (0 : Fin 1)) :=
  shapeCast_apply x h _ _ (by
    have hu : u.val = 0 := by omega
    rw [Shape.rowMajor_val_two, Shape.rowMajor_val_three]
    show r.val * 1 + (0 : ℕ) = (p.val * b + s.val) * 1 + u.val
    rw [hr, hu])

/-- A vector `[n]` viewed `[n, 1]` reads, at (r, 0), the entry r. -/
theorem shapeCast_n_n1_apply {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_one, Shape.rowMajor_val_two]
    show r.val = r.val * 1 + u.val
    omega)

/-- A sum over the lanes of `[n, c]`, at r: the sum over k of the entries (r, k). -/
theorem multiReduction_lanes_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin c, src (ix2 r k) :=
  (Ideal.multiReduction_add_single src 0x00000000#32 h hφ hacc (ix1 r)).trans
    (Finset.sum_congr rfl fun k _ => congrArg src (funext fun ax => Fin.ext (by
      match ax with
      | ⟨0, _⟩ => rfl
      | ⟨1, _⟩ => rfl)))

/-- A sum over the middle axis of `[a, b, 1]`, at (p, 0): the sum over s of the entries (p, s, 0). -/
theorem multiReduction_middle_apply {a b : ℕ} (src : FVec Ideal ⟨3, ![a, b, 1]⟩ .f32)
    (h : (⟨3, ![a, b, 1]⟩ : Shape).Reduces [1] ⟨2, ![a, 1]⟩) (hφ : FKind.Formats .f32)
    (hacc : (0x00000000#32 : BitVec 32) = FKind.add.neutral .f32 hφ) (p : Fin a) (u : Fin 1) :
    multiReduction .add [1] ⟨2, ![a, 1]⟩ src 0x00000000#32 h hφ hacc (ix2 p u) = ∑ s : Fin b, src (ix3 p s (0 : Fin 1)) :=
  (Ideal.multiReduction_add_single src 0x00000000#32 h hφ hacc (ix2 p u)).trans
    (Finset.sum_congr rfl fun k _ => congrArg src (funext fun ax => Fin.ext (by
      have hu : u.val = 0 := by omega
      match ax with
      | ⟨0, _⟩ => rfl
      | ⟨1, _⟩ => rfl
      | ⟨2, _⟩ => exact hu)))

/-- The lane sum as a kernel body spells it: the accumulator word is the zero word, by computation. -/
theorem multiReduction_lanes_zero_apply {n c : ℕ} (src : FVec Ideal ⟨2, ![n, c]⟩ .f32)
    (h : (⟨2, ![n, c]⟩ : Shape).Reduces [1] ⟨1, ![n]⟩) (r : Fin n) :
    multiReduction .add [1] ⟨1, ![n]⟩ src 0x00000000#32 h (.inl rfl) rfl (ix1 r) = ∑ k : Fin c, src (ix2 r k) :=
  multiReduction_lanes_apply src h (.inl rfl) rfl r

/-- The middle-axis sum as a kernel body spells it. -/
theorem multiReduction_middle_zero_apply {a b : ℕ} (src : FVec Ideal ⟨3, ![a, b, 1]⟩ .f32)
    (h : (⟨3, ![a, b, 1]⟩ : Shape).Reduces [1] ⟨2, ![a, 1]⟩) (p : Fin a) (u : Fin 1) :
    multiReduction .add [1] ⟨2, ![a, 1]⟩ src 0x00000000#32 h (.inl rfl) rfl (ix2 p u) = ∑ s : Fin b, src (ix3 p s (0 : Fin 1)) :=
  multiReduction_middle_apply src h (.inl rfl) rfl p u

end Cert.LibLayoutRead

end
-- ==== Proof.KIHead.lean ====
/-
  The region's padded operands, entry by entry.

  Before the region @main casts the projection weights `[8, 5256, 512]` to bf16, swaps their last two axes and pads the
  new last axis with 120 zero columns; it pads the bias `[8, 5256]` the same way and views it `[8, 1, 5376]`; and it
  casts the trunk's output to bf16. On the extended reals the casts move nothing, so below column 5256 the padded
  weights at `(k, j, n)` are the argument's entry `(k, n, j)`, the padded bias at `(k, 0, n)` is the argument's entry
  `(k, n)`, and the cast trunk output is the trunk output.
-/
import proofs.«155112_j24970939859619_2_alg».proof.Proof.KIBase
import proofs.«155112_j24970939859619_2_alg».proof.Proof.LibFoldEval
import proofs.«155112_j24970939859619_2_alg».proof.Proof.LibLayoutRead
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.StableHlo Cert.FoldEval

variable (m : (ℓ : Loc nD τ sig) → Buf (Elt Ideal) ℓ)

set_option maxHeartbeats 4000000 in
/-- The padded weights below column 5256. -/
theorem V12_apply (c : Dev nD) (k : Fin 8) (j : Fin 512) (n : Fin 5256) :
    (V m c main_v12 : S8x512x5376.Idx → EReal) (ix3 k j (⟨n.val, by have := n.isLt; omega⟩ : Fin 5376))
      = (m ((c : Thread nD τ).loc main_arg6) : S8x5256x512.Idx → EReal) (ix3 k n j) := by
  show after (List.flatten (headOps (F := Ideal))) (fun b => m (c, b)) (Proc.devRef .tc main_v12) _ = _
  simp only [headOps, hostOps0, hostOps0_1, hostOps0_2, hostOps0_3, hostOps0_4, hostOps0_5, hostOps0_6, hostOps0_7, hostOps0_8,
    List.flatten_cons, List.flatten_nil, List.append_nil, List.cons_append, List.nil_append]
  fold_eval
  show pad S8x512x5376 ![0, 0, 0] ![0, 0, 120] ![0, 0, 0]
      (transpose S8x512x5256 [0, 2, 1] (truncf .bf16 (m (c, Proc.devRef .tc main_arg6)) bitsLt_bf16_f32) transposes_S8x5256x512_S8x512x5256_0_2_1)
      (sitofp (F := Ideal) .bf16 (constantI S_ 32 0#32)) pads_S8x512x5256_S8x512x5376_000_000_01200 h_S_
      (ix3 k j (⟨n.val, by have := n.isLt; omega⟩ : Fin 5376)) = _
  refine (pad_apply_of_inside ![0, 0, 0] ![0, 0, 120] ![0, 0, 0] _ _ pads_S8x512x5256_S8x512x5376_000_000_01200 h_S_
    (ix3 k j (⟨n.val, by have := n.isLt; omega⟩ : Fin 5376)) (ix3 k j n)
    (fun a => match a with
      | ⟨0, _⟩ => by show k.val = 0 + k.val * (0 + 1); omega
      | ⟨1, _⟩ => by show j.val = 0 + j.val * (0 + 1); omega
      | ⟨2, _⟩ => by show n.val = 0 + n.val * (0 + 1); omega)).trans ?_
  exact transpose_ix3_021_apply _ transposes_S8x5256x512_S8x512x5256_0_2_1 k j n

set_option maxHeartbeats 4000000 in
/-- The padded bias below column 5256. -/
theorem V14_apply (c : Dev nD) (k : Fin 8) (n : Fin 5256) :
    (V m c main_v14 : S8x1x5376.Idx → EReal) (ix3 k (0 : Fin 1) (⟨n.val, by have := n.isLt; omega⟩ : Fin 5376))
      = (m ((c : Thread nD τ).loc main_arg7) : S8x5256.Idx → EReal) (ix2 k n) := by
  show after (List.flatten (headOps (F := Ideal))) (fun b => m (c, b)) (Proc.devRef .tc main_v14) _ = _
  simp only [headOps, hostOps0, hostOps0_1, hostOps0_2, hostOps0_3, hostOps0_4, hostOps0_5, hostOps0_6, hostOps0_7, hostOps0_8,
    List.flatten_cons, List.flatten_nil, List.append_nil, List.cons_append, List.nil_append]
  fold_eval
  refine (Cert.LibLayoutRead.shapeCast_ac_a1c_apply _ _ k (0 : Fin 1) (⟨n.val, by have := n.isLt; omega⟩ : Fin 5376)).trans ?_
  show pad S8x5376 ![0, 0] ![0, 120] ![0, 0] (m (c, Proc.devRef .tc main_arg7)) (sitofp (F := Ideal) .f32 (constantI S_ 32 0#32))
      pads_S8x5256_S8x5376_000_01200 h_S_ (ix2 k (⟨n.val, by have := n.isLt; omega⟩ : Fin 5376)) = _
  exact pad_apply_of_inside ![0, 0] ![0, 120] ![0, 0] _ _ pads_S8x5256_S8x5376_000_01200 h_S_
    (ix2 k (⟨n.val, by have := n.isLt; omega⟩ : Fin 5376)) (ix2 k n)
    (fun a => match a with
      | ⟨0, _⟩ => by show k.val = 0 + k.val * (0 + 1); omega
      | ⟨1, _⟩ => by show n.val = 0 + n.val * (0 + 1); omega)

set_option maxHeartbeats 4000000 in
/-- The cast trunk output is the trunk output. -/
theorem V15_eq (c : Dev nD) : (V m c main_v15 : S1024x512.Idx → EReal) = (V m c main_v9 : S1024x512.Idx → EReal) := by
  show after (List.flatten (headOps (F := Ideal))) (fun b => m (c, b)) (Proc.devRef .tc main_v15)
    = after (List.flatten (headOps (F := Ideal))) (fun b => m (c, b)) (Proc.devRef .tc main_v9)
  simp only [headOps, hostOps0, hostOps0_1, hostOps0_2, hostOps0_3, hostOps0_4, hostOps0_5, hostOps0_6, hostOps0_7, hostOps0_8,
    List.flatten_cons, List.flatten_nil, List.append_nil, List.cons_append, List.nil_append]
  fold_eval
  rfl

end Cert.KernelIdeal.Hand

end
-- ==== Proof.PiecesBase.lean ====
/-
  What "the two projection arrays agree" means, and a congruence for reshapes.

  The kernel's region writes an `[8, 1024, 5376]` array (its last 120 columns are padding), the reference computes an
  `[8, 1024, 5256]` one. `ColsAgree PK PR` says they agree on every column below 5256. A cast of two equal arrays to one
  shape gives equal arrays, whatever proofs of castability the two casts carry.
-/
import proofs.«155112_j24970939859619_2_alg».proof.Proof.Gen.KernelIdeal
import proofs.«155112_j24970939859619_2_alg».proof.Proof.Gen.ReferenceIdeal
import Idealize.ShloMosaic.Lib.ValueIdx
import Idealize.ShloMosaic.PureOps.Ideal

noncomputable section

namespace Cert.Pieces

open Idealize.ShloMosaic Idealize.ShloMosaic.ValueIdx

/-- The two projection arrays agree below column 5256. -/
abbrev ColsAgree (PK : (⟨3, ![8, 1024, 5376]⟩ : Shape).Idx → EReal) (PR : (⟨3, ![8, 1024, 5256]⟩ : Shape).Idx → EReal) : Prop :=
  ∀ (a : Fin 8) (b : Fin 1024) (c : Fin 5256),
    PK (ix3 a b (⟨c.val, by have := c.isLt; omega⟩ : Fin 5376)) = PR (ix3 a b c)

/-- Equal arrays cast to one shape are equal, pointwise-spelt as a read of the fold leaves it. -/
theorem shapeCast_congr {α : Type} {s t : Shape} (X Y : s.Idx → α) (hXY : X = Y) (h h' : s.ShapeCasts t) :
    (fun i => shapeCast t X h i) = (fun i => shapeCast t Y h' i) := by
  subst hXY; rfl

end Cert.Pieces

end
-- ==== Proof.PAgreeRef.lean ====
/-
  The reference's projection at an entry.

  For head `k`, row `r` and column `n` the reference computes the sum over the 512 coordinates `j` of `W (k, n, j) · h (r, j)`
  (a product contracting the last axes of the weights and of the trunk's output), swaps the last two axes of the result, and
  adds the bias `(k, n)` spread over the rows. Read at `(k, r, n)` after the reference's first 19 operations, from any
  starting contents.
-/
import proofs.«155112_j24970939859619_2_alg».proof.Proof.RefOps
import proofs.«155112_j24970939859619_2_alg».proof.Proof.PiecesBase
import proofs.«155112_j24970939859619_2_alg».proof.Proof.LibFoldEval
import Idealize.ShloMosaic.Lib.Pipeline.Value
import Idealize.ShloMosaic.Lib.ValueIdx
import Idealize.ShloMosaic.Lib.ValueLayout
import Idealize.ShloMosaic.PureOps.Ideal.Laws

set_option maxRecDepth 100000

noncomputable section

namespace Cert.Proof.Agree

open Idealize.ShloMosaic Idealize.ShloMosaic.TcCoe Idealize.SL.Sem Idealize.ShloMosaic.StableHlo Idealize.ShloMosaic.ValueIdx
open Cert.FoldEval Cert.Pieces

/-! ## The reference's projection at an entry -/

section Ref
open Cert.ReferenceIdeal Cert.ReferenceIdeal.Gen

/-- The reference's projection product: weights `[8, 5256, 512]` against trunk output `[1024, 512]`, contracting the last axes. -/
abbrev refDot := dot_S8x5256x512_S1024x512_S8x5256x1024_2_1_01_0_n_n

theorem refDot_l0 (i : S8x5256x1024.Idx) (q : refDot.contr.Idx) : (refDot.lhsIdx i q 0).val = (i 0).val := by
  unfold DotDims.lhsIdx
  rw [dif_neg (show ¬(0 : Fin S8x5256x512.rank) ∈ refDot.lhsBatch by decide), dif_pos (show (0 : Fin S8x5256x512.rank) ∈ refDot.lhsNonContracting by decide)]
  rfl
theorem refDot_l1 (i : S8x5256x1024.Idx) (q : refDot.contr.Idx) : (refDot.lhsIdx i q 1).val = (i 1).val := by
  unfold DotDims.lhsIdx
  rw [dif_neg (show ¬(1 : Fin S8x5256x512.rank) ∈ refDot.lhsBatch by decide), dif_pos (show (1 : Fin S8x5256x512.rank) ∈ refDot.lhsNonContracting by decide)]
  rfl
theorem refDot_l2 (i : S8x5256x1024.Idx) (q : refDot.contr.Idx) : (refDot.lhsIdx i q 2).val = (q ⟨0, by decide⟩).val :=
  refDot.lhsIdx_val_of_single rfl i q
theorem refDot_r0 (i : S8x5256x1024.Idx) (q : refDot.contr.Idx) : (refDot.rhsIdx i q 0).val = (i 2).val := by
  unfold DotDims.rhsIdx
  rw [dif_neg (show ¬(0 : Fin S1024x512.rank) ∈ refDot.rhsBatch by decide), dif_pos (show (0 : Fin S1024x512.rank) ∈ refDot.rhsNonContracting by decide)]
  rfl
theorem refDot_r1 (i : S8x5256x1024.Idx) (q : refDot.contr.Idx) : (refDot.rhsIdx i q 1).val = (q ⟨0, by decide⟩).val :=
  refDot.rhsIdx_val_of_single rfl i q

/-- The product at `(k, n, r)`: the sum over `j` of `W (k, n, j) · h (r, j)`. -/
theorem refDot_apply (W : FVec Ideal S8x5256x512 .f32) (h : FVec Ideal S1024x512 .f32) (k : Fin 8) (n : Fin 5256) (r : Fin 1024) :
    Host.dotGeneral refDot none W h (ix3 k n r) = ∑ j : Fin 512, W (ix3 k n j) * h (ix2 r j) := by
  simp only [Host.dotGeneral]
  rw [Ideal.dotGeneral_apply, ← Equiv.sum_comp (contrEquiv1 refDot 512 rfl rfl).symm]
  refine Finset.sum_congr rfl fun j _ => ?_
  have hj := contrEquiv1_symm_val refDot 512 rfl rfl j
  have el : refDot.lhsIdx (ix3 k n r) ((contrEquiv1 refDot 512 rfl rfl).symm j) = ix3 k n j := funext fun a => Fin.ext (by
    match a with
    | ⟨0, _⟩ => exact refDot_l0 _ _
    | ⟨1, _⟩ => exact refDot_l1 _ _
    | ⟨2, _⟩ => exact (refDot_l2 _ _).trans hj)
  have er : refDot.rhsIdx (ix3 k n r) ((contrEquiv1 refDot 512 rfl rfl).symm j) = ix2 r j := funext fun a => Fin.ext (by
    match a with
    | ⟨0, _⟩ => exact refDot_r0 _ _
    | ⟨1, _⟩ => exact (refDot_r1 _ _).trans hj)
  rw [el, er]

/-- Entry `(k, r, n)` of the reference's projection from its three operands: the sum over `j` of `W (k, n, j) · h (r, j)`, plus
    the bias `(k, n)`. -/
def refProjAt (W : S8x5256x512.Idx → EReal) (h : S1024x512.Idx → EReal) (b : S8x5256.Idx → EReal)
    (k : Fin 8) (r : Fin 1024) (n : Fin 5256) : EReal :=
  (∑ j : Fin 512, W (ix3 k n j) * h (ix2 r j)) + b (ix2 k n)

set_option maxHeartbeats 8000000 in
/-- The reference's projection after its first 19 operations, at `(k, r, n)`, over any starting contents `L`. -/
theorem ref_proj_apply (L : Valuation τ sig (Elt Ideal)) (k : Fin 8) (r : Fin 1024) (n : Fin 5256) :
    (after (List.take 19 (RunP.ops (F := Ideal))) L (Proc.devRef .tc main_v14) : S8x1024x5256.Idx → EReal) (ix3 k r n)
      = refProjAt (L (Proc.devRef .tc main_arg6)) (after (List.take 19 (RunP.ops (F := Ideal))) L (Proc.devRef .tc main_v9))
          (L (Proc.devRef .tc main_arg7)) k r n := by
  simp only [RunP.ops, List.take_succ_cons, List.take_zero]
  fold_eval
  unfold refProjAt
  refine (addf_apply _ _ (ix3 k r n)).trans ?_
  refine congrArg₂ (· + ·) ?_ ?_
  · refine (transpose_ix3_021_apply _ transposes_S8x5256x1024_S8x1024x5256_0_2_1 k r n).trans ?_
    exact refDot_apply _ _ k n r
  · refine (broadcastInDim_apply _ bcast_S8x1x5256_S8x1024x5256_0_1_2 _ (ix3 k r n) (ix3 k (0 : Fin 1) n) (fun a => match a with
      | ⟨0, _⟩ => by show k.val = if (8 : Nat) = 1 then 0 else k.val; rw [if_neg (by decide)]
      | ⟨1, _⟩ => by show 0 = if (1 : Nat) = 1 then 0 else r.val; rw [if_pos rfl]
      | ⟨2, _⟩ => by show n.val = if (5256 : Nat) = 1 then 0 else n.val; rw [if_neg (by decide)])).trans ?_
    exact broadcastInDim_apply _ bcast_S8x5256_S8x1x5256_0_2 _ (ix3 k (0 : Fin 1) n) (ix2 k n) (fun a => match a with
      | ⟨0, _⟩ => by show k.val = if (8 : Nat) = 1 then 0 else k.val; rw [if_neg (by decide)]
      | ⟨1, _⟩ => by show n.val = if (5256 : Nat) = 1 then 0 else n.val; rw [if_neg (by decide)])

end Ref

end Cert.Proof.Agree

end
-- ==== Proof.PAgreeCore.lean ====
/-
  The agreement of the two projections, for abstract operands.

  Let `h`, `W`, `b` be the kernel region's three operands and `W'`, `h'`, `b'` the reference's weights, trunk output and
  bias, all as arrays of extended reals. If below column 5256 `W (k, j, n) = W' (k, n, j)` and `b (k, 0, n) = b' (k, n)`, and
  `h = h'` entry by entry, then `proj h W b` agrees below column 5256 with any array whose entry `(k, r, n)` is the
  reference's `∑ⱼ W' (k, n, j) · h' (r, j) + b' (k, n)`: the sums agree term by term because products of extended reals
  commute. No entry needs to be finite.
-/
import proofs.«155112_j24970939859619_2_alg».proof.Proof.KIProj
import proofs.«155112_j24970939859619_2_alg».proof.Proof.PAgreeRef
import proofs.«155112_j24970939859619_2_alg».proof.Proof.PiecesBase
import Idealize.ShloMosaic.Lib.ValueIdx

noncomputable section

namespace Cert.Proof.Agree

open Idealize.ShloMosaic Idealize.ShloMosaic.ValueIdx Cert.Pieces Cert.KernelIdeal.Hand

theorem cols_of_operands
    (h : Cert.KernelIdeal.S1024x512.Idx → EReal) (W : Cert.KernelIdeal.S8x512x5376.Idx → EReal) (b : Cert.KernelIdeal.S8x1x5376.Idx → EReal)
    (PR : (⟨3, ![8, 1024, 5256]⟩ : Shape).Idx → EReal)
    (W' : Cert.ReferenceIdeal.S8x5256x512.Idx → EReal) (h' : Cert.ReferenceIdeal.S1024x512.Idx → EReal) (b' : Cert.ReferenceIdeal.S8x5256.Idx → EReal)
    (hPR : ∀ (k : Fin 8) (r : Fin 1024) (n : Fin 5256), PR (ix3 k r n) = refProjAt W' h' b' k r n)
    (hW : ∀ (k : Fin 8) (j : Fin 512) (n : Fin 5256), W (ix3 k j (⟨n.val, by have := n.isLt; omega⟩ : Fin 5376)) = W' (ix3 k n j))
    (hb : ∀ (k : Fin 8) (n : Fin 5256), b (ix3 k (0 : Fin 1) (⟨n.val, by have := n.isLt; omega⟩ : Fin 5376)) = b' (ix2 k n))
    (hh : ∀ (r : Fin 1024) (j : Fin 512), h (ix2 r j) = h' (ix2 r j)) :
    ColsAgree (proj h W b) PR := by
  intro k r n
  rw [hPR k r n, proj_apply]
  unfold refProjAt
  rw [hb k n]
  refine congrArg (· + b' (ix2 k n)) (Finset.sum_congr rfl fun j _ => ?_)
  rw [hh r j, hW k j n, mul_comm]

end Cert.Proof.Agree

end
-- ==== Proof.PAgreeTrunk.lean ====
/-
  The two programs' trunks are one function of the arguments.

  Both programs compute the trunk's output by the same host operations: two dense layers, each a product contracting the
  weights' last axes, a bias row added to every row, and the maximum with zero (an inlined call, whose operations carry
  casts between equal types). Each fold is the plainly spelt function of its five argument arrays, the two spellings
  differ only in which program's copies of the shapes and records they name, and the arguments agree.
-/
import proofs.«155112_j24970939859619_2_alg».proof.Proof.KIBase
import proofs.«155112_j24970939859619_2_alg».proof.Proof.RefOps
import proofs.«155112_j24970939859619_2_alg».proof.Proof.PiecesBase
import proofs.«155112_j24970939859619_2_alg».proof.Proof.LibFoldEval
import Idealize.ShloMosaic.Lib.Pipeline.Value
import Idealize.ShloMosaic.Lib.ValueIdx
import Idealize.ShloMosaic.Lib.ValueLayout
import Idealize.ShloMosaic.PureOps.Ideal.Laws

set_option maxRecDepth 100000

noncomputable section

namespace Cert.Proof.Agree

open Idealize.ShloMosaic Idealize.ShloMosaic.TcCoe Idealize.SL.Sem Idealize.ShloMosaic.StableHlo Idealize.ShloMosaic.ValueIdx
open Cert.FoldEval Cert.Pieces

open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! ## The inlined calls' casts

An operation of an inlined call carries its value between "contents of type `T`" and "contents of the buffer's type",
two types that are equal because the buffer's type is `T`. Each such cast moves nothing. -/

theorem toBuf_K_v3 (h1 : Cert.KernelIdeal.main_v3.ty = (⟨Cert.KernelIdeal.S1024x512, .f32⟩ : BufTy)) (h2 : Cert.KernelIdeal.main_v3.space ≠ .host) (h3 : Cert.KernelIdeal.main_v3.isScoped = false) (v : (⟨Cert.KernelIdeal.S1024x512, .f32⟩ : BufTy).Contents (Elt Ideal)) :
    (TRef.of (sig := Cert.KernelIdeal.sig) (T := (⟨Cert.KernelIdeal.S1024x512, .f32⟩ : BufTy)) Cert.KernelIdeal.main_v3 h1 h2 h3).toBuf v = v := rfl
theorem ofBuf_K_v3 (h1 : Cert.KernelIdeal.main_v3.ty = (⟨Cert.KernelIdeal.S1024x512, .f32⟩ : BufTy)) (h2 : Cert.KernelIdeal.main_v3.space ≠ .host) (h3 : Cert.KernelIdeal.main_v3.isScoped = false) (v : Cert.KernelIdeal.main_v3.ty.Contents (Elt Ideal)) :
    (TRef.of (sig := Cert.KernelIdeal.sig) (T := (⟨Cert.KernelIdeal.S1024x512, .f32⟩ : BufTy)) Cert.KernelIdeal.main_v3 h1 h2 h3).ofBuf v = v := rfl
theorem toBuf_K_call0_cst (h1 : Cert.KernelIdeal.main_call0_cst.ty = (⟨Cert.KernelIdeal.S_, .f32⟩ : BufTy)) (h2 : Cert.KernelIdeal.main_call0_cst.space ≠ .host) (h3 : Cert.KernelIdeal.main_call0_cst.isScoped = false) (v : (⟨Cert.KernelIdeal.S_, .f32⟩ : BufTy).Contents (Elt Ideal)) :
    (TRef.of (sig := Cert.KernelIdeal.sig) (T := (⟨Cert.KernelIdeal.S_, .f32⟩ : BufTy)) Cert.KernelIdeal.main_call0_cst h1 h2 h3).toBuf v = v := rfl
theorem ofBuf_K_call0_cst (h1 : Cert.KernelIdeal.main_call0_cst.ty = (⟨Cert.KernelIdeal.S_, .f32⟩ : BufTy)) (h2 : Cert.KernelIdeal.main_call0_cst.space ≠ .host) (h3 : Cert.KernelIdeal.main_call0_cst.isScoped = false) (v : Cert.KernelIdeal.main_call0_cst.ty.Contents (Elt Ideal)) :
    (TRef.of (sig := Cert.KernelIdeal.sig) (T := (⟨Cert.KernelIdeal.S_, .f32⟩ : BufTy)) Cert.KernelIdeal.main_call0_cst h1 h2 h3).ofBuf v = v := rfl
theorem toBuf_K_call0_v0 (h1 : Cert.KernelIdeal.main_call0_v0.ty = (⟨Cert.KernelIdeal.S1024x512, .f32⟩ : BufTy)) (h2 : Cert.KernelIdeal.main_call0_v0.space ≠ .host) (h3 : Cert.KernelIdeal.main_call0_v0.isScoped = false) (v : (⟨Cert.KernelIdeal.S1024x512, .f32⟩ : BufTy).Contents (Elt Ideal)) :
    (TRef.of (sig := Cert.KernelIdeal.sig) (T := (⟨Cert.KernelIdeal.S1024x512, .f32⟩ : BufTy)) Cert.KernelIdeal.main_call0_v0 h1 h2 h3).toBuf v = v := rfl
theorem ofBuf_K_call0_v0 (h1 : Cert.KernelIdeal.main_call0_v0.ty = (⟨Cert.KernelIdeal.S1024x512, .f32⟩ : BufTy)) (h2 : Cert.KernelIdeal.main_call0_v0.space ≠ .host) (h3 : Cert.KernelIdeal.main_call0_v0.isScoped = false) (v : Cert.KernelIdeal.main_call0_v0.ty.Contents (Elt Ideal)) :
    (TRef.of (sig := Cert.KernelIdeal.sig) (T := (⟨Cert.KernelIdeal.S1024x512, .f32⟩ : BufTy)) Cert.KernelIdeal.main_call0_v0 h1 h2 h3).ofBuf v = v := rfl
theorem toBuf_K_v4 (h1 : Cert.KernelIdeal.main_v4.ty = (⟨Cert.KernelIdeal.S1024x512, .f32⟩ : BufTy)) (h2 : Cert.KernelIdeal.main_v4.space ≠ .host) (h3 : Cert.KernelIdeal.main_v4.isScoped = false) (v : (⟨Cert.KernelIdeal.S1024x512, .f32⟩ : BufTy).Contents (Elt Ideal)) :
    (TRef.of (sig := Cert.KernelIdeal.sig) (T := (⟨Cert.KernelIdeal.S1024x512, .f32⟩ : BufTy)) Cert.KernelIdeal.main_v4 h1 h2 h3).toBuf v = v := rfl
theorem ofBuf_K_v4 (h1 : Cert.KernelIdeal.main_v4.ty = (⟨Cert.KernelIdeal.S1024x512, .f32⟩ : BufTy)) (h2 : Cert.KernelIdeal.main_v4.space ≠ .host) (h3 : Cert.KernelIdeal.main_v4.isScoped = false) (v : Cert.KernelIdeal.main_v4.ty.Contents (Elt Ideal)) :
    (TRef.of (sig := Cert.KernelIdeal.sig) (T := (⟨Cert.KernelIdeal.S1024x512, .f32⟩ : BufTy)) Cert.KernelIdeal.main_v4 h1 h2 h3).ofBuf v = v := rfl
theorem toBuf_K_v8 (h1 : Cert.KernelIdeal.main_v8.ty = (⟨Cert.KernelIdeal.S1024x512, .f32⟩ : BufTy)) (h2 : Cert.KernelIdeal.main_v8.space ≠ .host) (h3 : Cert.KernelIdeal.main_v8.isScoped = false) (v : (⟨Cert.KernelIdeal.S1024x512, .f32⟩ : BufTy).Contents (Elt Ideal)) :
    (TRef.of (sig := Cert.KernelIdeal.sig) (T := (⟨Cert.KernelIdeal.S1024x512, .f32⟩ : BufTy)) Cert.KernelIdeal.main_v8 h1 h2 h3).toBuf v = v := rfl
theorem ofBuf_K_v8 (h1 : Cert.KernelIdeal.main_v8.ty = (⟨Cert.KernelIdeal.S1024x512, .f32⟩ : BufTy)) (h2 : Cert.KernelIdeal.main_v8.space ≠ .host) (h3 : Cert.KernelIdeal.main_v8.isScoped = false) (v : Cert.KernelIdeal.main_v8.ty.Contents (Elt Ideal)) :
    (TRef.of (sig := Cert.KernelIdeal.sig) (T := (⟨Cert.KernelIdeal.S1024x512, .f32⟩ : BufTy)) Cert.KernelIdeal.main_v8 h1 h2 h3).ofBuf v = v := rfl
theorem toBuf_K_call1_cst (h1 : Cert.KernelIdeal.main_call1_cst.ty = (⟨Cert.KernelIdeal.S_, .f32⟩ : BufTy)) (h2 : Cert.KernelIdeal.main_call1_cst.space ≠ .host) (h3 : Cert.KernelIdeal.main_call1_cst.isScoped = false) (v : (⟨Cert.KernelIdeal.S_, .f32⟩ : BufTy).Contents (Elt Ideal)) :
    (TRef.of (sig := Cert.KernelIdeal.sig) (T := (⟨Cert.KernelIdeal.S_, .f32⟩ : BufTy)) Cert.KernelIdeal.main_call1_cst h1 h2 h3).toBuf v = v := rfl
theorem ofBuf_K_call1_cst (h1 : Cert.KernelIdeal.main_call1_cst.ty = (⟨Cert.KernelIdeal.S_, .f32⟩ : BufTy)) (h2 : Cert.KernelIdeal.main_call1_cst.space ≠ .host) (h3 : Cert.KernelIdeal.main_call1_cst.isScoped = false) (v : Cert.KernelIdeal.main_call1_cst.ty.Contents (Elt Ideal)) :
    (TRef.of (sig := Cert.KernelIdeal.sig) (T := (⟨Cert.KernelIdeal.S_, .f32⟩ : BufTy)) Cert.KernelIdeal.main_call1_cst h1 h2 h3).ofBuf v = v := rfl
theorem toBuf_K_call1_v0 (h1 : Cert.KernelIdeal.main_call1_v0.ty = (⟨Cert.KernelIdeal.S1024x512, .f32⟩ : BufTy)) (h2 : Cert.KernelIdeal.main_call1_v0.space ≠ .host) (h3 : Cert.KernelIdeal.main_call1_v0.isScoped = false) (v : (⟨Cert.KernelIdeal.S1024x512, .f32⟩ : BufTy).Contents (Elt Ideal)) :
    (TRef.of (sig := Cert.KernelIdeal.sig) (T := (⟨Cert.KernelIdeal.S1024x512, .f32⟩ : BufTy)) Cert.KernelIdeal.main_call1_v0 h1 h2 h3).toBuf v = v := rfl
theorem ofBuf_K_call1_v0 (h1 : Cert.KernelIdeal.main_call1_v0.ty = (⟨Cert.KernelIdeal.S1024x512, .f32⟩ : BufTy)) (h2 : Cert.KernelIdeal.main_call1_v0.space ≠ .host) (h3 : Cert.KernelIdeal.main_call1_v0.isScoped = false) (v : Cert.KernelIdeal.main_call1_v0.ty.Contents (Elt Ideal)) :
    (TRef.of (sig := Cert.KernelIdeal.sig) (T := (⟨Cert.KernelIdeal.S1024x512, .f32⟩ : BufTy)) Cert.KernelIdeal.main_call1_v0 h1 h2 h3).ofBuf v = v := rfl
theorem toBuf_K_v9 (h1 : Cert.KernelIdeal.main_v9.ty = (⟨Cert.KernelIdeal.S1024x512, .f32⟩ : BufTy)) (h2 : Cert.KernelIdeal.main_v9.space ≠ .host) (h3 : Cert.KernelIdeal.main_v9.isScoped = false) (v : (⟨Cert.KernelIdeal.S1024x512, .f32⟩ : BufTy).Contents (Elt Ideal)) :
    (TRef.of (sig := Cert.KernelIdeal.sig) (T := (⟨Cert.KernelIdeal.S1024x512, .f32⟩ : BufTy)) Cert.KernelIdeal.main_v9 h1 h2 h3).toBuf v = v := rfl
theorem ofBuf_K_v9 (h1 : Cert.KernelIdeal.main_v9.ty = (⟨Cert.KernelIdeal.S1024x512, .f32⟩ : BufTy)) (h2 : Cert.KernelIdeal.main_v9.space ≠ .host) (h3 : Cert.KernelIdeal.main_v9.isScoped = false) (v : Cert.KernelIdeal.main_v9.ty.Contents (Elt Ideal)) :
    (TRef.of (sig := Cert.KernelIdeal.sig) (T := (⟨Cert.KernelIdeal.S1024x512, .f32⟩ : BufTy)) Cert.KernelIdeal.main_v9 h1 h2 h3).ofBuf v = v := rfl
theorem toBuf_R_v3 (h1 : Cert.ReferenceIdeal.main_v3.ty = (⟨Cert.ReferenceIdeal.S1024x512, .f32⟩ : BufTy)) (h2 : Cert.ReferenceIdeal.main_v3.space ≠ .host) (h3 : Cert.ReferenceIdeal.main_v3.isScoped = false) (v : (⟨Cert.ReferenceIdeal.S1024x512, .f32⟩ : BufTy).Contents (Elt Ideal)) :
    (TRef.of (sig := Cert.ReferenceIdeal.sig) (T := (⟨Cert.ReferenceIdeal.S1024x512, .f32⟩ : BufTy)) Cert.ReferenceIdeal.main_v3 h1 h2 h3).toBuf v = v := rfl
theorem ofBuf_R_v3 (h1 : Cert.ReferenceIdeal.main_v3.ty = (⟨Cert.ReferenceIdeal.S1024x512, .f32⟩ : BufTy)) (h2 : Cert.ReferenceIdeal.main_v3.space ≠ .host) (h3 : Cert.ReferenceIdeal.main_v3.isScoped = false) (v : Cert.ReferenceIdeal.main_v3.ty.Contents (Elt Ideal)) :
    (TRef.of (sig := Cert.ReferenceIdeal.sig) (T := (⟨Cert.ReferenceIdeal.S1024x512, .f32⟩ : BufTy)) Cert.ReferenceIdeal.main_v3 h1 h2 h3).ofBuf v = v := rfl
theorem toBuf_R_call0_cst (h1 : Cert.ReferenceIdeal.main_call0_cst.ty = (⟨Cert.ReferenceIdeal.S_, .f32⟩ : BufTy)) (h2 : Cert.ReferenceIdeal.main_call0_cst.space ≠ .host) (h3 : Cert.ReferenceIdeal.main_call0_cst.isScoped = false) (v : (⟨Cert.ReferenceIdeal.S_, .f32⟩ : BufTy).Contents (Elt Ideal)) :
    (TRef.of (sig := Cert.ReferenceIdeal.sig) (T := (⟨Cert.ReferenceIdeal.S_, .f32⟩ : BufTy)) Cert.ReferenceIdeal.main_call0_cst h1 h2 h3).toBuf v = v := rfl
theorem ofBuf_R_call0_cst (h1 : Cert.ReferenceIdeal.main_call0_cst.ty = (⟨Cert.ReferenceIdeal.S_, .f32⟩ : BufTy)) (h2 : Cert.ReferenceIdeal.main_call0_cst.space ≠ .host) (h3 : Cert.ReferenceIdeal.main_call0_cst.isScoped = false) (v : Cert.ReferenceIdeal.main_call0_cst.ty.Contents (Elt Ideal)) :
    (TRef.of (sig := Cert.ReferenceIdeal.sig) (T := (⟨Cert.ReferenceIdeal.S_, .f32⟩ : BufTy)) Cert.ReferenceIdeal.main_call0_cst h1 h2 h3).ofBuf v = v := rfl
theorem toBuf_R_call0_v0 (h1 : Cert.ReferenceIdeal.main_call0_v0.ty = (⟨Cert.ReferenceIdeal.S1024x512, .f32⟩ : BufTy)) (h2 : Cert.ReferenceIdeal.main_call0_v0.space ≠ .host) (h3 : Cert.ReferenceIdeal.main_call0_v0.isScoped = false) (v : (⟨Cert.ReferenceIdeal.S1024x512, .f32⟩ : BufTy).Contents (Elt Ideal)) :
    (TRef.of (sig := Cert.ReferenceIdeal.sig) (T := (⟨Cert.ReferenceIdeal.S1024x512, .f32⟩ : BufTy)) Cert.ReferenceIdeal.main_call0_v0 h1 h2 h3).toBuf v = v := rfl
theorem ofBuf_R_call0_v0 (h1 : Cert.ReferenceIdeal.main_call0_v0.ty = (⟨Cert.ReferenceIdeal.S1024x512, .f32⟩ : BufTy)) (h2 : Cert.ReferenceIdeal.main_call0_v0.space ≠ .host) (h3 : Cert.ReferenceIdeal.main_call0_v0.isScoped = false) (v : Cert.ReferenceIdeal.main_call0_v0.ty.Contents (Elt Ideal)) :
    (TRef.of (sig := Cert.ReferenceIdeal.sig) (T := (⟨Cert.ReferenceIdeal.S1024x512, .f32⟩ : BufTy)) Cert.ReferenceIdeal.main_call0_v0 h1 h2 h3).ofBuf v = v := rfl
theorem toBuf_R_v4 (h1 : Cert.ReferenceIdeal.main_v4.ty = (⟨Cert.ReferenceIdeal.S1024x512, .f32⟩ : BufTy)) (h2 : Cert.ReferenceIdeal.main_v4.space ≠ .host) (h3 : Cert.ReferenceIdeal.main_v4.isScoped = false) (v : (⟨Cert.ReferenceIdeal.S1024x512, .f32⟩ : BufTy).Contents (Elt Ideal)) :
    (TRef.of (sig := Cert.ReferenceIdeal.sig) (T := (⟨Cert.ReferenceIdeal.S1024x512, .f32⟩ : BufTy)) Cert.ReferenceIdeal.main_v4 h1 h2 h3).toBuf v = v := rfl
theorem ofBuf_R_v4 (h1 : Cert.ReferenceIdeal.main_v4.ty = (⟨Cert.ReferenceIdeal.S1024x512, .f32⟩ : BufTy)) (h2 : Cert.ReferenceIdeal.main_v4.space ≠ .host) (h3 : Cert.ReferenceIdeal.main_v4.isScoped = false) (v : Cert.ReferenceIdeal.main_v4.ty.Contents (Elt Ideal)) :
    (TRef.of (sig := Cert.ReferenceIdeal.sig) (T := (⟨Cert.ReferenceIdeal.S1024x512, .f32⟩ : BufTy)) Cert.ReferenceIdeal.main_v4 h1 h2 h3).ofBuf v = v := rfl
theorem toBuf_R_v8 (h1 : Cert.ReferenceIdeal.main_v8.ty = (⟨Cert.ReferenceIdeal.S1024x512, .f32⟩ : BufTy)) (h2 : Cert.ReferenceIdeal.main_v8.space ≠ .host) (h3 : Cert.ReferenceIdeal.main_v8.isScoped = false) (v : (⟨Cert.ReferenceIdeal.S1024x512, .f32⟩ : BufTy).Contents (Elt Ideal)) :
    (TRef.of (sig := Cert.ReferenceIdeal.sig) (T := (⟨Cert.ReferenceIdeal.S1024x512, .f32⟩ : BufTy)) Cert.ReferenceIdeal.main_v8 h1 h2 h3).toBuf v = v := rfl
theorem ofBuf_R_v8 (h1 : Cert.ReferenceIdeal.main_v8.ty = (⟨Cert.ReferenceIdeal.S1024x512, .f32⟩ : BufTy)) (h2 : Cert.ReferenceIdeal.main_v8.space ≠ .host) (h3 : Cert.ReferenceIdeal.main_v8.isScoped = false) (v : Cert.ReferenceIdeal.main_v8.ty.Contents (Elt Ideal)) :
    (TRef.of (sig := Cert.ReferenceIdeal.sig) (T := (⟨Cert.ReferenceIdeal.S1024x512, .f32⟩ : BufTy)) Cert.ReferenceIdeal.main_v8 h1 h2 h3).ofBuf v = v := rfl
theorem toBuf_R_call1_cst (h1 : Cert.ReferenceIdeal.main_call1_cst.ty = (⟨Cert.ReferenceIdeal.S_, .f32⟩ : BufTy)) (h2 : Cert.ReferenceIdeal.main_call1_cst.space ≠ .host) (h3 : Cert.ReferenceIdeal.main_call1_cst.isScoped = false) (v : (⟨Cert.ReferenceIdeal.S_, .f32⟩ : BufTy).Contents (Elt Ideal)) :
    (TRef.of (sig := Cert.ReferenceIdeal.sig) (T := (⟨Cert.ReferenceIdeal.S_, .f32⟩ : BufTy)) Cert.ReferenceIdeal.main_call1_cst h1 h2 h3).toBuf v = v := rfl
theorem ofBuf_R_call1_cst (h1 : Cert.ReferenceIdeal.main_call1_cst.ty = (⟨Cert.ReferenceIdeal.S_, .f32⟩ : BufTy)) (h2 : Cert.ReferenceIdeal.main_call1_cst.space ≠ .host) (h3 : Cert.ReferenceIdeal.main_call1_cst.isScoped = false) (v : Cert.ReferenceIdeal.main_call1_cst.ty.Contents (Elt Ideal)) :
    (TRef.of (sig := Cert.ReferenceIdeal.sig) (T := (⟨Cert.ReferenceIdeal.S_, .f32⟩ : BufTy)) Cert.ReferenceIdeal.main_call1_cst h1 h2 h3).ofBuf v = v := rfl
theorem toBuf_R_call1_v0 (h1 : Cert.ReferenceIdeal.main_call1_v0.ty = (⟨Cert.ReferenceIdeal.S1024x512, .f32⟩ : BufTy)) (h2 : Cert.ReferenceIdeal.main_call1_v0.space ≠ .host) (h3 : Cert.ReferenceIdeal.main_call1_v0.isScoped = false) (v : (⟨Cert.ReferenceIdeal.S1024x512, .f32⟩ : BufTy).Contents (Elt Ideal)) :
    (TRef.of (sig := Cert.ReferenceIdeal.sig) (T := (⟨Cert.ReferenceIdeal.S1024x512, .f32⟩ : BufTy)) Cert.ReferenceIdeal.main_call1_v0 h1 h2 h3).toBuf v = v := rfl
theorem ofBuf_R_call1_v0 (h1 : Cert.ReferenceIdeal.main_call1_v0.ty = (⟨Cert.ReferenceIdeal.S1024x512, .f32⟩ : BufTy)) (h2 : Cert.ReferenceIdeal.main_call1_v0.space ≠ .host) (h3 : Cert.ReferenceIdeal.main_call1_v0.isScoped = false) (v : Cert.ReferenceIdeal.main_call1_v0.ty.Contents (Elt Ideal)) :
    (TRef.of (sig := Cert.ReferenceIdeal.sig) (T := (⟨Cert.ReferenceIdeal.S1024x512, .f32⟩ : BufTy)) Cert.ReferenceIdeal.main_call1_v0 h1 h2 h3).ofBuf v = v := rfl
theorem toBuf_R_v9 (h1 : Cert.ReferenceIdeal.main_v9.ty = (⟨Cert.ReferenceIdeal.S1024x512, .f32⟩ : BufTy)) (h2 : Cert.ReferenceIdeal.main_v9.space ≠ .host) (h3 : Cert.ReferenceIdeal.main_v9.isScoped = false) (v : (⟨Cert.ReferenceIdeal.S1024x512, .f32⟩ : BufTy).Contents (Elt Ideal)) :
    (TRef.of (sig := Cert.ReferenceIdeal.sig) (T := (⟨Cert.ReferenceIdeal.S1024x512, .f32⟩ : BufTy)) Cert.ReferenceIdeal.main_v9 h1 h2 h3).toBuf v = v := rfl
theorem ofBuf_R_v9 (h1 : Cert.ReferenceIdeal.main_v9.ty = (⟨Cert.ReferenceIdeal.S1024x512, .f32⟩ : BufTy)) (h2 : Cert.ReferenceIdeal.main_v9.space ≠ .host) (h3 : Cert.ReferenceIdeal.main_v9.isScoped = false) (v : Cert.ReferenceIdeal.main_v9.ty.Contents (Elt Ideal)) :
    (TRef.of (sig := Cert.ReferenceIdeal.sig) (T := (⟨Cert.ReferenceIdeal.S1024x512, .f32⟩ : BufTy)) Cert.ReferenceIdeal.main_v9 h1 h2 h3).ofBuf v = v := rfl

/-- The trunk in `ReferenceIdeal`'s spelling: two dense layers, each a product with the weights' last axes contracted, a bias row added to
    every row, and the maximum with zero. -/
def trunkR (a0 : FVec Ideal Cert.ReferenceIdeal.S1024x64 .f32) (a2 : FVec Ideal Cert.ReferenceIdeal.S512x64 .f32) (a3 : FVec Ideal Cert.ReferenceIdeal.S512 .f32)
    (a4 : FVec Ideal Cert.ReferenceIdeal.S512x512 .f32) (a5 : FVec Ideal Cert.ReferenceIdeal.S512 .f32) : FVec Ideal Cert.ReferenceIdeal.S1024x512 .f32 :=
  maximumf
    (addf
      (Host.dotGeneral Cert.ReferenceIdeal.dot_S1024x512_S512x512_S1024x512_1_1_0_0_n_n none
        (maximumf
          (addf (Host.dotGeneral Cert.ReferenceIdeal.dot_S1024x64_S512x64_S1024x512_1_1_0_0_n_n none a0 a2)
            (broadcastInDim Cert.ReferenceIdeal.S1024x512 ![0, 1] Cert.ReferenceIdeal.Gen.bcast_S1x512_S1024x512_0_1
              (broadcastInDim Cert.ReferenceIdeal.S1x512 ![1] Cert.ReferenceIdeal.Gen.bcast_S512_S1x512_1 a3)))
          (broadcastInDim Cert.ReferenceIdeal.S1024x512 ![] Cert.ReferenceIdeal.Gen.bcast_S_S1024x512 (constant (F := Ideal) Cert.ReferenceIdeal.S_ .f32 0x00000000#32)))
        a4)
      (broadcastInDim Cert.ReferenceIdeal.S1024x512 ![0, 1] Cert.ReferenceIdeal.Gen.bcast_S1x512_S1024x512_0_1
        (broadcastInDim Cert.ReferenceIdeal.S1x512 ![1] Cert.ReferenceIdeal.Gen.bcast_S512_S1x512_1 a5)))
    (broadcastInDim Cert.ReferenceIdeal.S1024x512 ![] Cert.ReferenceIdeal.Gen.bcast_S_S1024x512 (constant (F := Ideal) Cert.ReferenceIdeal.S_ .f32 0x00000000#32))

/-- The trunk in `KernelIdeal`'s spelling: two dense layers, each a product with the weights' last axes contracted, a bias row added to
    every row, and the maximum with zero. -/
def trunkK (a0 : FVec Ideal Cert.KernelIdeal.S1024x64 .f32) (a2 : FVec Ideal Cert.KernelIdeal.S512x64 .f32) (a3 : FVec Ideal Cert.KernelIdeal.S512 .f32)
    (a4 : FVec Ideal Cert.KernelIdeal.S512x512 .f32) (a5 : FVec Ideal Cert.KernelIdeal.S512 .f32) : FVec Ideal Cert.KernelIdeal.S1024x512 .f32 :=
  maximumf
    (addf
      (Host.dotGeneral Cert.KernelIdeal.dot_S1024x512_S512x512_S1024x512_1_1_0_0_n_n none
        (maximumf
          (addf (Host.dotGeneral Cert.KernelIdeal.dot_S1024x64_S512x64_S1024x512_1_1_0_0_n_n none a0 a2)
            (broadcastInDim Cert.KernelIdeal.S1024x512 ![0, 1] Cert.KernelIdeal.Gen.bcast_S1x512_S1024x512_0_1
              (broadcastInDim Cert.KernelIdeal.S1x512 ![1] Cert.KernelIdeal.Gen.bcast_S512_S1x512_1 a3)))
          (broadcastInDim Cert.KernelIdeal.S1024x512 ![] Cert.KernelIdeal.Gen.bcast_S_S1024x512 (constant (F := Ideal) Cert.KernelIdeal.S_ .f32 0x00000000#32)))
        a4)
      (broadcastInDim Cert.KernelIdeal.S1024x512 ![0, 1] Cert.KernelIdeal.Gen.bcast_S1x512_S1024x512_0_1
        (broadcastInDim Cert.KernelIdeal.S1x512 ![1] Cert.KernelIdeal.Gen.bcast_S512_S1x512_1 a5)))
    (broadcastInDim Cert.KernelIdeal.S1024x512 ![] Cert.KernelIdeal.Gen.bcast_S_S1024x512 (constant (F := Ideal) Cert.KernelIdeal.S_ .f32 0x00000000#32))

/-- The two spellings are one function. -/
theorem trunkR_eq_trunkK (a0 : FVec Ideal Cert.KernelIdeal.S1024x64 .f32) (a2 : FVec Ideal Cert.KernelIdeal.S512x64 .f32)
    (a3 : FVec Ideal Cert.KernelIdeal.S512 .f32) (a4 : FVec Ideal Cert.KernelIdeal.S512x512 .f32) (a5 : FVec Ideal Cert.KernelIdeal.S512 .f32) :
    trunkR a0 a2 a3 a4 a5 = trunkK a0 a2 a3 a4 a5 := rfl

set_option maxHeartbeats 8000000 in
/-- The reference's trunk output after its first 19 operations is `trunkR` of the launch contents. -/
theorem ref_trunk (L : Valuation Cert.ReferenceIdeal.τ Cert.ReferenceIdeal.sig (Elt Ideal)) :
    after (List.take 19 (Cert.ReferenceIdeal.RunP.ops (F := Ideal))) L (Proc.devRef .tc Cert.ReferenceIdeal.main_v9)
      = trunkR (L (Proc.devRef .tc Cert.ReferenceIdeal.main_arg0)) (L (Proc.devRef .tc Cert.ReferenceIdeal.main_arg2))
          (L (Proc.devRef .tc Cert.ReferenceIdeal.main_arg3)) (L (Proc.devRef .tc Cert.ReferenceIdeal.main_arg4))
          (L (Proc.devRef .tc Cert.ReferenceIdeal.main_arg5)) := by
  simp only [Cert.ReferenceIdeal.RunP.ops, List.take_succ_cons, List.take_zero]
  fold_eval
  simp only [toBuf_R_v3, ofBuf_R_v3, toBuf_R_call0_cst, ofBuf_R_call0_cst, toBuf_R_call0_v0, ofBuf_R_call0_v0, toBuf_R_v4, ofBuf_R_v4, toBuf_R_v8, ofBuf_R_v8, toBuf_R_call1_cst, ofBuf_R_call1_cst, toBuf_R_call1_v0, ofBuf_R_call1_v0, toBuf_R_v9, ofBuf_R_v9]
  rfl

set_option maxHeartbeats 8000000 in
/-- The kernel program's trunk output, as the region finds it, is `trunkK` of the launch contents. -/
theorem ker_trunk (c : Dev Cert.KernelIdeal.nD) :
    V m c Cert.KernelIdeal.main_v9
      = trunkK (m (c, Proc.devRef .tc Cert.KernelIdeal.main_arg0)) (m (c, Proc.devRef .tc Cert.KernelIdeal.main_arg2))
          (m (c, Proc.devRef .tc Cert.KernelIdeal.main_arg3)) (m (c, Proc.devRef .tc Cert.KernelIdeal.main_arg4))
          (m (c, Proc.devRef .tc Cert.KernelIdeal.main_arg5)) := by
  show after (List.flatten (headOps (F := Ideal))) (fun b => m (c, b)) (Proc.devRef .tc Cert.KernelIdeal.main_v9) = _
  simp only [headOps, Cert.KernelIdeal.Gen.hostOps0,
    Cert.KernelIdeal.Gen.hostOps0_1, Cert.KernelIdeal.Gen.hostOps0_2, Cert.KernelIdeal.Gen.hostOps0_3, Cert.KernelIdeal.Gen.hostOps0_4,
    Cert.KernelIdeal.Gen.hostOps0_5, Cert.KernelIdeal.Gen.hostOps0_6, Cert.KernelIdeal.Gen.hostOps0_7, Cert.KernelIdeal.Gen.hostOps0_8,
    List.flatten_cons, List.flatten_nil, List.append_nil, List.cons_append, List.nil_append]
  fold_eval
  simp only [toBuf_K_v3, ofBuf_K_v3, toBuf_K_call0_cst, ofBuf_K_call0_cst, toBuf_K_call0_v0, ofBuf_K_call0_v0, toBuf_K_v4, ofBuf_K_v4, toBuf_K_v8, ofBuf_K_v8, toBuf_K_call1_cst, ofBuf_K_call1_cst, toBuf_K_call1_v0, ofBuf_K_call1_v0, toBuf_K_v9, ofBuf_K_v9]
  rfl

/-- The trunk's output: the same two dense layers of the same arguments in both programs. -/
theorem trunk_agree (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (List.take 19 (Cert.ReferenceIdeal.RunP.ops (F := Ideal))) (launchContents m' c) (Proc.devRef .tc Cert.ReferenceIdeal.main_v9)
      = V m c Cert.KernelIdeal.main_v9 := by
  refine (ref_trunk (launchContents m' c)).trans ?_
  refine Eq.trans ?_ (ker_trunk m c).symm
  have h0 : launchContents m' c (Proc.devRef .tc Cert.ReferenceIdeal.main_arg0) = m (c, Proc.devRef .tc Cert.KernelIdeal.main_arg0) := e0
  have h2 : launchContents m' c (Proc.devRef .tc Cert.ReferenceIdeal.main_arg2) = m (c, Proc.devRef .tc Cert.KernelIdeal.main_arg2) := e2
  have h3 : launchContents m' c (Proc.devRef .tc Cert.ReferenceIdeal.main_arg3) = m (c, Proc.devRef .tc Cert.KernelIdeal.main_arg3) := e3
  have h4 : launchContents m' c (Proc.devRef .tc Cert.ReferenceIdeal.main_arg4) = m (c, Proc.devRef .tc Cert.KernelIdeal.main_arg4) := e4
  have h5 : launchContents m' c (Proc.devRef .tc Cert.ReferenceIdeal.main_arg5) = m (c, Proc.devRef .tc Cert.KernelIdeal.main_arg5) := e5
  rw [h0, h2, h3, h4, h5]
  exact trunkR_eq_trunkK _ _ _ _ _

end Cert.Proof.Agree

end
-- ==== Proof.LibPadCols.lean ====
/-
  Slices of a stack of matrices that do not see its padding.

  Let `PK` be a stack of `g` matrices with `r` rows and `n'` columns and `PR` one with `n ≤ n'` columns, and let them agree
  on the first `n` columns. Take member `k` of each stack (a slice of one member, cast to a matrix) and cut it to the
  columns `o … o + w − 1`, where `o + w ≤ n`: the two results are the same `r × w` matrix, because every entry read lies in
  a column below `n`. A change of float format in between is the identity on the extended reals.
-/
import Idealize.ShloMosaic.Lib.Pipeline.Value
import Idealize.ShloMosaic.Lib.ValueIdx
import Idealize.ShloMosaic.Lib.ValueLayout
import Idealize.ShloMosaic.PureOps.Ideal

noncomputable section

namespace Cert.PadCols

open Idealize.ShloMosaic Idealize.ShloMosaic.ValueIdx

variable {α : Type}

/-- Member `k` of a stack `[g, r, n]`, as an `r × n` matrix, cut to columns `o … o + w − 1`, at `(b, c)`: the stack's entry
    `(k, b, o + c)`. -/
theorem member_cols_apply {g r n w : ℕ} (k o : ℕ) (hk : k < g) (how : o + w ≤ n)
    (P : (⟨3, ![g, r, n]⟩ : Shape).Idx → α)
    (h1 : (⟨3, ![g, r, n]⟩ : Shape).Slices ![k, 0, 0] ⟨3, ![1, r, n]⟩)
    (h2 : (⟨3, ![1, r, n]⟩ : Shape).ShapeCasts ⟨2, ![r, n]⟩)
    (h3 : (⟨2, ![r, n]⟩ : Shape).Slices ![0, o] ⟨2, ![r, w]⟩) (b : Fin r) (c : Fin w) :
    extractStridedSlice ⟨2, ![r, w]⟩ ![0, o]
        (shapeCast ⟨2, ![r, n]⟩ (extractStridedSlice ⟨3, ![1, r, n]⟩ ![k, 0, 0] P h1) h2) h3 (ix2 b c)
      = P (ix3 (⟨k, hk⟩ : Fin g) b (⟨o + c.val, by have := c.isLt; omega⟩ : Fin n)) := by
  refine (extractStridedSlice_apply ![0, o] _ h3 (ix2 b c) (ix2 b (⟨o + c.val, by have := c.isLt; omega⟩ : Fin n))
    (fun a => match a with
      | ⟨0, _⟩ => by show b.val = 0 + b.val; omega
      | ⟨1, _⟩ => rfl)).trans ?_
  refine (shapeCast_1ab_ab_apply _ h2 b _).trans ?_
  exact extractStridedSlice_apply ![k, 0, 0] P h1 (ix3 (0 : Fin 1) b _) (ix3 (⟨k, hk⟩ : Fin g) b _)
    (fun a => match a with
      | ⟨0, _⟩ => rfl
      | ⟨1, _⟩ => by show b.val = 0 + b.val; omega
      | ⟨2, _⟩ => by show o + c.val = 0 + (o + c.val); omega)

/-- The two cuts agree when the stacks agree below column `n`. -/
theorem member_cols_agree {g r n n' w : ℕ} (k o : ℕ) (hk : k < g) (how : o + w ≤ n) (hnn : n ≤ n')
    (PK : (⟨3, ![g, r, n']⟩ : Shape).Idx → α) (PR : (⟨3, ![g, r, n]⟩ : Shape).Idx → α)
    (hP : ∀ (a : Fin g) (b : Fin r) (c : Fin n), PK (ix3 a b (⟨c.val, by have := c.isLt; omega⟩ : Fin n')) = PR (ix3 a b c))
    (h1 : (⟨3, ![g, r, n']⟩ : Shape).Slices ![k, 0, 0] ⟨3, ![1, r, n']⟩)
    (h2 : (⟨3, ![1, r, n']⟩ : Shape).ShapeCasts ⟨2, ![r, n']⟩)
    (h3 : (⟨2, ![r, n']⟩ : Shape).Slices ![0, o] ⟨2, ![r, w]⟩)
    (h1' : (⟨3, ![g, r, n]⟩ : Shape).Slices ![k, 0, 0] ⟨3, ![1, r, n]⟩)
    (h2' : (⟨3, ![1, r, n]⟩ : Shape).ShapeCasts ⟨2, ![r, n]⟩)
    (h3' : (⟨2, ![r, n]⟩ : Shape).Slices ![0, o] ⟨2, ![r, w]⟩) :
    extractStridedSlice ⟨2, ![r, w]⟩ ![0, o]
        (shapeCast ⟨2, ![r, n']⟩ (extractStridedSlice ⟨3, ![1, r, n']⟩ ![k, 0, 0] PK h1) h2) h3
      = extractStridedSlice ⟨2, ![r, w]⟩ ![0, o]
        (shapeCast ⟨2, ![r, n]⟩ (extractStridedSlice ⟨3, ![1, r, n]⟩ ![k, 0, 0] PR h1') h2') h3' := by
  funext j
  obtain ⟨b, c, rfl⟩ : ∃ (b : Fin r) (c : Fin w), j = ix2 b c := ⟨j 0, j 1, eq_ix2 j⟩
  rw [member_cols_apply k o hk (by omega) PK h1 h2 h3 b c, member_cols_apply k o hk how PR h1' h2' h3' b c]
  exact hP ⟨k, hk⟩ b ⟨o + c.val, by have := c.isLt; omega⟩

/-- Widening a float format is the identity on arrays of extended reals. -/
theorem extf_eq {s : Shape} {φ ψ : FTy} (a : FVec Ideal s φ) (h : φ.bits < ψ.bits) :
    (extf ψ a h : FVec Ideal s ψ) = a := rfl

end Cert.PadCols

end
-- ==== Proof.LibFoldCut.lean ====
/-
  Cutting a fold of host operations.

  The contents of the buffers after a straight line of host operations is a fold over the line. A fold over a
  concatenation is the fold over the second part started from the fold over the first; and every list is its first
  `n` entries followed by the rest. So the contents after a long line can be read one stretch at a time, each stretch
  from an opaque starting valuation.
-/
import Idealize.ShloMosaic.Lib.StableHlo.Run

namespace Cert.FoldCut

open Idealize.ShloMosaic Idealize.ShloMosaic.StableHlo

variable {τ : Topo} {sig : RefSig} {Val : EltTy → Type}

/-- The fold over `l1 ++ l2` is the fold over `l2` from the fold over `l1`. -/
theorem after_append (l1 l2 : List (HloOp τ sig Val)) (V : Valuation τ sig Val) :
    after (l1 ++ l2) V = after l2 (after l1 V) := by
  induction l1 generalizing V with
  | nil => rfl
  | cons op l1 ih => exact ih _

/-- The fold over a line, cut after its first `n` operations. -/
theorem after_cut (n : Nat) (l : List (HloOp τ sig Val)) (V : Valuation τ sig Val) :
    after l V = after (l.drop n) (after (l.take n) V) := by
  rw [← after_append, List.take_append_drop]

/-- One step of reading a line stretch by stretch: what is left after the first `n` operations is its next `k` operations
    followed by what is left after `n + k`. -/
theorem after_take_drop (n k s : Nat) (hs : n + k = s) (l : List (HloOp τ sig Val)) (V : Valuation τ sig Val) :
    after (l.drop n) V = after (l.drop s) (after ((l.drop n).take k) V) := by
  subst hs
  rw [after_cut k (l.drop n) V, List.drop_drop]

end Cert.FoldCut
-- ==== Proof.RefKeeps.lean ====
/-
  The reference's line leaves its arguments alone.

  Each of the reference's 347 host operations writes exactly one buffer, and that buffer is numbered 9 or higher: none of
  the nine arguments (0–8). So the fold of the line over any contents holds, at an argument, what it started with.
-/
import proofs.«155112_j24970939859619_2_alg».proof.Proof.RefOps
import Idealize.ShloMosaic.Lib.StableHlo.Run

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Each operation writes exactly one buffer, numbered 9 or more. -/
theorem ops_writes : (ops : List (HloOp τ sig (Elt F))).Forall fun op =>
    ∃ r : Ref sig .tc, op.writes = {Proc.devRef .tc r} ∧ decide (9 ≤ r.idx.val) = true := by
  simp only [List.Forall]; repeat' constructor

/-- So an argument is written by none of them. -/
theorem ops_keep (b : Ref sig .tc) (hb : decide (b.idx.val < 9) = true) :
    ∀ op ∈ (ops : List (HloOp τ sig (Elt F))), Proc.devRef .tc b ∉ op.writes := by
  intro op hop
  obtain ⟨r, hw, hr⟩ := (List.forall_iff_forall_mem.mp (ops_writes (F := F))) op hop
  rw [hw, Finset.mem_singleton]
  refine devRef_ne_of_ne (fun e => ?_)
  subst e
  have h1 := of_decide_eq_true hb
  have h2 := of_decide_eq_true hr
  omega

/-- The fold of the whole line holds an argument's starting contents at that argument. -/
theorem arg_kept (V : Valuation τ sig (Elt F)) (b : Ref sig .tc) (hb : decide (b.idx.val < 9) = true) :
    after (ops (F := F)) V (Proc.devRef .tc b) = V (Proc.devRef .tc b) :=
  after_of_forall_not_mem (b := Proc.devRef .tc b) _ _ (ops_keep b hb)

end Cert.ReferenceIdeal.RunP

end
-- ==== Proof.Assemble.lean ====
/-
  The two idealized programs end with equal results.

  The kernel's program: its run leaves every buffer outside the region's arrays at what the 336 later operations compute
  from the valuation `WK` — the region-entry contents with the region's result array put in. There the result array is
  `proj` of the region's operands, the second argument is as launched, and so is the mask table. The reference: its run
  leaves every buffer at the fold of its 347 operations over the launch contents; after the first 19 of them (the trunk
  and the projection) the valuation is `WR`. On columns below 5256 `proj` of the kernel's operands is the reference's
  projection, so `WK` and `WR` agree on what the later operations read, and stretch by stretch the two lines then agree
  on their two results.
-/
import proofs.«155112_j24970939859619_2_alg».proof.Defs
import proofs.«155112_j24970939859619_2_alg».proof.Proof.Gen.Pre_finite_inputs
import proofs.«155112_j24970939859619_2_alg».proof.Proof.KIRun
import proofs.«155112_j24970939859619_2_alg».proof.Proof.KIValue
import proofs.«155112_j24970939859619_2_alg».proof.Proof.KIHead
import proofs.«155112_j24970939859619_2_alg».proof.Proof.PAgreeCore
import proofs.«155112_j24970939859619_2_alg».proof.Proof.PAgreeRef
import proofs.«155112_j24970939859619_2_alg».proof.Proof.PAgreeTrunk
import proofs.«155112_j24970939859619_2_alg».proof.Proof.PiecesChain
import proofs.«155112_j24970939859619_2_alg».proof.Proof.RefRun
import proofs.«155112_j24970939859619_2_alg».proof.Proof.RefKeeps
import proofs.«155112_j24970939859619_2_alg».proof.Proof.LibFoldCut

set_option maxRecDepth 100000

noncomputable section

namespace Cert.Proof.Assemble

open Idealize.ShloMosaic Idealize.ShloMosaic.TcCoe Idealize.SL.Sem Idealize.ShloMosaic.StableHlo Idealize.ShloMosaic.ValueIdx
open Cert.KernelIdeal.Hand Cert.Pieces Cert.FoldCut Cert.FoldEval

section
open Cert.KernelIdeal Cert.KernelIdeal.Gen
variable (m : (ℓ : Loc nD τ sig) → Buf (Elt Ideal) ℓ)

/-- What the kernel's later operations start from: the region-entry contents with the region's arrays as the run leaves them. -/
abbrev WK (c : Dev nD) : Valuation τ sig (Elt Ideal) :=
  Pipeline.withArrays spec0 c (V0 m c) fun w => (dats m 0 c).arrAt w cfg0.N

/-- A buffer after the kernel's run, outside the region's arrays: the fold of the later operations from `WK`. -/
theorem tailK (c : Dev nD) (b : Ref sig .tc) :
    Pipeline.afterTail₀ cfgs (dats m) 0 (V0 m) [hostOps1] c b = after (hostOps1 (F := Ideal)) (WK m c) (Proc.devRef .tc b) := by
  unfold Pipeline.afterTail₀
  simp only [List.flatten_cons, List.flatten_nil, List.append_nil] <;> rfl

/-- The region's result array, as the later operations find it. -/
theorem WK_v16 (c : Dev nD) : WK m c (Proc.devRef .tc main_v16) = proj (V m c main_v15) (V m c main_v12) (V m c main_v14) :=
  (Pipeline.withArrays_arr spec0 launch0.win.arr_inj c _ _ 3).trans (final m c)

/-- An argument, as the later operations find it: as launched. -/
theorem WK_arg (c : Dev nD) (b : Ref sig .tc) (hb : decide (b.idx.val < 9) = true) (hne : ∀ w, Pipeline.arrRef spec0 w ≠ b) :
    WK m c (Proc.devRef .tc b) = m ((c : Thread nD τ).loc b) :=
  (Pipeline.withArrays_of_ne _ c (V0 m c) _ b hne).trans (head_keeps m c b hb)
end

section
open Cert.ReferenceIdeal Cert.ReferenceIdeal.Gen
variable (m' : (ℓ : Loc nD τ sig) → Buf (Elt Ideal) ℓ)

/-- What the reference's later operations start from: the launch contents after its first 19 operations. -/
abbrev WR (c : Dev nD) : Valuation τ sig (Elt Ideal) := after (List.take 19 (RunP.ops (F := Ideal))) (launchContents m' c)

/-- The reference's whole line, cut after the projection. -/
theorem tailR (c : Dev nD) (b : Ref sig .tc) :
    after (RunP.ops (F := Ideal)) (launchContents m' c) (Proc.devRef .tc b)
      = after (List.drop 19 (RunP.ops (F := Ideal))) (WR m' c) (Proc.devRef .tc b) := by
  rw [after_cut 19 (RunP.ops (F := Ideal))]

set_option maxHeartbeats 4000000 in
/-- The first 19 operations write neither the second argument nor the mask table. -/
theorem WR_arg1 (c : Dev nD) : WR m' c (Proc.devRef .tc main_arg1) = m' ((c.tc : Thread nD τ).loc main_arg1) := by
  show after (List.take 19 (RunP.ops (F := Ideal))) (launchContents m' c) (Proc.devRef .tc main_arg1) = _
  simp only [RunP.ops, List.take_succ_cons, List.take_zero]
  fold_eval <;> rfl
set_option maxHeartbeats 4000000 in
theorem WR_arg8 (c : Dev nD) : WR m' c (Proc.devRef .tc main_arg8) = m' ((c.tc : Thread nD τ).loc main_arg8) := by
  show after (List.take 19 (RunP.ops (F := Ideal))) (launchContents m' c) (Proc.devRef .tc main_arg8) = _
  simp only [RunP.ops, List.take_succ_cons, List.take_zero]
  fold_eval <;> rfl
end

/-- At the ideal instance the kernel's program and the reference, from memories agreeing on the arguments, both run and
    end with equal results and unchanged arguments. -/
theorem algebraic : Cert.algebraic_KernelIdeal_ReferenceIdeal := by
  intro m ρ m' ρ' _ hagree
  refine ⟨fun c => Pipeline.afterTail₀ Cert.KernelIdeal.cfgs (dats m) 0 (V0 m) [Cert.KernelIdeal.Gen.hostOps1] c Cert.KernelIdeal.main_v318,
    fun c => Pipeline.afterTail₀ Cert.KernelIdeal.cfgs (dats m) 0 (V0 m) [Cert.KernelIdeal.Gen.hostOps1] c Cert.KernelIdeal.main_v335, ?_, ?_⟩
  · exact (θ_run Cert.KernelIdeal.defs _ _).mono (fun _ h c =>
      ⟨((h c).2 Cert.KernelIdeal.main_v318 (Pipeline.mem_restRefs_of Cert.KernelIdeal.main_v318 (by decide) (by decide))), ((h c).2 Cert.KernelIdeal.main_v335 (Pipeline.mem_restRefs_of Cert.KernelIdeal.main_v335 (by decide) (by decide))),
       ((h c).2 Cert.KernelIdeal.main_arg0 (Pipeline.mem_restRefs_of Cert.KernelIdeal.main_arg0 (by decide) (by decide))).trans (arg_kept m (dats m) c Cert.KernelIdeal.main_arg0 (by decide) (by decide)),
       ((h c).2 Cert.KernelIdeal.main_arg1 (Pipeline.mem_restRefs_of Cert.KernelIdeal.main_arg1 (by decide) (by decide))).trans (arg_kept m (dats m) c Cert.KernelIdeal.main_arg1 (by decide) (by decide)),
       ((h c).2 Cert.KernelIdeal.main_arg2 (Pipeline.mem_restRefs_of Cert.KernelIdeal.main_arg2 (by decide) (by decide))).trans (arg_kept m (dats m) c Cert.KernelIdeal.main_arg2 (by decide) (by decide)),
       ((h c).2 Cert.KernelIdeal.main_arg3 (Pipeline.mem_restRefs_of Cert.KernelIdeal.main_arg3 (by decide) (by decide))).trans (arg_kept m (dats m) c Cert.KernelIdeal.main_arg3 (by decide) (by decide)),
       ((h c).2 Cert.KernelIdeal.main_arg4 (Pipeline.mem_restRefs_of Cert.KernelIdeal.main_arg4 (by decide) (by decide))).trans (arg_kept m (dats m) c Cert.KernelIdeal.main_arg4 (by decide) (by decide)),
       ((h c).2 Cert.KernelIdeal.main_arg5 (Pipeline.mem_restRefs_of Cert.KernelIdeal.main_arg5 (by decide) (by decide))).trans (arg_kept m (dats m) c Cert.KernelIdeal.main_arg5 (by decide) (by decide)),
       ((h c).2 Cert.KernelIdeal.main_arg6 (Pipeline.mem_restRefs_of Cert.KernelIdeal.main_arg6 (by decide) (by decide))).trans (arg_kept m (dats m) c Cert.KernelIdeal.main_arg6 (by decide) (by decide)),
       ((h c).2 Cert.KernelIdeal.main_arg7 (Pipeline.mem_restRefs_of Cert.KernelIdeal.main_arg7 (by decide) (by decide))).trans (arg_kept m (dats m) c Cert.KernelIdeal.main_arg7 (by decide) (by decide)),
       ((h c).2 Cert.KernelIdeal.main_arg8 (Pipeline.mem_restRefs_of Cert.KernelIdeal.main_arg8 (by decide) (by decide))).trans (arg_kept m (dats m) c Cert.KernelIdeal.main_arg8 (by decide) (by decide))⟩)
      (run_main m ρ)
  · refine (θ_run Cert.ReferenceIdeal.defs _ _).mono (fun _ h c => ?_) (Cert.ReferenceIdeal.RunP.run (F := Ideal) m' ρ')
    obtain ⟨e0, e1, e2, e3, e4, e5, e6, e7, e8⟩ := hagree c
    have h1 : WK m c (Proc.devRef .tc Cert.KernelIdeal.main_arg1) = WR m' c (Proc.devRef .tc Cert.ReferenceIdeal.main_arg1) :=
      ((WK_arg m c Cert.KernelIdeal.main_arg1 (by decide) (by decide)).trans e1.symm).trans (WR_arg1 m' c).symm
    have h8 : WK m c (Proc.devRef .tc Cert.KernelIdeal.main_arg8) = WR m' c (Proc.devRef .tc Cert.ReferenceIdeal.main_arg8) :=
      ((WK_arg m c Cert.KernelIdeal.main_arg8 (by decide) (by decide)).trans e8.symm).trans (WR_arg8 m' c).symm
    have hP : ColsAgree (WK m c (Proc.devRef .tc Cert.KernelIdeal.main_v16)) (WR m' c (Proc.devRef .tc Cert.ReferenceIdeal.main_v14)) := by
      rw [WK_v16]
      exact Cert.Proof.Agree.cols_of_operands _ _ _ _
        (launchContents m' c (Proc.devRef .tc Cert.ReferenceIdeal.main_arg6))
        (after (List.take 19 (Cert.ReferenceIdeal.RunP.ops (F := Ideal))) (launchContents m' c) (Proc.devRef .tc Cert.ReferenceIdeal.main_v9))
        (launchContents m' c (Proc.devRef .tc Cert.ReferenceIdeal.main_arg7))
        (fun k r n => Cert.Proof.Agree.ref_proj_apply (launchContents m' c) k r n)
        (fun k j n => (V12_apply m c k j n).trans (congrFun e6.symm (ix3 k n j)))
        (fun k n => (V14_apply m c k n).trans (congrFun e7.symm (ix2 k n)))
        (fun r j => (congrFun (V15_eq m c) (ix2 r j)).trans (congrFun (Cert.Proof.Agree.trunk_agree m m' c e0 e2 e3 e4 e5).symm (ix2 r j)))
    obtain ⟨t318, t335⟩ := tails_agree (WK m c) (WR m' c) h1 h8 hP
    refine ⟨(h c Cert.ReferenceIdeal.main_v308).trans ?_, (h c Cert.ReferenceIdeal.main_v325).trans ?_,
      (h c Cert.ReferenceIdeal.main_arg0).trans (Cert.ReferenceIdeal.RunP.arg_kept _ Cert.ReferenceIdeal.main_arg0 (by decide)),
      (h c Cert.ReferenceIdeal.main_arg1).trans (Cert.ReferenceIdeal.RunP.arg_kept _ Cert.ReferenceIdeal.main_arg1 (by decide)),
      (h c Cert.ReferenceIdeal.main_arg2).trans (Cert.ReferenceIdeal.RunP.arg_kept _ Cert.ReferenceIdeal.main_arg2 (by decide)),
      (h c Cert.ReferenceIdeal.main_arg3).trans (Cert.ReferenceIdeal.RunP.arg_kept _ Cert.ReferenceIdeal.main_arg3 (by decide)),
      (h c Cert.ReferenceIdeal.main_arg4).trans (Cert.ReferenceIdeal.RunP.arg_kept _ Cert.ReferenceIdeal.main_arg4 (by decide)),
      (h c Cert.ReferenceIdeal.main_arg5).trans (Cert.ReferenceIdeal.RunP.arg_kept _ Cert.ReferenceIdeal.main_arg5 (by decide)),
      (h c Cert.ReferenceIdeal.main_arg6).trans (Cert.ReferenceIdeal.RunP.arg_kept _ Cert.ReferenceIdeal.main_arg6 (by decide)),
      (h c Cert.ReferenceIdeal.main_arg7).trans (Cert.ReferenceIdeal.RunP.arg_kept _ Cert.ReferenceIdeal.main_arg7 (by decide)),
      (h c Cert.ReferenceIdeal.main_arg8).trans (Cert.ReferenceIdeal.RunP.arg_kept _ Cert.ReferenceIdeal.main_arg8 (by decide))⟩
    · rw [tailR]; exact t318.symm.trans (tailK m c Cert.KernelIdeal.main_v318).symm
    · rw [tailR]; exact t335.symm.trans (tailK m c Cert.KernelIdeal.main_v335).symm

end Cert.Proof.Assemble

end
-- ==== Proof.RefFrame.lean ====
/-
  The reference's frame: it is a straight line of 347 host operations, so every weakly fair execution runs it to the end
  without a fault, leaving each buffer at the fold of the operations over the launch contents; and no operation writes one
  of the nine arguments, so the fold holds the launch contents there.
-/
import proofs.«155112_j24970939859619_2_alg».proof.Defs
import proofs.«155112_j24970939859619_2_alg».proof.Proof.Gen.Pre_finite_inputs
import proofs.«155112_j24970939859619_2_alg».proof.Proof.RefRun
import proofs.«155112_j24970939859619_2_alg».proof.Proof.RefKeeps

noncomputable section

namespace Cert.Proof.Assemble

open Idealize.ShloMosaic Idealize.ShloMosaic.TcCoe Idealize.SL.Sem Idealize.ShloMosaic.StableHlo

/-- The reference runs, and its arguments end unchanged. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RunP.arg_kept _ Cert.ReferenceIdeal.main_arg0 (by decide)),
     (h c Cert.ReferenceIdeal.main_arg1).trans (Cert.ReferenceIdeal.RunP.arg_kept _ Cert.ReferenceIdeal.main_arg1 (by decide)),
     (h c Cert.ReferenceIdeal.main_arg2).trans (Cert.ReferenceIdeal.RunP.arg_kept _ Cert.ReferenceIdeal.main_arg2 (by decide)),
     (h c Cert.ReferenceIdeal.main_arg3).trans (Cert.ReferenceIdeal.RunP.arg_kept _ Cert.ReferenceIdeal.main_arg3 (by decide)),
     (h c Cert.ReferenceIdeal.main_arg4).trans (Cert.ReferenceIdeal.RunP.arg_kept _ Cert.ReferenceIdeal.main_arg4 (by decide)),
     (h c Cert.ReferenceIdeal.main_arg5).trans (Cert.ReferenceIdeal.RunP.arg_kept _ Cert.ReferenceIdeal.main_arg5 (by decide)),
     (h c Cert.ReferenceIdeal.main_arg6).trans (Cert.ReferenceIdeal.RunP.arg_kept _ Cert.ReferenceIdeal.main_arg6 (by decide)),
     (h c Cert.ReferenceIdeal.main_arg7).trans (Cert.ReferenceIdeal.RunP.arg_kept _ Cert.ReferenceIdeal.main_arg7 (by decide)),
     (h c Cert.ReferenceIdeal.main_arg8).trans (Cert.ReferenceIdeal.RunP.arg_kept _ Cert.ReferenceIdeal.main_arg8 (by decide))⟩)
    (Cert.ReferenceIdeal.RunP.run (F := Ideal) m ρ)

end Cert.Proof.Assemble

end
-- ==== Proof.lean ====
/-
  The certificate's five claims.

  The kernel's program computes a trunk network on the host, then in one region the projection
  `P (k, r, n) = ∑ⱼ h (r, j) · W (k, n, j) + b (k, n)` of the trunk's output `h` by eight heads' weights — with the weights
  transposed and the column axis padded from 5256 to 5376 —, and then runs four coupling layers and a log-density on the
  host, each layer cutting two heads' parameter matrices out of `P`. The reference computes the same trunk, the same
  projection unpadded, and the same layers.

  Frames: each kernel program (the printed one at the word level, its idealization on the extended reals) is "host
  operations, one region, host operations"; the region's body loads three whole blocks, multiplies, adds a bias row and
  stores one whole block, so the launch library's run applies, and no operation before or after the region writes an
  argument. The reference is a straight line of host operations none of which writes an argument.
  Preservation: the idealization rewrote nothing.
  Equality at the ideal instance: a change of float format is the identity, so the region's result is `P` on columns
  below 5256 (the padding columns are never read: every cut the layers take ends at or before column 5256); from there the
  two programs apply the same operations to equal values.
-/
import proofs.«155112_j24970939859619_2_alg».proof.Defs
import proofs.«155112_j24970939859619_2_alg».proof.Proof.Gen.Kernel
import proofs.«155112_j24970939859619_2_alg».proof.Proof.Gen.KernelIdeal
import proofs.«155112_j24970939859619_2_alg».proof.Proof.Gen.ReferenceIdeal
import proofs.«155112_j24970939859619_2_alg».proof.Proof.Gen.Pre_finite_inputs
import proofs.«155112_j24970939859619_2_alg».proof.Proof.KRun
import proofs.«155112_j24970939859619_2_alg».proof.Proof.KIRun
import proofs.«155112_j24970939859619_2_alg».proof.Proof.Assemble
import proofs.«155112_j24970939859619_2_alg».proof.Proof.RefFrame

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.Proof.Assemble.frame_ri,
  trivial,
  Cert.Proof.Assemble.algebraic⟩

end Cert.Proof

end
